-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S16x256 : Shape := ⟨2, ![16, 256]⟩
abbrev S16 : Shape := ⟨1, ![16]⟩
abbrev S256x16 : Shape := ⟨2, ![256, 16]⟩
abbrev S256 : Shape := ⟨1, ![256]⟩
abbrev S256x512 : Shape := ⟨2, ![256, 512]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_

variable [Facts]

def fn_part4 {F : FTy → Type} [FloatOps F] (main_arg14 : FVec F S256 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  main_v73

def fn_part3 {F : FTy → Type} [FloatOps F] (main_arg11 : FVec F S16x256 .f32) (main_arg12 : FVec F S16 .f32) (main_arg13 : FVec F S256x16 .f32) (main_arg14 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S16x256 .f32 := Host.absf main_arg11
  let main_cst_20 : FVec F S_ .f32 := constant S_ .f32 0x7F800000#32
  let main_v55 : FVec F S16x256 .f32 := broadcastInDim S16x256 ![] bcast_S_S16x256 main_cst_20
  let main_v56 : IVec S16x256 1 := cmpf .olt main_v54 main_v55
  let main_c_21 : IVec S_ 1 := constantI S_ 1 1#1
  let main_v57 : IVec S_ 1 := (fun x v => Host.reduce IntOp.andi x v reducesTo_S16x256_S_d0_1 h_S_) main_v56 main_c_21
  let main_v58 : IVec S_ 1 := andi main_v53 main_v57
  let main_v59 : FVec F S16 .f32 := Host.absf main_arg12
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S256x16 .f32 := Host.absf main_arg13
  let main_cst_24 : FVec F S_ .f32 := constant S_ .f32 0x7F800000#32
  let main_v65 : FVec F S256x16 .f32 := broadcastInDim S256x16 ![] bcast_S_S256x16 main_cst_24
  let main_v66 : IVec S256x16 1 := cmpf .olt main_v64 main_v65
  let main_c_25 : IVec S_ 1 := constantI S_ 1 1#1
  let main_v67 : IVec S_ 1 := (fun x v => Host.reduce IntOp.andi x v reducesTo_S256x16_S_d0_1 h_S_) main_v66 main_c_25
  fn_part4 (F := F) main_arg14 main_v63 main_v67

def fn_part2 {F : FTy → Type} [FloatOps F] (main_arg7 : FVec F S256x16 .f32) (main_arg8 : FVec F S256 .f32) (main_arg9 : FVec F S256x512 .f32) (main_arg10 : FVec F S256 .f32) (main_arg11 : FVec F S16x256 .f32) (main_arg12 : FVec F S16 .f32) (main_arg13 : FVec F S256x16 .f32) (main_arg14 : FVec F S256 .f32) (main_v33 : IVec S_ 1) : IVec S_ 1 :=
  let main_v34 : FVec F S256x16 .f32 := Host.absf main_arg7
  let main_cst_12 : FVec F S_ .f32 := constant S_ .f32 0x7F800000#32
  let main_v35 : FVec F S256x16 .f32 := broadcastInDim S256x16 ![] bcast_S_S256x16 main_cst_12
  let main_v36 : IVec S256x16 1 := cmpf .olt main_v34 main_v35
  let main_c_13 : IVec S_ 1 := constantI S_ 1 1#1
  let main_v37 : IVec S_ 1 := (fun x v => Host.reduce IntOp.andi x v reducesTo_S256x16_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x512 .f32 := Host.absf main_arg9
  let main_cst_16 : FVec F S_ .f32 := constant S_ .f32 0x7F800000#32
  let main_v45 : FVec F S256x512 .f32 := broadcastInDim S256x512 ![] bcast_S_S256x512 main_cst_16
  let main_v46 : IVec S256x512 1 := cmpf .olt main_v44 main_v45
  let main_c_17 : IVec S_ 1 := constantI S_ 1 1#1
  let main_v47 : IVec S_ 1 := (fun x v => Host.reduce IntOp.andi x v reducesTo_S256x512_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_v48 main_v49 main_v50

def fn_part1 {F : FTy → Type} [FloatOps F] (main_arg4 : FVec F S256 .f32) (main_arg5 : FVec F S16x256 .f32) (main_arg6 : FVec F S16 .f32) (main_arg7 : FVec F S256x16 .f32) (main_arg8 : FVec F S256 .f32) (main_arg9 : FVec F S256x512 .f32) (main_arg10 : FVec F S256 .f32) (main_arg11 : FVec F S16x256 .f32) (main_arg12 : FVec F S16 .f32) (main_arg13 : FVec F S256x16 .f32) (main_arg14 : FVec F S256 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S16x256 .f32 := Host.absf main_arg5
  let main_cst_8 : FVec F S_ .f32 := constant S_ .f32 0x7F800000#32
  let main_v25 : FVec F S16x256 .f32 := broadcastInDim S16x256 ![] bcast_S_S16x256 main_cst_8
  let main_v26 : IVec S16x256 1 := cmpf .olt main_v24 main_v25
  let main_c_9 : IVec S_ 1 := constantI S_ 1 1#1
  let main_v27 : IVec S_ 1 := (fun x v => Host.reduce IntOp.andi x v reducesTo_S16x256_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S16x256x128x128 .f32) (main_arg1 : FVec F S16x256 .f32) (main_arg2 : FVec F S16 .f32) (main_arg3 : FVec F S256x16 .f32) (main_arg4 : FVec F S256 .f32) (main_arg5 : FVec F S16x256 .f32) (main_arg6 : FVec F S16 .f32) (main_arg7 : FVec F S256x16 .f32) (main_arg8 : FVec F S256 .f32) (main_arg9 : FVec F S256x512 .f32) (main_arg10 : FVec F S256 .f32) (main_arg11 : FVec F S16x256 .f32) (main_arg12 : FVec F S16 .f32) (main_arg13 : FVec F S256x16 .f32) (main_arg14 : FVec F S256 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S16x256x128x128 : Shape := ⟨4, ![16, 256, 128, 128]⟩
abbrev S16x256 : Shape := ⟨2, ![16, 256]⟩
abbrev S16 : Shape := ⟨1, ![16]⟩
abbrev S256x16 : Shape := ⟨2, ![256, 16]⟩
abbrev S256 : Shape := ⟨1, ![256]⟩
abbrev S256x512 : Shape := ⟨2, ![256, 512]⟩
abbrev S16x128x8x128 : Shape := ⟨4, ![16, 128, 8, 128]⟩
abbrev S16x128 : Shape := ⟨2, ![16, 128]⟩
abbrev S16x128x8 : Shape := ⟨3, ![16, 128, 8]⟩
abbrev S16x16 : Shape := ⟨2, ![16, 16]⟩
abbrev S1x16 : Shape := ⟨2, ![1, 16]⟩
abbrev S_ : Shape := ⟨0, ![]⟩
abbrev S1x256 : Shape := ⟨2, ![1, 256]⟩
abbrev S16x512 : Shape := ⟨2, ![16, 512]⟩
abbrev S512x256 : Shape := ⟨2, ![512, 256]⟩
abbrev S16x128x1x1 : Shape := ⟨4, ![16, 128, 1, 1]⟩

abbrev nBuf : Space → Nat
  | .hbm => 74
  | .vmem => 14
  | .smem => 0
  | _ => 0

abbrev bufTy : (tb : Table) → Fin (tcTables nBuf tb) → BufTy
  | .hbm, ⟨0, _⟩ => ⟨S16x256x128x128, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S16x256, .f32⟩
  | .hbm, ⟨6, _⟩ => ⟨S16, .f32⟩
  | .hbm, ⟨7, _⟩ => ⟨S256x16, .f32⟩
  | .hbm, ⟨8, _⟩ => ⟨S256, .f32⟩
  | .hbm, ⟨9, _⟩ => ⟨S256x512, .f32⟩
  | .hbm, ⟨10, _⟩ => ⟨S256, .f32⟩
  | .hbm, ⟨11, _⟩ => ⟨S16x256, .f32⟩
  | .hbm, ⟨12, _⟩ => ⟨S16, .f32⟩
  | .hbm, ⟨13, _⟩ => ⟨S256x16, .f32⟩
  | .hbm, ⟨14, _⟩ => ⟨S256, .f32⟩
  | .hbm, ⟨15, _⟩ => ⟨S16x256, .f32⟩
  | .hbm, ⟨16, _⟩ => ⟨S16x256, .f32⟩
  | .hbm, ⟨17, _⟩ => ⟨S256x16, .f32⟩
  | .hbm, ⟨18, _⟩ => ⟨S16x16, .f32⟩
  | .hbm, ⟨19, _⟩ => ⟨S1x16, .f32⟩
  | .hbm, ⟨20, _⟩ => ⟨S16x16, .f32⟩
  | .hbm, ⟨21, _⟩ => ⟨S16x16, .f32⟩
  | .hbm, ⟨22, _⟩ => ⟨S_, .f32⟩
  | .hbm, ⟨23, _⟩ => ⟨S16x16, .f32⟩
  | .hbm, ⟨24, _⟩ => ⟨S16x16, .f32⟩
  | .hbm, ⟨25, _⟩ => ⟨S16x256, .f32⟩
  | .hbm, ⟨26, _⟩ => ⟨S16x256, .f32⟩
  | .hbm, ⟨27, _⟩ => ⟨S1x256, .f32⟩
  | .hbm, ⟨28, _⟩ => ⟨S16x256, .f32⟩
  | .hbm, ⟨29, _⟩ => ⟨S16x256, .f32⟩
  | .hbm, ⟨30, _⟩ => ⟨S256x16, .f32⟩
  | .hbm, ⟨31, _⟩ => ⟨S16x16, .f32⟩
  | .hbm, ⟨32, _⟩ => ⟨S1x16, .f32⟩
  | .hbm, ⟨33, _⟩ => ⟨S16x16, .f32⟩
  | .hbm, ⟨34, _⟩ => ⟨S16x16, .f32⟩
  | .hbm, ⟨35, _⟩ => ⟨S_, .f32⟩
  | .hbm, ⟨36, _⟩ => ⟨S16x16, .f32⟩
  | .hbm, ⟨37, _⟩ => ⟨S16x16, .f32⟩
  | .hbm, ⟨38, _⟩ => ⟨S16x256, .f32⟩
  | .hbm, ⟨39, _⟩ => ⟨S16x256, .f32⟩
  | .hbm, ⟨40, _⟩ => ⟨S1x256, .f32⟩
  | .hbm, ⟨41, _⟩ => ⟨S16x256, .f32⟩
  | .hbm, ⟨42, _⟩ => ⟨S16x256, .f32⟩
  | .hbm, ⟨43, _⟩ => ⟨S16x512, .f32⟩
  | .hbm, ⟨44, _⟩ => ⟨S512x256, .f32⟩
  | .hbm, ⟨45, _⟩ => ⟨S16x256, .f32⟩
  | .hbm, ⟨46, _⟩ => ⟨S1x256, .f32⟩
  | .hbm, ⟨47, _⟩ => ⟨S16x256, .f32⟩
  | .hbm, ⟨48, _⟩ => ⟨S16x256, .f32⟩
  | .hbm, ⟨49, _⟩ => ⟨S_, .f32⟩
  | .hbm, ⟨50, _⟩ => ⟨S16x256, .f32⟩
  | .hbm, ⟨51, _⟩ => ⟨S16x256, .f32⟩
  | .hbm, ⟨52, _⟩ => ⟨S256x16, .f32⟩
  | .hbm, ⟨53, _⟩ => ⟨S16x16, .f32⟩
  | .hbm, ⟨54, _⟩ => ⟨S1x16, .f32⟩
  | .hbm, ⟨55, _⟩ => ⟨S16x16, .f32⟩
  | .hbm, ⟨56, _⟩ => ⟨S16x16, .f32⟩
  | .hbm, ⟨57, _⟩ => ⟨S_, .f32⟩
  | .hbm, ⟨58, _⟩ => ⟨S16x16, .f32⟩
  | .hbm, ⟨59, _⟩ => ⟨S16x16, .f32⟩
  | .hbm, ⟨60, _⟩ => ⟨S16x256, .f32⟩
  | .hbm, ⟨61, _⟩ => ⟨S16x256, .f32⟩
  | .hbm, ⟨62, _⟩ => ⟨S1x256, .f32⟩
  | .hbm, ⟨63, _⟩ => ⟨S16x256, .f32⟩
  | .hbm, ⟨64, _⟩ => ⟨S16x256, .f32⟩
  | .hbm, ⟨65, _⟩ => ⟨S16x256, .f32⟩
  | .hbm, ⟨66, _⟩ => ⟨S16x256, .f32⟩
  | .hbm, ⟨67, _⟩ => ⟨S_, .f32⟩
  | .hbm, ⟨68, _⟩ => ⟨S16x256, .f32⟩
  | .hbm, ⟨69, _⟩ => ⟨S16x256, .f32⟩
  | .hbm, ⟨70, _⟩ => ⟨S_, .f32⟩
  | .hbm, ⟨71, _⟩ => ⟨S16x256, .f32⟩
  | .hbm, ⟨72, _⟩ => ⟨S16x256, .f32⟩
  | .hbm, ⟨73, _⟩ => ⟨S16x256x128x128, .f32⟩
  | .local _ .vmem, ⟨0, _⟩ => ⟨S16x128x8x128, .f32⟩
  | .local _ .vmem, ⟨1, _⟩ => ⟨S16x128x8x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128x8x128, .f32⟩
  | .local _ .vmem, ⟨9, _⟩ => ⟨S16x128x8x128, .f32⟩
  | .local _ .vmem, ⟨10, _⟩ => ⟨S16x128, .f32⟩
  | .local _ .vmem, ⟨11, _⟩ => ⟨S16x128, .f32⟩
  | .local _ .vmem, ⟨12, _⟩ => ⟨S16x128x8x128, .f32⟩
  | .local _ .vmem, ⟨13, _⟩ => ⟨S16x128x8x128, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call0_cst : Ref sig .tc := ⟨.hbm, 22, rfl⟩
abbrev main_call0_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call1_cst : Ref sig .tc := ⟨.hbm, 35, rfl⟩
abbrev main_call1_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call2_cst : Ref sig .tc := ⟨.hbm, 49, rfl⟩
abbrev main_call2_v0 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call3_cst : Ref sig .tc := ⟨.hbm, 57, rfl⟩
abbrev main_call3_v0 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst : Ref sig .tc := ⟨.hbm, 67, rfl⟩
abbrev main_v43 : Ref sig .tc := ⟨.hbm, 68, rfl⟩
abbrev main_v44 : Ref sig .tc := ⟨.hbm, 69, rfl⟩
abbrev main_cst_0 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_15 : BitVec 32 := 0#32
  let v21 : BitVec 1 := Scalar.cmpi .ne v20 c0_i32_15
  v21

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x128x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage1_0 : Fin 2 → Memref sig .tc .vmem S16x128x8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S16x128x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S16x128x8x128_S16x128x8x128_0_0_0_0 : ∀ a, (![0, 0, 0, 0] : Fin 4 → Nat) a + S16x128x8x128.size a ≤ S16x128x8x128.size a
  h_S16x128x8x128 : 0 < S16x128x8x128.numel
  reduces_S16x128x8x128_S16x128x8 : S16x128x8x128.Reduces [3] S16x128x8
  reduces_S16x128x8_S16x128 : S16x128x8.Reduces [2] S16x128
  transposes_S16x256_S256x16_1_0 : S16x256.Transposes [1, 0] S256x16
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  transposes_S256x16_S16x256_1_0 : S256x16.Transposes [1, 0] S16x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  concatenates_S16x256_S16x256_S16x512_d1 : Shape.Concatenates [S16x256, S16x256] S16x512 1
  transposes_S256x512_S512x256_1_0 : S256x512.Transposes [1, 0] S512x256
  bcast_S_S16x256 : S_.BroadcastsInDim S16x256 (![] : Fin 0 → Fin S16x256.rank)
  shapeCasts_S16x128_S16x128x1x1 : S16x128.ShapeCasts S16x128x1x1
  broadcasts_S16x128x1x1_S16x128x8x128 : S16x128x1x1.Broadcasts S16x128x8x128
  dot_S16x256_S256x16_S16x16_1_0_0_1_n_n_wf : DotDims.WF S16x256 S256x16 S16x16 [1] [0] [0] [1] [] []
  dot_S16x16_S16x256_S16x256_1_0_0_1_n_n_wf : DotDims.WF S16x16 S16x256 S16x256 [1] [0] [0] [1] [] []
  dot_S16x512_S512x256_S16x256_1_0_0_1_n_n_wf : DotDims.WF S16x512 S512x256 S16x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x8x128.size a ≤ S16x256x128x128.size a
  hwx0_0 : ∀ i : grid0.Coords, EltTy.bits .f32 = 32 ∨ (Rect.block (s := S16x256x128x128) S16x128x8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x256.size a
  hwx0_1 : ∀ i : grid0.Coords, EltTy.bits .f32 = 32 ∨ (Rect.block (s := S16x256) S16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x256.size a
  hwx0_2 : ∀ i : grid0.Coords, EltTy.bits .f32 = 32 ∨ (Rect.block (s := S16x256) S16x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x128x8x128.size a ≤ S16x256x128x128.size a
  hwx1_0 : ∀ i : grid1.Coords, EltTy.bits .f32 = 32 ∨ (Rect.block (s := S16x256x128x128) S16x128x8x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S16x256.size a
  hwx1_1 : ∀ i : grid1.Coords, EltTy.bits .f32 = 32 ∨ (Rect.block (s := S16x256) S16x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x128x8x128.size a ≤ S16x256x128x128.size a
  hwx1_2 : ∀ i : grid1.Coords, EltTy.bits .f32 = 32 ∨ (Rect.block (s := S16x256x128x128) S16x128x8x128.size (cc1_transform_2 i) (hinb1_2 i)).WholeWords (EltTy.packing .f32)

variable [Facts₀]

def dot_S16x256_S256x16_S16x16_1_0_0_1_n_n : DotDims S16x256 S256x16 S16x16 where
  lhsContracting := [1]
  rhsContracting := [0]
  lhsNonContracting := [0]
  rhsNonContracting := [1]
  lhsBatch := []
  rhsBatch := []
  wf := dot_S16x256_S256x16_S16x16_1_0_0_1_n_n_wf
def dot_S16x16_S16x256_S16x256_1_0_0_1_n_n : DotDims S16x16 S16x256 S16x256 where
  lhsContracting := [1]
  rhsContracting := [0]
  lhsNonContracting := [0]
  rhsNonContracting := [1]
  lhsBatch := []
  rhsBatch := []
  wf := dot_S16x16_S16x256_S16x256_1_0_0_1_n_n_wf
def dot_S16x512_S512x256_S16x256_1_0_0_1_n_n : DotDims S16x512 S512x256 S16x256 where
  lhsContracting := [1]
  rhsContracting := [0]
  lhsNonContracting := [0]
  rhsNonContracting := [1]
  lhsBatch := []
  rhsBatch := []
  wf := dot_S16x512_S512x256_S16x256_1_0_0_1_n_n_wf

abbrev win0_0 : Pipeline.Window sig grid0 :=
  Pipeline.Window.ofSpec (Memref.whole main_arg0) S16x128x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S16x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S16x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S16x128x8x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S16x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S16x128x8x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x256x128x128 : Shape := ⟨4, ![16, 256, 128, 128]⟩
abbrev S16x256 : Shape := ⟨2, ![16, 256]⟩
abbrev S16 : Shape := ⟨1, ![16]⟩
abbrev S256x16 : Shape := ⟨2, ![256, 16]⟩
abbrev S256 : Shape := ⟨1, ![256]⟩
abbrev S256x512 : Shape := ⟨2, ![256, 512]⟩
abbrev S_ : Shape := ⟨0, ![]⟩
abbrev S16x256x1x1 : Shape := ⟨4, ![16, 256, 1, 1]⟩
abbrev S16x16 : Shape := ⟨2, ![16, 16]⟩
abbrev S1x16 : Shape := ⟨2, ![1, 16]⟩
abbrev S1x256 : Shape := ⟨2, ![1, 256]⟩
abbrev S16x512 : Shape := ⟨2, ![16, 512]⟩
abbrev S512x256 : Shape := ⟨2, ![512, 256]⟩

abbrev nBuf : Space → Nat
  | .hbm => 89
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S16x256, .f32⟩
  | .hbm, ⟨6, _⟩ => ⟨S16, .f32⟩
  | .hbm, ⟨7, _⟩ => ⟨S256x16, .f32⟩
  | .hbm, ⟨8, _⟩ => ⟨S256, .f32⟩
  | .hbm, ⟨9, _⟩ => ⟨S256x512, .f32⟩
  | .hbm, ⟨10, _⟩ => ⟨S256, .f32⟩
  | .hbm, ⟨11, _⟩ => ⟨S16x256, .f32⟩
  | .hbm, ⟨12, _⟩ => ⟨S16, .f32⟩
  | .hbm, ⟨13, _⟩ => ⟨S256x16, .f32⟩
  | .hbm, ⟨14, _⟩ => ⟨S256, .f32⟩
  | .hbm, ⟨15, _⟩ => ⟨S_, .f32⟩
  | .hbm, ⟨16, _⟩ => ⟨S16x256, .f32⟩
  | .hbm, ⟨17, _⟩ => ⟨S_, .f32⟩
  | .hbm, ⟨18, _⟩ => ⟨S16x256, .f32⟩
  | .hbm, ⟨19, _⟩ => ⟨S16x256, .f32⟩
  | .hbm, ⟨20, _⟩ => ⟨S16x256x1x1, .f32⟩
  | .hbm, ⟨21, _⟩ => ⟨S16x256x128x128, .f32⟩
  | .hbm, ⟨22, _⟩ => ⟨S16x256x128x128, .f32⟩
  | .hbm, ⟨23, _⟩ => ⟨S16x256x128x128, .f32⟩
  | .hbm, ⟨24, _⟩ => ⟨S_, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S256x16, .f32⟩
  | .hbm, ⟨31, _⟩ => ⟨S16x16, .f32⟩
  | .hbm, ⟨32, _⟩ => ⟨S1x16, .f32⟩
  | .hbm, ⟨33, _⟩ => ⟨S16x16, .f32⟩
  | .hbm, ⟨34, _⟩ => ⟨S16x16, .f32⟩
  | .hbm, ⟨35, _⟩ => ⟨S_, .f32⟩
  | .hbm, ⟨36, _⟩ => ⟨S16x16, .f32⟩
  | .hbm, ⟨37, _⟩ => ⟨S16x16, .f32⟩
  | .hbm, ⟨38, _⟩ => ⟨S16x256, .f32⟩
  | .hbm, ⟨39, _⟩ => ⟨S16x256, .f32⟩
  | .hbm, ⟨40, _⟩ => ⟨S1x256, .f32⟩
  | .hbm, ⟨41, _⟩ => ⟨S16x256, .f32⟩
  | .hbm, ⟨42, _⟩ => ⟨S16x256, .f32⟩
  | .hbm, ⟨43, _⟩ => ⟨S256x16, .f32⟩
  | .hbm, ⟨44, _⟩ => ⟨S16x16, .f32⟩
  | .hbm, ⟨45, _⟩ => ⟨S1x16, .f32⟩
  | .hbm, ⟨46, _⟩ => ⟨S16x16, .f32⟩
  | .hbm, ⟨47, _⟩ => ⟨S16x16, .f32⟩
  | .hbm, ⟨48, _⟩ => ⟨S_, .f32⟩
  | .hbm, ⟨49, _⟩ => ⟨S16x16, .f32⟩
  | .hbm, ⟨50, _⟩ => ⟨S16x16, .f32⟩
  | .hbm, ⟨51, _⟩ => ⟨S16x256, .f32⟩
  | .hbm, ⟨52, _⟩ => ⟨S16x256, .f32⟩
  | .hbm, ⟨53, _⟩ => ⟨S1x256, .f32⟩
  | .hbm, ⟨54, _⟩ => ⟨S16x256, .f32⟩
  | .hbm, ⟨55, _⟩ => ⟨S16x256, .f32⟩
  | .hbm, ⟨56, _⟩ => ⟨S16x512, .f32⟩
  | .hbm, ⟨57, _⟩ => ⟨S512x256, .f32⟩
  | .hbm, ⟨58, _⟩ => ⟨S16x256, .f32⟩
  | .hbm, ⟨59, _⟩ => ⟨S1x256, .f32⟩
  | .hbm, ⟨60, _⟩ => ⟨S16x256, .f32⟩
  | .hbm, ⟨61, _⟩ => ⟨S16x256, .f32⟩
  | .hbm, ⟨62, _⟩ => ⟨S_, .f32⟩
  | .hbm, ⟨63, _⟩ => ⟨S16x256, .f32⟩
  | .hbm, ⟨64, _⟩ => ⟨S16x256, .f32⟩
  | .hbm, ⟨65, _⟩ => ⟨S256x16, .f32⟩
  | .hbm, ⟨66, _⟩ => ⟨S16x16, .f32⟩
  | .hbm, ⟨67, _⟩ => ⟨S1x16, .f32⟩
  | .hbm, ⟨68, _⟩ => ⟨S16x16, .f32⟩
  | .hbm, ⟨69, _⟩ => ⟨S16x16, .f32⟩
  | .hbm, ⟨70, _⟩ => ⟨S_, .f32⟩
  | .hbm, ⟨71, _⟩ => ⟨S16x16, .f32⟩
  | .hbm, ⟨72, _⟩ => ⟨S16x16, .f32⟩
  | .hbm, ⟨73, _⟩ => ⟨S16x256, .f32⟩
  | .hbm, ⟨74, _⟩ => ⟨S16x256, .f32⟩
  | .hbm, ⟨75, _⟩ => ⟨S1x256, .f32⟩
  | .hbm, ⟨76, _⟩ => ⟨S16x256, .f32⟩
  | .hbm, ⟨77, _⟩ => ⟨S16x256, .f32⟩
  | .hbm, ⟨78, _⟩ => ⟨S16x256, .f32⟩
  | .hbm, ⟨79, _⟩ => ⟨S16x256, .f32⟩
  | .hbm, ⟨80, _⟩ => ⟨S_, .f32⟩
  | .hbm, ⟨81, _⟩ => ⟨S16x256, .f32⟩
  | .hbm, ⟨82, _⟩ => ⟨S16x256, .f32⟩
  | .hbm, ⟨83, _⟩ => ⟨S_, .f32⟩
  | .hbm, ⟨84, _⟩ => ⟨S16x256, .f32⟩
  | .hbm, ⟨85, _⟩ => ⟨S16x256, .f32⟩
  | .hbm, ⟨86, _⟩ => ⟨S16x256x1x1, .f32⟩
  | .hbm, ⟨87, _⟩ => ⟨S16x256x128x128, .f32⟩
  | .hbm, ⟨88, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_cst_2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_call0_cst : Ref sig .tc := ⟨.hbm, 35, rfl⟩
abbrev main_call0_v0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call1_cst : Ref sig .tc := ⟨.hbm, 48, rfl⟩
abbrev main_call1_v0 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call2_cst : Ref sig .tc := ⟨.hbm, 62, rfl⟩
abbrev main_call2_v0 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call3_cst : Ref sig .tc := ⟨.hbm, 70, rfl⟩
abbrev main_call3_v0 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_3 : Ref sig .tc := ⟨.hbm, 80, rfl⟩
abbrev main_v53 : Ref sig .tc := ⟨.hbm, 81, rfl⟩
abbrev main_v54 : Ref sig .tc := ⟨.hbm, 82, rfl⟩
abbrev main_cst_4 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩

abbrev nD : Nat := 1
abbrev τ : Topo := Topo.v7x

variable {F : FTy → Type} [FloatOps F]

class Facts₀ : Prop where
  reducesTo_S16x256x128x128_S16x256_d2_3 : S16x256x128x128.ReducesTo [2, 3] S16x256
  h_S_ : 0 < S_.numel
  bcast_S_S16x256 : S_.BroadcastsInDim S16x256 (![] : Fin 0 → Fin S16x256.rank)
  bcast_S16x256_S16x256x1x1_0_1 : S16x256.BroadcastsInDim S16x256x1x1 (![0, 1] : Fin 2 → Fin S16x256x1x1.rank)
  bcast_S16x256x1x1_S16x256x128x128_0_1_2_3 : S16x256x1x1.BroadcastsInDim S16x256x128x128 (![0, 1, 2, 3] : Fin 4 → Fin S16x256x128x128.rank)
  transposes_S16x256_S256x16_1_0 : S16x256.Transposes [1, 0] S256x16
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  transposes_S256x16_S16x256_1_0 : S256x16.Transposes [1, 0] S16x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  concatenates_S16x256_S16x256_S16x512_d1 : Shape.Concatenates [S16x256, S16x256] S16x512 1
  transposes_S256x512_S512x256_1_0 : S256x512.Transposes [1, 0] S512x256
  dot_S16x256_S256x16_S16x16_1_0_0_1_n_n_wf : DotDims.WF S16x256 S256x16 S16x16 [1] [0] [0] [1] [] []
  dot_S16x16_S16x256_S16x256_1_0_0_1_n_n_wf : DotDims.WF S16x16 S16x256 S16x256 [1] [0] [0] [1] [] []
  dot_S16x512_S512x256_S16x256_1_0_0_1_n_n_wf : DotDims.WF S16x512 S512x256 S16x256 [1] [0] [0] [1] [] []

variable [Facts₀]

def dot_S16x256_S256x16_S16x16_1_0_0_1_n_n : DotDims S16x256 S256x16 S16x16 where
  lhsContracting := [1]
  rhsContracting := [0]
  lhsNonContracting := [0]
  rhsNonContracting := [1]
  lhsBatch := []
  rhsBatch := []
  wf := dot_S16x256_S256x16_S16x16_1_0_0_1_n_n_wf
def dot_S16x16_S16x256_S16x256_1_0_0_1_n_n : DotDims S16x16 S16x256 S16x256 where
  lhsContracting := [1]
  rhsContracting := [0]
  lhsNonContracting := [0]
  rhsNonContracting := [1]
  lhsBatch := []
  rhsBatch := []
  wf := dot_S16x16_S16x256_S16x256_1_0_0_1_n_n_wf
def dot_S16x512_S512x256_S16x256_1_0_0_1_n_n : DotDims S16x512 S512x256 S16x256 where
  lhsContracting := [1]
  rhsContracting := [0]
  lhsNonContracting := [0]
  rhsNonContracting := [1]
  lhsBatch := []
  rhsBatch := []
  wf := dot_S16x512_S512x256_S16x256_1_0_0_1_n_n_wf

class Facts : Prop extends Facts₀ where

variable [Facts]
-- ==== Proof.KB.StatsBase.lean ====
/-
  The statistics kernel (the first pallas_call): what its three control cases are, and where its two result
  windows are idle. The grid is 2 channel halves by 16 tiles of eight rows, point `t` being tile `t % 16` of half
  `t / 16`. At a half's first tile the two accumulators are zeroed; at every tile the tile's sums of `x` and of
  `x * x` are added to them; at the half's last tile the mean and the deviation are written to the result windows,
  which the pipeline writes back at that point only.
-/
import proofs.«146710_j41394894799126_2_alg».proof.Proof.Gen.Kernel.Launch
import proofs.«146710_j41394894799126_2_alg».proof.Proof.Gen.Kernel.Skeleton
import proofs.«146710_j41394894799126_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the grid -/

/-- "This is the half's first tile": the condition under which the accumulators are zeroed. -/
abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 16 = 0 :=
  (by decide +kernel : ∀ t : Fin grid0.N, isFirst (grid0.coords t) ↔ t.val % 16 = 0)

/-- "This is the half's last tile": the condition under which the results are written. -/
abbrev isLast (i : grid0.Coords) : Prop := k0_cond2 i = 1#1
theorem isLast_iff : ∀ t : Fin cfg0.N, isLast (grid0.coords t) ↔ t.val % 16 = 15 :=
  (by decide +kernel : ∀ t : Fin grid0.N, isLast (grid0.coords t) ↔ t.val % 16 = 15)

/-! ## Where the windows are idle -/

theorem live_in : ∀ t : Fin cfg0.N, cfg0.idle 0 (grid0.coords t) = false := by decide +kernel
theorem idle_mean : ∀ t : Fin cfg0.N, ¬isLast (grid0.coords t) → cfg0.idle 1 (grid0.coords t) = true := by decide +kernel
theorem idle_std : ∀ t : Fin cfg0.N, ¬isLast (grid0.coords t) → cfg0.idle 2 (grid0.coords t) = true := by decide +kernel
theorem keep_mean : ∀ t : Fin cfg0.N, ¬isLast (grid0.coords t) → (cfg0.win 1).flush t = false := by decide +kernel
theorem keep_std : ∀ t : Fin cfg0.N, ¬isLast (grid0.coords t) → (cfg0.win 2).flush t = false := by decide +kernel
theorem live_mean : ∀ t : Fin cfg0.N, isLast (grid0.coords t) → cfg0.idle 1 (grid0.coords t) = false := by decide +kernel
theorem live_std : ∀ t : Fin cfg0.N, isLast (grid0.coords t) → cfg0.idle 2 (grid0.coords t) = false := by decide +kernel

/-! ## The memrefs the body is called with -/

/-- A view through which the contents of a 16 x 128 buffer are stated. -/
abbrev VO : View sig .tc .vmem S16x128 .f32 := (Memref.whole cc0_stg1_0 : Memref sig .tc .vmem S16x128 .f32).view
abbrev ms0 (t : Fin cfg0.N) : Memref sig .tc .vmem S16x128x8x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x128 .f32 := win0_2.stage (cfg0.slots t 2)
abbrev hs2 (t : Fin cfg0.N) : (ms2 t).IsWhole := hstage0_2 ((cfg0.slots t 2).cast nbuf0_2)
/-- The two accumulators: the running sum and the running sum of squares. -/
abbrev accS : Memref sig .tc .vmem S16x128 .f32 := Memref.whole cc0_scratch0
abbrev accQ : Memref sig .tc .vmem S16x128 .f32 := Memref.whole cc0_scratch1

/-- The core's scoped buffers that belong to the second pallas_call, each whole at some contents: they ride through
    the first call untouched. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the region's invariant holds before its first point: the two accumulators at some contents, the second
    call's buffers, the generator register. -/
theorem entry_inv (c : Dev nD) :
    (Pipeline.ΦA spec0 c : sProp 𝕄)
      = iprop(iprop((∃ d, owns (c : Thread nD τ) accS fullShare d) ∗ (∃ d, owns (c : Thread nD τ) accQ fullShare d) ∗ others c) ∗ (∃ r, prngReg c r)) := by
  unfold Pipeline.ΦA; rw [scopedRest0_eq]; simp only [accS, accQ, owns_whole, others]; rfl

end Cert.Kernel.Hand

end
-- ==== Proof.KB.StatsFirst.lean ====
/-
  The statistics kernel's body at a half's FIRST tile: the accumulators are zeroed, then the tile's sums added.
  The run finds, as lists of stored pieces (last first), what each accumulator holds afterwards; the result windows
  are handed back untouched.
-/
import proofs.«146710_j41394894799126_2_alg».proof.Proof.KB.StatsBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- On whole memrefs — the input block at `x0`, the two result buffers at `y1`, `y2`, the accumulators at anything — the
    body at a first, not last, tile runs to the continuation holding the input and the result buffers as they were and
    each accumulator with its pieces written. -/
noncomputable def runFirst (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : isFirst i) (h1 : ¬isLast i)
    (x0 : Vec F S16x128x8x128 .f32) :
    Σ' (LS : List (View.Piece (Elt F) S16x128 .f32)), { LQ : List (View.Piece (Elt F) S16x128 .f32) //
      ∀ (y1 y2 : Vec F S16x128 .f32) (E : Set ℕ) (K : PUnit → sProp 𝕄),
        iprop(owns (c : Thread nD τ) arg2 fullShare x0 ∗ owns (c : Thread nD τ) arg3 fullShare y1 ∗ owns (c : Thread nD τ) arg4 fullShare y2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare y1 ∗ owns (c : Thread nD τ) arg4 fullShare y2 ∗ (∃ f, arg5.view.loc (c : Thread nD τ) ↦[arg5.view.set]{fullShare} arg5.view.writes (Elt F) f LS) ∗ (∃ f, arg6.view.loc (c : Thread nD τ) ↦[arg6.view.set]{fullShare} arg6.view.writes (Elt F) f LQ)) -∗ K ⟨⟩))
          ⊢ wp frame (wpE (defs₀ (F := F)) Variants.none c none) E (cc0__stats_kernel i arg2 harg2 arg3 harg3 arg4 harg4 arg5 harg5 arg6 harg6) K } := by
  refine ⟨?_, ?_, fun y1 y2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%dS, %fS, -, HS⟩, ⟨%dQ, %fQ, -, HQ⟩, Hk⟩
    obtain rfl := harg2.eq_unread hf0; obtain rfl := harg3.eq_unread hf1; obtain rfl := harg4.eq_unread hf2
    sl_exec (disch := first | exact h0 | exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS]; · iexists _; iexact HS
    iexists _; iexact HQ

end Cert.Kernel.Hand

end
-- ==== Proof.KB.StatsMid.lean ====
/-
  The statistics kernel's body at a tile that is neither a half's first nor its last: the tile's sums are added
  to the accumulators, which hold what the tile before left; the result windows are handed back untouched.
-/
import proofs.«146710_j41394894799126_2_alg».proof.Proof.KB.StatsBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- On whole memrefs — the input block at `x0`, the result buffers at `y1`, `y2`, the accumulators at `s`, `q` — the body at
    a middle tile runs to the continuation holding the input and the result buffers as they were and each accumulator
    with its pieces written. -/
noncomputable def runMid (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : ¬isFirst i) (h1 : ¬isLast i)
    (x0 : Vec F S16x128x8x128 .f32) (s q : Vec F S16x128 .f32) :
    Σ' (LS : List (View.Piece (Elt F) S16x128 .f32)), { LQ : List (View.Piece (Elt F) S16x128 .f32) //
      ∀ (y1 y2 : Vec F S16x128 .f32) (E : Set ℕ) (K : PUnit → sProp 𝕄),
        iprop(owns (c : Thread nD τ) arg2 fullShare x0 ∗ owns (c : Thread nD τ) arg3 fullShare y1 ∗ owns (c : Thread nD τ) arg4 fullShare y2 ∗ owns (c : Thread nD τ) arg5 fullShare s ∗ owns (c : Thread nD τ) arg6 fullShare q
            ∗ (iprop(owns (c : Thread nD τ) arg2 fullShare x0 ∗ owns (c : Thread nD τ) arg3 fullShare y1 ∗ owns (c : Thread nD τ) arg4 fullShare y2 ∗ (∃ f, arg5.view.loc (c : Thread nD τ) ↦[arg5.view.set]{fullShare} arg5.view.writes (Elt F) f LS) ∗ (∃ f, arg6.view.loc (c : Thread nD τ) ↦[arg6.view.set]{fullShare} arg6.view.writes (Elt F) f LQ)) -∗ K ⟨⟩))
          ⊢ wp frame (wpE (defs₀ (F := F)) Variants.none c none) E (cc0__stats_kernel i arg2 harg2 arg3 harg3 arg4 harg4 arg5 harg5 arg6 harg6) K } := by
  refine ⟨?_, ?_, fun y1 y2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%fS, %hfS, HS⟩, ⟨%fQ, %hfQ, HQ⟩, Hk⟩
    obtain rfl := harg2.eq_unread hf0; obtain rfl := harg3.eq_unread hf1; obtain rfl := harg4.eq_unread hf2
    obtain rfl := harg5.eq_unread hfS; obtain rfl := harg6.eq_unread hfQ
    sl_exec (disch := first | exact h0 | exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS]; · iexists _; iexact HS
    iexists _; iexact HQ

end Cert.Kernel.Hand

end
-- ==== Proof.KB.StatsLast.lean ====
/-
  The statistics kernel's body at a half's LAST tile: the tile's sums are added to the accumulators, and the mean
  and the deviation computed from them are stored whole into the two result windows.
-/
import proofs.«146710_j41394894799126_2_alg».proof.Proof.KB.StatsBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- On whole memrefs — the input block at `x0`, the result buffers at anything, the accumulators at `s`, `q` — the body at a
    last, not first, tile runs to the continuation holding the input as it was and every other buffer with its pieces
    written. -/
noncomputable def runLast (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : ¬isFirst i) (h1 : isLast i)
    (x0 : Vec F S16x128x8x128 .f32) (s q : Vec F S16x128 .f32) :
    Σ' (L1 : List (View.Piece (Elt F) S16x128 .f32)) (L2 : List (View.Piece (Elt F) S16x128 .f32)) (LS : List (View.Piece (Elt F) S16x128 .f32)), { LQ : List (View.Piece (Elt F) S16x128 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare s ∗ owns (c : Thread nD τ) arg6 fullShare q
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS) ∗ (∃ f, arg6.view.loc (c : Thread nD τ) ↦[arg6.view.set]{fullShare} arg6.view.writes (Elt F) f LQ)) -∗ K ⟨⟩))
          ⊢ wp frame (wpE (defs₀ (F := F)) Variants.none c none) E (cc0__stats_kernel i arg2 harg2 arg3 harg3 arg4 harg4 arg5 harg5 arg6 harg6) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, ⟨%fS, %hfS, HS⟩, ⟨%fQ, %hfQ, HQ⟩, Hk⟩
    obtain rfl := harg2.eq_unread hf0
    obtain rfl := harg5.eq_unread hfS; obtain rfl := harg6.eq_unread hfQ
    sl_exec (disch := first | exact h0 | exact h1)
    sl_step
    iapply Hk
    isplitl [H0]
    · iexists _; isplitr; · ipureintro; exact harg2.read_unread _
      iexact H0
    isplitl [H1]; · iexists _; iexact H1
    isplitl [H2]; · iexists _; iexact H2
    isplitl [HS]; · iexists _; iexact HS
    iexists _; iexact HQ

end Cert.Kernel.Hand

end
-- ==== Proof.KB.StatsFrame.lean ====
/-
  The statistics kernel's region at the contents `V` it is entered with: what the two accumulators and the two
  result buffers hold after each grid point (`stAt`, by recursion on the point: a half's first tile starts from
  zeroed accumulators, every other tile from what the tile before left), the pipeline's proof data, and the body
  obligation at a generic point. The region's invariant carries the accumulators at the contents the point before
  left; before the first point, and to whoever takes it back, they are at some contents.
-/
import proofs.«146710_j41394894799126_2_alg».proof.Proof.KB.StatsFirst
import proofs.«146710_j41394894799126_2_alg».proof.Proof.KB.StatsMid
import proofs.«146710_j41394894799126_2_alg».proof.Proof.KB.StatsLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input window's block -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current staging buffer holds its block at every point. -/
theorem before_in_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-! ## The three cases at a point of the grid -/

/-- A list of stored pieces read back as the contents of a 16 x 128 buffer. -/
abbrev rd (L : List (View.Piece (Elt F) S16x128 .f32)) : Vec F S16x128 .f32 := VO.read (Elt F) (VO.writes (Elt F) VO.junk L)

/-- Contents nothing consults: a result buffer at a point where its window is idle. -/
abbrev idleBuf : Vec F S16x128 .f32 := rd (F := F) []

abbrev firstAt (c : Dev nD) (t : Fin cfg0.N) (h0 : t.val % 16 = 0) :=
  runFirst (F := F) c (grid0.coords t) (ms0 t) (hs0 t) (ms1 t) (hs1 t) (ms2 t) (hs2 t) accS (Memref.isWhole_whole _) accQ (Memref.isWhole_whole _)
    ((isFirst_iff t).mpr h0) (fun h => by have := (isLast_iff t).mp h; omega) (blk0 V c 0 t)
abbrev midAt (c : Dev nD) (t : Fin cfg0.N) (h0 : ¬t.val % 16 = 0) (h1 : ¬t.val % 16 = 15) (s q : Vec F S16x128 .f32) :=
  runMid (F := F) c (grid0.coords t) (ms0 t) (hs0 t) (ms1 t) (hs1 t) (ms2 t) (hs2 t) accS (Memref.isWhole_whole _) accQ (Memref.isWhole_whole _)
    (fun h => h0 ((isFirst_iff t).mp h)) (fun h => h1 ((isLast_iff t).mp h)) (blk0 V c 0 t) s q
abbrev lastAt (c : Dev nD) (t : Fin cfg0.N) (h0 : ¬t.val % 16 = 0) (h1 : t.val % 16 = 15) (s q : Vec F S16x128 .f32) :=
  runLast (F := F) c (grid0.coords t) (ms0 t) (hs0 t) (ms1 t) (hs1 t) (ms2 t) (hs2 t) accS (Memref.isWhole_whole _) accQ (Memref.isWhole_whole _)
    (fun h => h0 ((isFirst_iff t).mp h)) ((isLast_iff t).mpr h1) (blk0 V c 0 t) s q

/-- Each case's stored pieces tile the buffer they go to, so they cover it. -/
theorem first_coverS (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : isFirst i) (h1 : ¬isLast i) (x0 : Vec F S16x128x8x128 .f32) (y : S16x128.Idx) :
    ∃ pc ∈ (runFirst c i arg2 harg2 arg3 harg3 arg4 harg4 arg5 harg5 arg6 harg6 h0 h1 x0).1, y ∈ pc.1.set :=
  View.cover_of_tiledL _ S16x128.size (by sl_kernel_rfl) y
theorem first_coverQ (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : isFirst i) (h1 : ¬isLast i) (x0 : Vec F S16x128x8x128 .f32) (y : S16x128.Idx) :
    ∃ pc ∈ (runFirst c i arg2 harg2 arg3 harg3 arg4 harg4 arg5 harg5 arg6 harg6 h0 h1 x0).2.1, y ∈ pc.1.set :=
  View.cover_of_tiledL _ S16x128.size (by sl_kernel_rfl) y
theorem mid_coverS (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : ¬isFirst i) (h1 : ¬isLast i) (x0 : Vec F S16x128x8x128 .f32) (s q : Vec F S16x128 .f32) (y : S16x128.Idx) :
    ∃ pc ∈ (runMid c i arg2 harg2 arg3 harg3 arg4 harg4 arg5 harg5 arg6 harg6 h0 h1 x0 s q).1, y ∈ pc.1.set :=
  View.cover_of_tiledL _ S16x128.size (by sl_kernel_rfl) y
theorem mid_coverQ (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : ¬isFirst i) (h1 : ¬isLast i) (x0 : Vec F S16x128x8x128 .f32) (s q : Vec F S16x128 .f32) (y : S16x128.Idx) :
    ∃ pc ∈ (runMid c i arg2 harg2 arg3 harg3 arg4 harg4 arg5 harg5 arg6 harg6 h0 h1 x0 s q).2.1, y ∈ pc.1.set :=
  View.cover_of_tiledL _ S16x128.size (by sl_kernel_rfl) y
theorem last_cover1 (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : ¬isFirst i) (h1 : isLast i) (x0 : Vec F S16x128x8x128 .f32) (s q : Vec F S16x128 .f32) (y : S16x128.Idx) :
    ∃ pc ∈ (runLast c i arg2 harg2 arg3 harg3 arg4 harg4 arg5 harg5 arg6 harg6 h0 h1 x0 s q).1, y ∈ pc.1.set :=
  View.cover_of_tiledL _ S16x128.size (by sl_kernel_rfl) y
theorem last_cover2 (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : ¬isFirst i) (h1 : isLast i) (x0 : Vec F S16x128x8x128 .f32) (s q : Vec F S16x128 .f32) (y : S16x128.Idx) :
    ∃ pc ∈ (runLast c i arg2 harg2 arg3 harg3 arg4 harg4 arg5 harg5 arg6 harg6 h0 h1 x0 s q).2.1, y ∈ pc.1.set :=
  View.cover_of_tiledL _ S16x128.size (by sl_kernel_rfl) y
theorem last_coverS (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : ¬isFirst i) (h1 : isLast i) (x0 : Vec F S16x128x8x128 .f32) (s q : Vec F S16x128 .f32) (y : S16x128.Idx) :
    ∃ pc ∈ (runLast c i arg2 harg2 arg3 harg3 arg4 harg4 arg5 harg5 arg6 harg6 h0 h1 x0 s q).2.2.1, y ∈ pc.1.set :=
  View.cover_of_tiledL _ S16x128.size (by sl_kernel_rfl) y
theorem last_coverQ (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : ¬isFirst i) (h1 : isLast i) (x0 : Vec F S16x128x8x128 .f32) (s q : Vec F S16x128 .f32) (y : S16x128.Idx) :
    ∃ pc ∈ (runLast c i arg2 harg2 arg3 harg3 arg4 harg4 arg5 harg5 arg6 harg6 h0 h1 x0 s q).2.2.2.1, y ∈ pc.1.set :=
  View.cover_of_tiledL _ S16x128.size (by sl_kernel_rfl) y

/-! ## What the buffers hold after each point -/

/-- The mean's and the deviation's staging buffers and the two accumulators after a point. -/
structure St (F : FTy → Type) [FloatOps F] where
  mean : Vec F S16x128 .f32
  std : Vec F S16x128 .f32
  s : Vec F S16x128 .f32
  q : Vec F S16x128 .f32

/-- THE ACCUMULATION: the state after the body at position `n`. A half's first tile starts the accumulators afresh;
    any other tile continues from the state after position `n - 1`; a half's last tile also fills the result buffers. -/
def stAt (c : Dev nD) : (n : ℕ) → n < cfg0.N → St F
  | 0, hn => ⟨idleBuf, idleBuf, rd (firstAt V c ⟨0, hn⟩ (Nat.zero_mod _)).1, rd (firstAt V c ⟨0, hn⟩ (Nat.zero_mod _)).2.1⟩
  | n + 1, hn =>
    if h0 : (n + 1) % 16 = 0 then
      ⟨idleBuf, idleBuf, rd (firstAt V c ⟨n + 1, hn⟩ h0).1, rd (firstAt V c ⟨n + 1, hn⟩ h0).2.1⟩
    else if h1 : (n + 1) % 16 = 15 then
      ⟨rd (lastAt V c ⟨n + 1, hn⟩ h0 h1 (stAt c n (Nat.lt_of_succ_lt hn)).s (stAt c n (Nat.lt_of_succ_lt hn)).q).1,
       rd (lastAt V c ⟨n + 1, hn⟩ h0 h1 (stAt c n (Nat.lt_of_succ_lt hn)).s (stAt c n (Nat.lt_of_succ_lt hn)).q).2.1,
       rd (lastAt V c ⟨n + 1, hn⟩ h0 h1 (stAt c n (Nat.lt_of_succ_lt hn)).s (stAt c n (Nat.lt_of_succ_lt hn)).q).2.2.1,
       rd (lastAt V c ⟨n + 1, hn⟩ h0 h1 (stAt c n (Nat.lt_of_succ_lt hn)).s (stAt c n (Nat.lt_of_succ_lt hn)).q).2.2.2.1⟩
    else
      ⟨idleBuf, idleBuf,
       rd (midAt V c ⟨n + 1, hn⟩ h0 h1 (stAt c n (Nat.lt_of_succ_lt hn)).s (stAt c n (Nat.lt_of_succ_lt hn)).q).1,
       rd (midAt V c ⟨n + 1, hn⟩ h0 h1 (stAt c n (Nat.lt_of_succ_lt hn)).s (stAt c n (Nat.lt_of_succ_lt hn)).q).2.1⟩

/-- The state before point `t` when `t` is not a half's first tile: the state after the point before. -/
abbrev prevAt (c : Dev nD) (t : Fin cfg0.N) : St F :=
  stAt V c (t.val - 1) (Nat.lt_of_le_of_lt (Nat.sub_le _ _) t.isLt)

theorem stAt_first (c : Dev nD) (t : Fin cfg0.N) (h0 : t.val % 16 = 0) :
    stAt V c t.val t.isLt = ⟨idleBuf, idleBuf, rd (firstAt V c t h0).1, rd (firstAt V c t h0).2.1⟩ := by
  obtain ⟨n, hn⟩ := t
  cases n with
  | zero => rfl
  | succ n => exact (dif_pos h0).trans rfl

theorem stAt_mid (c : Dev nD) (t : Fin cfg0.N) (h0 : ¬t.val % 16 = 0) (h1 : ¬t.val % 16 = 15) :
    stAt V c t.val t.isLt = ⟨idleBuf, idleBuf, rd (midAt V c t h0 h1 (prevAt V c t).s (prevAt V c t).q).1,
      rd (midAt V c t h0 h1 (prevAt V c t).s (prevAt V c t).q).2.1⟩ := by
  obtain ⟨n, hn⟩ := t
  cases n with
  | zero => exact absurd (Nat.zero_mod _) h0
  | succ n => exact (dif_neg h0).trans ((dif_neg h1).trans rfl)

theorem stAt_last (c : Dev nD) (t : Fin cfg0.N) (h0 : ¬t.val % 16 = 0) (h1 : t.val % 16 = 15) :
    stAt V c t.val t.isLt = ⟨rd (lastAt V c t h0 h1 (prevAt V c t).s (prevAt V c t).q).1,
      rd (lastAt V c t h0 h1 (prevAt V c t).s (prevAt V c t).q).2.1,
      rd (lastAt V c t h0 h1 (prevAt V c t).s (prevAt V c t).q).2.2.1,
      rd (lastAt V c t h0 h1 (prevAt V c t).s (prevAt V c t).q).2.2.2.1⟩ := by
  obtain ⟨n, hn⟩ := t
  cases n with
  | zero => exact absurd (Nat.zero_mod _) h0
  | succ n => exact (dif_neg h0).trans ((dif_pos h1).trans rfl)

/-! ## The region's invariant -/

/-- Before position `n`: before the first point the scoped rest at anything; afterwards the two accumulators at what the
    point before left, the second call's buffers, and the generator register at some state. -/
def invS (c : Dev nD) : (n : ℕ) → n ≤ cfg0.N → sProp 𝕄
  | 0, _ => Pipeline.ΦA spec0 c
  | n + 1, hn => iprop(iprop(owns (c : Thread nD τ) accS fullShare (stAt V c n hn).s ∗ owns (c : Thread nD τ) accQ fullShare (stAt V c n hn).q ∗ others c) ∗ (∃ r, prngReg c r))

theorem invS_succ (c : Dev nD) (n : ℕ) (hn : n < cfg0.N) :
    invS V c (n + 1) hn = iprop(iprop(owns (c : Thread nD τ) accS fullShare (stAt V c n hn).s ∗ owns (c : Thread nD τ) accQ fullShare (stAt V c n hn).q ∗ others c) ∗ (∃ r, prngReg c r)) := rfl

theorem invS_pos (c : Dev nD) (n : ℕ) (h : n ≤ cfg0.N) (hz : n ≠ 0) :
    invS V c n h = iprop(iprop(owns (c : Thread nD τ) accS fullShare (stAt V c (n - 1) (by omega)).s ∗ owns (c : Thread nD τ) accQ fullShare (stAt V c (n - 1) (by omega)).q ∗ others c) ∗ (∃ r, prngReg c r)) := by
  cases n with
  | zero => exact absurd rfl hz
  | succ n => rfl

/-- At any position the invariant yields the accumulators at SOME contents: the form a half's first tile needs, and
    the form the region hands back at its end. -/
theorem invS_forget (c : Dev nD) (n : ℕ) (h : n ≤ cfg0.N) :
    invS V c n h ⊢ (iprop(iprop((∃ d, owns (c : Thread nD τ) accS fullShare d) ∗ (∃ d, owns (c : Thread nD τ) accQ fullShare d) ∗ others c) ∗ (∃ r, prngReg c r)) : sProp 𝕄) := by
  cases n with
  | zero => rw [show invS V c 0 h = Pipeline.ΦA spec0 c from rfl, entry_inv]
  | succ n =>
    rw [invS_succ]
    iintro ⟨⟨HS, HQ, Ho⟩, Hg⟩
    isplitr [Hg]
    · isplitl [HS]; · iexists _; iexact HS
      isplitl [HQ]; · iexists _; iexact HQ
      iexact Ho
    iexact Hg

/-! ## The pipeline's proof data -/

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => (stAt V c t.val t.isLt).mean
    | ⟨2, _⟩ => (stAt V c t.val t.isLt).std
  Φ t := invS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem inv_castSucc (c : Dev nD) (t : Fin cfg0.N) :
    (dat0 V c).Φ t.castSucc = invS V c t.val (Nat.le_of_lt t.isLt) := by
  dsimp only [dat0]; simp only [Fin.coe_castSucc]

theorem after0_in (c : Dev nD) (t : Fin cfg0.N) : (dat0 V c).after 0 t = blk0 V c 0 t := by dsimp only [dat0]
theorem after0_mean (c : Dev nD) (t : Fin cfg0.N) : (dat0 V c).after 1 t = (stAt V c t.val t.isLt).mean := by dsimp only [dat0]
theorem after0_std (c : Dev nD) (t : Fin cfg0.N) : (dat0 V c).after 2 t = (stAt V c t.val t.isLt).std := by dsimp only [dat0]

theorem before0_in (c : Dev nD) (t : Fin cfg0.N) (d) : (dat0 V c).before 0 t d = blk0 V c 0 t :=
  before_in_of V (dat0 V c) (A_eq0 V c 0) (after0_in V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point, by the point's case: the input's memref holds its block; at a half's first tile the
    accumulators are taken at anything, elsewhere at what the point before left; they are given back at this point's
    contents, the pieces covering them; a result window idle at the point is handed back as found, and at a half's last
    tile it is given back at the case's contents. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_in]
  rw [show (dat0 V c).owesAt () t.succ = (dat0 V c).owesAt () t.castSucc from rfl]
  rw [show (dat0 V c).Φ t.succ = invS V c (t.val + 1) t.isLt from rfl, invS_succ]
  rw [show (dat0 V c).leavesExact 0 t = owns (c : Thread nD τ) (ms0 t) fullShare ((dat0 V c).after 0 t) from by
    unfold Dat.leavesExact; rw [live_in t], after0_in]
  by_cases h0 : t.val % 16 = 0
  · have hl : ¬isLast (grid0.coords t) := fun h => by have := (isLast_iff t).mp h; omega
    rw [Dat.leavesExact_idle (dat0 V c) 1 t (idle_mean t hl) (keep_mean t hl),
      Dat.leavesExact_idle (dat0 V c) 2 t (idle_std t hl) (keep_std t hl)]
    rw [stAt_first V c t h0]
    dsimp only
    rw [inv_castSucc V c t]
    iintro ⟨HΦ, Ho, ⟨%d0, H0⟩, ⟨%d1, H1⟩, ⟨%d2, H2⟩⟩
    ihave HΦ' := (invS_forget V c t.val (Nat.le_of_lt t.isLt)) $$ HΦ
    icases HΦ' with ⟨⟨HS, HQ, Hrest⟩, Hg⟩
    iapply ((firstAt V c t h0).2.2 _ _ Set.univ _)
    isplitl [H0]; · iexact H0
    isplitl [H1]; · iexact H1
    isplitl [H2]; · iexact H2
    isplitl [HS]; · iexact HS
    isplitl [HQ]; · iexact HQ
    iintro ⟨H0, H1, H2, ⟨%eS, HS⟩, ⟨%eQ, HQ⟩⟩
    isplitl [HS HQ Hrest Hg]
    · isplitr [Hg]
      · isplitl [HS]
        · unfold owns; iexists _; isplitr
          swap; · iexact HS
          ipureintro; exact View.read_writes_of_cover _ _ _ _ _ (first_coverS c _ _ _ _ _ _ _ _ _ _ _ _ _ _)
        isplitl [HQ]
        · unfold owns; iexists _; isplitr
          swap; · iexact HQ
          ipureintro; exact View.read_writes_of_cover _ _ _ _ _ (first_coverQ c _ _ _ _ _ _ _ _ _ _ _ _ _ _)
        iexact Hrest
      iexact Hg
    isplitl [Ho]; · iexact Ho
    isplitl [H0]; · iexact H0
    isplitl [H1]; · iexists _; iexact H1
    iexists _; iexact H2
  · have hz : t.val ≠ 0 := fun h => h0 (by rw [h])
    by_cases h1 : t.val % 16 = 15
    · have hl : isLast (grid0.coords t) := (isLast_iff t).mpr h1
      rw [show (dat0 V c).leavesExact 1 t = owns (c : Thread nD τ) (ms1 t) fullShare ((dat0 V c).after 1 t) from by
        unfold Dat.leavesExact; rw [live_mean t hl], after0_mean]
      rw [show (dat0 V c).leavesExact 2 t = owns (c : Thread nD τ) (ms2 t) fullShare ((dat0 V c).after 2 t) from by
        unfold Dat.leavesExact; rw [live_std t hl], after0_std]
      rw [stAt_last V c t h0 h1]
      dsimp only
      rw [inv_castSucc V c t, invS_pos V c _ _ hz]
      iintro ⟨⟨⟨HS, HQ, Hrest⟩, Hg⟩, Ho, ⟨%d0, H0⟩, ⟨%d1, H1⟩, ⟨%d2, H2⟩⟩
      iapply ((lastAt V c t h0 h1 _ _).2.2.2.2 Set.univ _)
      isplitl [H0]; · iexact H0
      isplitl [H1]; · iexists _; iexact H1
      isplitl [H2]; · iexists _; iexact H2
      isplitl [HS]; · iexact HS
      isplitl [HQ]; · iexact HQ
      iintro ⟨H0, ⟨%e1, H1⟩, ⟨%e2, H2⟩, ⟨%eS, HS⟩, ⟨%eQ, HQ⟩⟩
      isplitl [HS HQ Hrest Hg]
      · isplitr [Hg]
        · isplitl [HS]
          · unfold owns; iexists _; isplitr
            swap; · iexact HS
            ipureintro; exact View.read_writes_of_cover _ _ _ _ _ (last_coverS c _ _ _ _ _ _ _ _ _ _ _ _ _ _ _ _)
          isplitl [HQ]
          · unfold owns; iexists _; isplitr
            swap; · iexact HQ
            ipureintro; exact View.read_writes_of_cover _ _ _ _ _ (last_coverQ c _ _ _ _ _ _ _ _ _ _ _ _ _ _ _ _)
          iexact Hrest
        iexact Hg
      isplitl [Ho]; · iexact Ho
      isplitl [H0]; · iexact H0
      isplitl [H1]
      · unfold owns; iexists _; isplitr
        swap; · iexact H1
        ipureintro; exact View.read_writes_of_cover _ _ _ _ _ (last_cover1 c _ _ _ _ _ _ _ _ _ _ _ _ _ _ _ _)
      unfold owns; iexists _; isplitr
      swap; · iexact H2
      ipureintro; exact View.read_writes_of_cover _ _ _ _ _ (last_cover2 c _ _ _ _ _ _ _ _ _ _ _ _ _ _ _ _)
    · have hl : ¬isLast (grid0.coords t) := fun h => h1 ((isLast_iff t).mp h)
      rw [Dat.leavesExact_idle (dat0 V c) 1 t (idle_mean t hl) (keep_mean t hl),
        Dat.leavesExact_idle (dat0 V c) 2 t (idle_std t hl) (keep_std t hl)]
      rw [stAt_mid V c t h0 h1]
      dsimp only
      rw [inv_castSucc V c t, invS_pos V c _ _ hz]
      iintro ⟨⟨⟨HS, HQ, Hrest⟩, Hg⟩, Ho, ⟨%d0, H0⟩, ⟨%d1, H1⟩, ⟨%d2, H2⟩⟩
      iapply ((midAt V c t h0 h1 _ _).2.2 _ _ Set.univ _)
      isplitl [H0]; · iexact H0
      isplitl [H1]; · iexact H1
      isplitl [H2]; · iexact H2
      isplitl [HS]; · iexact HS
      isplitl [HQ]; · iexact HQ
      iintro ⟨H0, H1, H2, ⟨%eS, HS⟩, ⟨%eQ, HQ⟩⟩
      isplitl [HS HQ Hrest Hg]
      · isplitr [Hg]
        · isplitl [HS]
          · unfold owns; iexists _; isplitr
            swap; · iexact HS
            ipureintro; exact View.read_writes_of_cover _ _ _ _ _ (mid_coverS c _ _ _ _ _ _ _ _ _ _ _ _ _ _ _ _)
          isplitl [HQ]
          · unfold owns; iexists _; isplitr
            swap; · iexact HQ
            ipureintro; exact View.read_writes_of_cover _ _ _ _ _ (mid_coverQ c _ _ _ _ _ _ _ _ _ _ _ _ _ _ _ _)
          iexact Hrest
        iexact Hg
      isplitl [Ho]; · iexact Ho
      isplitl [H0]; · iexact H0
      isplitl [H1]; · iexists _; iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem inv_in (c : Dev nD) : Pipeline.ΦA spec0 c ⊢ (dat0 V c).Φ 0 := by
  rw [show (dat0 V c).Φ 0 = Pipeline.ΦA spec0 c from rfl]

/-- After the last point the invariant gives the scoped rest back, the accumulators' contents forgotten. -/
theorem inv_out (c : Dev nD) : (dat0 V c).Φ (Fin.last cfg0.N) ⊢ Pipeline.ΦA spec0 c := by
  rw [show (dat0 V c).Φ (Fin.last cfg0.N) = invS V c (Fin.last cfg0.N).val (Nat.le_of_lt_succ (Fin.last cfg0.N).isLt) from rfl, entry_inv]
  exact invS_forget V c _ _

end Cert.Kernel.Hand

end
-- ==== Proof.KB.Scale.lean ====
/-
  The scaling kernel (the second pallas_call), at the contents `V` its region is entered with: at every grid point
  it multiplies its block of `x` (16 x 128 channels x 8 rows x 128 lanes) by the gate's 16 x 128 block, the gate's
  entry for a batch entry and channel spread over the rows and lanes, and stores the product whole. One control
  case; nothing carried between points.
-/
import proofs.«146710_j41394894799126_2_alg».proof.Proof.Gen.Kernel.Launch
import proofs.«146710_j41394894799126_2_alg».proof.Proof.Gen.Kernel.Skeleton
import proofs.«146710_j41394894799126_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The current staging buffer of the input `x` holds its block at every point. -/
theorem before_x_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The current staging buffer of the gate holds its block at every point, fetched there or not. -/
theorem before_g_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## What the body stores -/

abbrev rBig : Rect S16x128x8x128 := Rect.unit (s := S16x128x8x128) ![0, 0, 0, 0] S16x128x8x128.size inb_S16x128x8x128_S16x128x8x128_0_0_0_0
abbrev rSmall : Rect S16x128 := Rect.unit (s := S16x128) ![0, 0] S16x128.size inb_S16x128_S16x128_0_0

/-- The result window's buffer after the body, from the two input blocks: its one whole store. -/
def scaled (x0 : Vec F S16x128x8x128 .f32) (g : Vec F S16x128 .f32) : Vec F S16x128x8x128 .f32 :=
  View.canon [⟨rBig, k1_pay1 (View.ld g rSmall) (View.ld x0 rBig)⟩]

/-- The one store covers the buffer. -/
theorem scaled_cover (p0 : Vec F S16x128x8x128 .f32) (y : S16x128x8x128.Idx) :
    ∃ pc ∈ ([⟨rBig, p0⟩] : List (View.Piece (Elt F) S16x128x8x128 .f32)), y ∈ pc.1.set :=
  View.cover_of_tiled [⟨rBig, p0⟩] S16x128x8x128.size (by rfl) y

set_option maxHeartbeats 2000000 in
/-- The body on whole staging memrefs, the inputs' at `x0`, `g` and the result's at anything, runs to the continuation
    holding the inputs' as they were and the result's at `scaled x0 g`. -/
theorem sound_scale (c : Dev nD) (E : Set ℕ) (i : grid1.Coords) (arg2 : Memref sig .tc .vmem S16x128x8x128 .f32) (harg2 : arg2.IsWhole)
    (arg3 : Memref sig .tc .vmem S16x128 .f32) (harg3 : arg3.IsWhole) (arg4 : Memref sig .tc .vmem S16x128x8x128 .f32) (harg4 : arg4.IsWhole)
    (x0 : Vec F S16x128x8x128 .f32) (g : Vec F S16x128 .f32) (K : PUnit → sProp 𝕄) :
    iprop(owns (c : Thread nD τ) arg2 fullShare x0 ∗ owns (c : Thread nD τ) arg3 fullShare g ∗ (∃ d, owns (c : Thread nD τ) arg4 fullShare d)
        ∗ (iprop(owns (c : Thread nD τ) arg2 fullShare x0 ∗ owns (c : Thread nD τ) arg3 fullShare g ∗ owns (c : Thread nD τ) arg4 fullShare (scaled x0 g)) -∗ K ⟨⟩))
      ⊢ wp frame (wpE (defs₀ (F := F)) Variants.none c none) E (cc1__scale_kernel i arg2 harg2 arg3 harg3 arg4 harg4) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (scaled_cover _)

/-! ## The pipeline's proof data -/

/-- The proof data of the scaling pipeline on core `c`: the arrays as the region finds them; after the body at point
    `t` each input's buffer at its block and the result's at the product; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => scaled (blk1 V c 0 t) (blk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_x (c : Dev nD) (t : Fin cfg1.N) : (dat1 V c).after 0 t = blk1 V c 0 t := by dsimp only [dat1]
theorem after1_g (c : Dev nD) (t : Fin cfg1.N) : (dat1 V c).after 1 t = blk1 V c 1 t := by dsimp only [dat1]
theorem after1_out (c : Dev nD) (t : Fin cfg1.N) : (dat1 V c).after 2 t = scaled (blk1 V c 0 t) (blk1 V c 1 t) := by dsimp only [dat1]

theorem before1_x (c : Dev nD) (t : Fin cfg1.N) (d) : (dat1 V c).before 0 t d = blk1 V c 0 t :=
  before_x_of V (dat1 V c) (A_eq1 V c 0) (after1_x V c) t d
theorem before1_g (c : Dev nD) (t : Fin cfg1.N) (d) : (dat1 V c).before 1 t d = blk1 V c 1 t :=
  before_g_of V (dat1 V c) (A_eq1 V c 1) (after1_g V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_scale` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_x, before1_g]
  rw [show (dat1 V c).Φ t.succ = (dat1 V c).Φ t.castSucc from rfl,
    show (dat1 V c).owesAt () t.succ = (dat1 V c).owesAt () t.castSucc from rfl,
    after1_x, after1_g, after1_out]
  iintro ⟨HΦ, Ho, ⟨%d0, H0⟩, ⟨%d1, H1⟩, ⟨%d2, H2⟩⟩
  iapply (sound_scale c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Run.lean ====
/-
  The kernel program from launch to return. @main is eleven items: the statistics region, nine stretches of host
  operations (the gate), the scaling region. Between items every unscoped buffer of a core is held at named contents:
  the launch memory; after the first region the mean and deviation arrays at what its write-backs leave; after each
  stretch the stretch's operations applied; after the second region the result array at what its write-backs leave.
  Each region is entered with its windows' arrays split out of those buffers and left with them put back; the
  generator register and the core's (empty) dues ride along. The run ends with every unscoped buffer at the last
  contents, from which the frame (the arguments as launched) and the result array are read.
-/
import proofs.«146710_j41394894799126_2_alg».proof.Proof.Gen.Kernel.Regions
import proofs.«146710_j41394894799126_2_alg».proof.Proof.KB.StatsFrame
import proofs.«146710_j41394894799126_2_alg».proof.Proof.KB.Scale

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The contents the regions leave -/

/-- The first region's entry contents: the launch memory. -/
abbrev Vin0 : (c : Dev nD) → (b : Ref sig .tc) → Buf (Elt F) ((c : Thread nD τ).loc b) := fun c b => V0 m c b

/-- After the first region: its arrays at what the pipeline leaves, every other buffer as entered. -/
def X1 (c : Dev nD) : Valuation τ sig (Elt F) :=
  Pipeline.withArrays spec0 c (V0 m c) fun w => (dat0 (Vin0 m) c).arrAt w cfg0.N
theorem X1_arr (c : Dev nD) (w : Fin cfg0.W) :
    X1 m c (Proc.devRef .tc (Pipeline.arrRef spec0 w)) = (dat0 (Vin0 m) c).arrAt w cfg0.N := by
  unfold X1; exact Pipeline.withArrays_arr spec0 launch0.win.arr_inj c _ _ w

/-- What the first region leaves, as the unknowns of the generated valuations (read at item 1 only). -/
def outsA : Outs (F := F) := fun _ r c => X1 m c r

/-- The second region's entry contents: the valuation after the ninth stretch. -/
abbrev Vin1 : (c : Dev nD) → (b : Ref sig .tc) → Buf (Elt F) ((c : Thread nD τ).loc b) := fun c b => V10 m (outsA m) c b

/-- After the second region: its arrays at what the pipeline leaves, every other buffer as entered. -/
def X11 (c : Dev nD) : Valuation τ sig (Elt F) :=
  Pipeline.withArrays spec1 c (V10 m (outsA m) c) fun w => (dat1 (Vin1 m) c).arrAt w cfg1.N
theorem X11_arr (c : Dev nD) (w : Fin cfg1.W) :
    X11 m c (Proc.devRef .tc (Pipeline.arrRef spec1 w)) = (dat1 (Vin1 m) c).arrAt w cfg1.N := by
  unfold X11; exact Pipeline.withArrays_arr spec1 launch1.win.arr_inj c _ _ w

/-- What both regions leave: item 11 is the second region, any other index reads the first. -/
def outs : Outs (F := F) := fun J r c => if J = 11 then X11 m c r else X1 m c r

theorem outs_one (r : Ref sig .tc) (c : Dev nD) : outs m 1 r c = X1 m c r := rfl
theorem outs_eleven (r : Ref sig .tc) (c : Dev nD) : outs m 11 r c = X11 m c r := rfl
/-- The stretches read the unknowns at item 1 only, so the two families give one valuation before the second region. -/
theorem V10_outs (c : Dev nD) : V10 m (outs m) c = V10 m (outsA m) c := rfl

/-! ## The mean and deviation arrays, and the result array, at the boundaries -/

theorem V1_mean (c : Dev nD) : V1 m (outs m) c main_v0_0 = (dat0 (Vin0 m) c).arrAt 1 cfg0.N := by
  show Function.update (Function.update (V0 m c) main_v0_0 (outs m 1 main_v0_0 c)) main_v0_1 (outs m 1 main_v0_1 c) main_v0_0 = _
  rw [Function.update_of_ne (StableHlo.devRef_ne_of_ne (by decide) : (Proc.devRef .tc main_v0_0 : DevRef τ sig) ≠ Proc.devRef .tc main_v0_1),
    Function.update_self, outs_one]
  exact X1_arr m c 1
theorem V1_std (c : Dev nD) : V1 m (outs m) c main_v0_1 = (dat0 (Vin0 m) c).arrAt 2 cfg0.N := by
  show Function.update (Function.update (V0 m c) main_v0_0 (outs m 1 main_v0_0 c)) main_v0_1 (outs m 1 main_v0_1 c) main_v0_1 = _
  rw [Function.update_self, outs_one]
  exact X1_arr m c 2
theorem V11_out (c : Dev nD) : V11 m (outs m) c main_v47 = (dat1 (Vin1 m) c).arrAt 2 cfg1.N := by
  show Function.update (V10 m (outs m) c) main_v47 (outs m 11 main_v47 c) main_v47 = _
  rw [Function.update_self, outs_eleven]
  exact X11_arr m c 2

/-- At the first region's exit each of its arrays holds what the pipeline leaves, -/
theorem exit0_arr (c : Dev nD) (w : Fin cfg0.W) :
    (dat0 (Vin0 m) c).arrAt w cfg0.N = V1 m (outs m) c (Pipeline.arrRef spec0 w) :=
  match w with
  | ⟨0, _⟩ => (((dat0 (Vin0 m) c).arrAt_in 0 rfl _).trans (A_eq0 (Vin0 m) c 0)).trans (V1_of m (outs m) c main_arg0 (by decide)).symm
  | ⟨1, _⟩ => (V1_mean m c).symm
  | ⟨2, _⟩ => (V1_std m c).symm
/-- and every other buffer what it held at entry. -/
theorem exit0_rest (c : Dev nD) (b : Ref sig .tc) (hb : b ∉ Finset.univ.image (Pipeline.arrRef spec0)) :
    V1 m (outs m) c b = Vin0 m c b :=
  V1_of m (outs m) c b (by
    intro h
    rcases List.mem_cons.mp h with h | h
    · exact hb (Finset.mem_image.mpr ⟨1, Finset.mem_univ _, h.symm⟩)
    · rcases List.mem_cons.mp h with h | h
      · exact hb (Finset.mem_image.mpr ⟨2, Finset.mem_univ _, h.symm⟩)
      · exact absurd h (List.not_mem_nil))

theorem exit1_arr (c : Dev nD) (w : Fin cfg1.W) :
    (dat1 (Vin1 m) c).arrAt w cfg1.N = V11 m (outs m) c (Pipeline.arrRef spec1 w) :=
  match w with
  | ⟨0, _⟩ => (((dat1 (Vin1 m) c).arrAt_in 0 rfl _).trans (A_eq1 (Vin1 m) c 0)).trans (V11_of m (outs m) c main_arg0 (by decide)).symm
  | ⟨1, _⟩ => (((dat1 (Vin1 m) c).arrAt_in 1 rfl _).trans (A_eq1 (Vin1 m) c 1)).trans (V11_of m (outs m) c main_v46 (by decide)).symm
  | ⟨2, _⟩ => (V11_out m c).symm
theorem exit1_rest (c : Dev nD) (b : Ref sig .tc) (hb : b ∉ Finset.univ.image (Pipeline.arrRef spec1)) :
    V11 m (outs m) c b = Vin1 m c b :=
  V11_of m (outs m) c b (by
    intro h
    rcases List.mem_cons.mp h with h | h
    · exact hb (Finset.mem_image.mpr ⟨2, Finset.mem_univ _, h.symm⟩)
    · exact absurd h (List.not_mem_nil))

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

abbrev 𝒱₀ : Variants := Variants.none
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- THE STATISTICS REGION: entered from every unscoped buffer at the launch contents, left with the mean and deviation
    arrays at what its write-backs leave. The generator register and the scoped rest enter its invariant and come back. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from inv_out (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b => V1 m (outs m) c b) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SCALING REGION: entered from every unscoped buffer at the contents after the ninth stretch, left with the result
    array at what its write-backs leave. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (V10 m (outs m) c) ∗ R c)
  post c := iprop((StableHlo.held (c : Thread nD τ) (Pipeline.ucRefs τ sig) (V11 m (outs m) c) ∗ ∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    rw [V10_outs m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (fun b => V11 m (outs m) c b) ((pdats m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

set_option backward.isDefEq.respectTransparency.types false in
/-- THE RUN: from any memory with zero counters every weakly fair execution of @main terminates, nothing faulting, and
    every final state has every unscoped buffer of every core at the last valuation. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = V11 m (outs m) c b) :=
  Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Seg.run_eq_chain,
        show (segs m (outs m) 𝒱₀ L lv E () (pdats m) (reg0 m) (reg1 m) c).map Seg.prog = [
          Prog.lift (.customCall (Pipeline.entry 0) ()),
          StableHlo.seq hostOps1, StableHlo.seq hostOps1_1, StableHlo.seq hostOps1_2, StableHlo.seq hostOps1_3,
          StableHlo.seq hostOps1_4, StableHlo.seq hostOps1_5, StableHlo.seq hostOps1_6, StableHlo.seq hostOps1_7,
          StableHlo.seq hostOps1_8,
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V11 m (outs m) c) ∗ ∃ r, prngReg c r))
    (hch := fun c => ⟨.rfl, .rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V11 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V11 m (outs m) c) s')
      isplitl [Hh] <;> iassumption)
    (hQ := fun s h c b hb => h c _ (mem_uc b hb))

/-! ## The frame, and the result array -/

/-- THE FRAME: every argument array ends as launched (no stretch writes one, no region may change one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c main_arg0 (by decide)).trans (V11_main_arg0 m (outs m) c),
      (h c main_arg1 (by decide)).trans (V11_main_arg1 m (outs m) c),
      (h c main_arg2 (by decide)).trans (V11_main_arg2 m (outs m) c),
      (h c main_arg3 (by decide)).trans (V11_main_arg3 m (outs m) c),
      (h c main_arg4 (by decide)).trans (V11_main_arg4 m (outs m) c),
      (h c main_arg5 (by decide)).trans (V11_main_arg5 m (outs m) c),
      (h c main_arg6 (by decide)).trans (V11_main_arg6 m (outs m) c),
      (h c main_arg7 (by decide)).trans (V11_main_arg7 m (outs m) c),
      (h c main_arg8 (by decide)).trans (V11_main_arg8 m (outs m) c),
      (h c main_arg9 (by decide)).trans (V11_main_arg9 m (outs m) c),
      (h c main_arg10 (by decide)).trans (V11_main_arg10 m (outs m) c),
      (h c main_arg11 (by decide)).trans (V11_main_arg11 m (outs m) c),
      (h c main_arg12 (by decide)).trans (V11_main_arg12 m (outs m) c),
      (h c main_arg13 (by decide)).trans (V11_main_arg13 m (outs m) c),
      (h c main_arg14 (by decide)).trans (V11_main_arg14 m (outs m) c)⟩) (run_all m ρ)

/-- THE RESULT: the run ends with the result array at what the scaling pipeline's write-backs leave, entered from the
    contents after the ninth stretch, and every argument array as launched. -/
theorem run_value : θ_run defs (onTc (τ := τ) (main (F := F))) ⟨m, fun _ => 0, ρ⟩ (fun r => ∀ c : Dev nD,
      r.2.mem ((c.tc : Thread nD τ).loc main_v47) = (dat1 (Vin1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c main_v47 (by decide)).trans (V11_out m c),
      (h c main_arg0 (by decide)).trans (V11_main_arg0 m (outs m) c),
      (h c main_arg1 (by decide)).trans (V11_main_arg1 m (outs m) c),
      (h c main_arg2 (by decide)).trans (V11_main_arg2 m (outs m) c),
      (h c main_arg3 (by decide)).trans (V11_main_arg3 m (outs m) c),
      (h c main_arg4 (by decide)).trans (V11_main_arg4 m (outs m) c),
      (h c main_arg5 (by decide)).trans (V11_main_arg5 m (outs m) c),
      (h c main_arg6 (by decide)).trans (V11_main_arg6 m (outs m) c),
      (h c main_arg7 (by decide)).trans (V11_main_arg7 m (outs m) c),
      (h c main_arg8 (by decide)).trans (V11_main_arg8 m (outs m) c),
      (h c main_arg9 (by decide)).trans (V11_main_arg9 m (outs m) c),
      (h c main_arg10 (by decide)).trans (V11_main_arg10 m (outs m) c),
      (h c main_arg11 (by decide)).trans (V11_main_arg11 m (outs m) c),
      (h c main_arg12 (by decide)).trans (V11_main_arg12 m (outs m) c),
      (h c main_arg13 (by decide)).trans (V11_main_arg13 m (outs m) c),
      (h c main_arg14 (by decide)).trans (V11_main_arg14 m (outs m) c)⟩) (run_all m ρ)

/-- The mean and deviation arrays the second region's entry contents were computed from. -/
theorem entry_mean (c : Dev nD) : V1 m (outsA m) c main_v0_0 = (dat0 (Vin0 m) c).arrAt 1 cfg0.N := V1_mean m c
theorem entry_std (c : Dev nD) : V1 m (outsA m) c main_v0_1 = (dat0 (Vin0 m) c).arrAt 2 cfg0.N := V1_std m c

end Cert.Kernel.Hand

end
-- ==== Proof.KI.StatsBase.lean ====
/-
  The statistics kernel (the first pallas_call): what its three control cases are, and where its two result
  windows are idle. The grid is 2 channel halves by 16 tiles of eight rows, point `t` being tile `t % 16` of half
  `t / 16`. At a half's first tile the two accumulators are zeroed; at every tile the tile's sums of `x` and of
  `x * x` are added to them; at the half's last tile the mean and the deviation are written to the result windows,
  which the pipeline writes back at that point only.
-/
import proofs.«146710_j41394894799126_2_alg».proof.Proof.Gen.KernelIdeal.Launch
import proofs.«146710_j41394894799126_2_alg».proof.Proof.Gen.KernelIdeal.Skeleton
import proofs.«146710_j41394894799126_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the grid -/

/-- "This is the half's first tile": the condition under which the accumulators are zeroed. -/
abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 16 = 0 :=
  (by decide +kernel : ∀ t : Fin grid0.N, isFirst (grid0.coords t) ↔ t.val % 16 = 0)

/-- "This is the half's last tile": the condition under which the results are written. -/
abbrev isLast (i : grid0.Coords) : Prop := k0_cond2 i = 1#1
theorem isLast_iff : ∀ t : Fin cfg0.N, isLast (grid0.coords t) ↔ t.val % 16 = 15 :=
  (by decide +kernel : ∀ t : Fin grid0.N, isLast (grid0.coords t) ↔ t.val % 16 = 15)

/-! ## Where the windows are idle -/

theorem live_in : ∀ t : Fin cfg0.N, cfg0.idle 0 (grid0.coords t) = false := by decide +kernel
theorem idle_mean : ∀ t : Fin cfg0.N, ¬isLast (grid0.coords t) → cfg0.idle 1 (grid0.coords t) = true := by decide +kernel
theorem idle_std : ∀ t : Fin cfg0.N, ¬isLast (grid0.coords t) → cfg0.idle 2 (grid0.coords t) = true := by decide +kernel
theorem keep_mean : ∀ t : Fin cfg0.N, ¬isLast (grid0.coords t) → (cfg0.win 1).flush t = false := by decide +kernel
theorem keep_std : ∀ t : Fin cfg0.N, ¬isLast (grid0.coords t) → (cfg0.win 2).flush t = false := by decide +kernel
theorem live_mean : ∀ t : Fin cfg0.N, isLast (grid0.coords t) → cfg0.idle 1 (grid0.coords t) = false := by decide +kernel
theorem live_std : ∀ t : Fin cfg0.N, isLast (grid0.coords t) → cfg0.idle 2 (grid0.coords t) = false := by decide +kernel

/-! ## The memrefs the body is called with -/

/-- A view through which the contents of a 16 x 128 buffer are stated. -/
abbrev VO : View sig .tc .vmem S16x128 .f32 := (Memref.whole cc0_stg1_0 : Memref sig .tc .vmem S16x128 .f32).view
abbrev ms0 (t : Fin cfg0.N) : Memref sig .tc .vmem S16x128x8x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x128 .f32 := win0_2.stage (cfg0.slots t 2)
abbrev hs2 (t : Fin cfg0.N) : (ms2 t).IsWhole := hstage0_2 ((cfg0.slots t 2).cast nbuf0_2)
/-- The two accumulators: the running sum and the running sum of squares. -/
abbrev accS : Memref sig .tc .vmem S16x128 .f32 := Memref.whole cc0_scratch0
abbrev accQ : Memref sig .tc .vmem S16x128 .f32 := Memref.whole cc0_scratch1

/-- The core's scoped buffers that belong to the second pallas_call, each whole at some contents: they ride through
    the first call untouched. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the region's invariant holds before its first point: the two accumulators at some contents, the second
    call's buffers, the generator register. -/
theorem entry_inv (c : Dev nD) :
    (Pipeline.ΦA spec0 c : sProp 𝕄)
      = iprop(iprop((∃ d, owns (c : Thread nD τ) accS fullShare d) ∗ (∃ d, owns (c : Thread nD τ) accQ fullShare d) ∗ others c) ∗ (∃ r, prngReg c r)) := by
  unfold Pipeline.ΦA; rw [scopedRest0_eq]; simp only [accS, accQ, owns_whole, others]; rfl

end Cert.KernelIdeal.Hand

end
-- ==== Proof.KI.StatsFirst.lean ====
/-
  The statistics kernel's body at a half's FIRST tile: the accumulators are zeroed, then the tile's sums added.
  The run finds, as lists of stored pieces (last first), what each accumulator holds afterwards; the result windows
  are handed back untouched.
-/
import proofs.«146710_j41394894799126_2_alg».proof.Proof.KI.StatsBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- On whole memrefs — the input block at `x0`, the two result buffers at `y1`, `y2`, the accumulators at anything — the
    body at a first, not last, tile runs to the continuation holding the input and the result buffers as they were and
    each accumulator with its pieces written. -/
noncomputable def runFirst (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : isFirst i) (h1 : ¬isLast i)
    (x0 : Vec F S16x128x8x128 .f32) :
    Σ' (LS : List (View.Piece (Elt F) S16x128 .f32)), { LQ : List (View.Piece (Elt F) S16x128 .f32) //
      ∀ (y1 y2 : Vec F S16x128 .f32) (E : Set ℕ) (K : PUnit → sProp 𝕄),
        iprop(owns (c : Thread nD τ) arg2 fullShare x0 ∗ owns (c : Thread nD τ) arg3 fullShare y1 ∗ owns (c : Thread nD τ) arg4 fullShare y2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare y1 ∗ owns (c : Thread nD τ) arg4 fullShare y2 ∗ (∃ f, arg5.view.loc (c : Thread nD τ) ↦[arg5.view.set]{fullShare} arg5.view.writes (Elt F) f LS) ∗ (∃ f, arg6.view.loc (c : Thread nD τ) ↦[arg6.view.set]{fullShare} arg6.view.writes (Elt F) f LQ)) -∗ K ⟨⟩))
          ⊢ wp frame (wpE (defs₀ (F := F)) Variants.none c none) E (cc0__stats_kernel i arg2 harg2 arg3 harg3 arg4 harg4 arg5 harg5 arg6 harg6) K } := by
  refine ⟨?_, ?_, fun y1 y2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%dS, %fS, -, HS⟩, ⟨%dQ, %fQ, -, HQ⟩, Hk⟩
    obtain rfl := harg2.eq_unread hf0; obtain rfl := harg3.eq_unread hf1; obtain rfl := harg4.eq_unread hf2
    sl_exec (disch := first | exact h0 | exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS]; · iexists _; iexact HS
    iexists _; iexact HQ

end Cert.KernelIdeal.Hand

end
-- ==== Proof.KI.StatsMid.lean ====
/-
  The statistics kernel's body at a tile that is neither a half's first nor its last: the tile's sums are added
  to the accumulators, which hold what the tile before left; the result windows are handed back untouched.
-/
import proofs.«146710_j41394894799126_2_alg».proof.Proof.KI.StatsBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- On whole memrefs — the input block at `x0`, the result buffers at `y1`, `y2`, the accumulators at `s`, `q` — the body at
    a middle tile runs to the continuation holding the input and the result buffers as they were and each accumulator
    with its pieces written. -/
noncomputable def runMid (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : ¬isFirst i) (h1 : ¬isLast i)
    (x0 : Vec F S16x128x8x128 .f32) (s q : Vec F S16x128 .f32) :
    Σ' (LS : List (View.Piece (Elt F) S16x128 .f32)), { LQ : List (View.Piece (Elt F) S16x128 .f32) //
      ∀ (y1 y2 : Vec F S16x128 .f32) (E : Set ℕ) (K : PUnit → sProp 𝕄),
        iprop(owns (c : Thread nD τ) arg2 fullShare x0 ∗ owns (c : Thread nD τ) arg3 fullShare y1 ∗ owns (c : Thread nD τ) arg4 fullShare y2 ∗ owns (c : Thread nD τ) arg5 fullShare s ∗ owns (c : Thread nD τ) arg6 fullShare q
            ∗ (iprop(owns (c : Thread nD τ) arg2 fullShare x0 ∗ owns (c : Thread nD τ) arg3 fullShare y1 ∗ owns (c : Thread nD τ) arg4 fullShare y2 ∗ (∃ f, arg5.view.loc (c : Thread nD τ) ↦[arg5.view.set]{fullShare} arg5.view.writes (Elt F) f LS) ∗ (∃ f, arg6.view.loc (c : Thread nD τ) ↦[arg6.view.set]{fullShare} arg6.view.writes (Elt F) f LQ)) -∗ K ⟨⟩))
          ⊢ wp frame (wpE (defs₀ (F := F)) Variants.none c none) E (cc0__stats_kernel i arg2 harg2 arg3 harg3 arg4 harg4 arg5 harg5 arg6 harg6) K } := by
  refine ⟨?_, ?_, fun y1 y2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%fS, %hfS, HS⟩, ⟨%fQ, %hfQ, HQ⟩, Hk⟩
    obtain rfl := harg2.eq_unread hf0; obtain rfl := harg3.eq_unread hf1; obtain rfl := harg4.eq_unread hf2
    obtain rfl := harg5.eq_unread hfS; obtain rfl := harg6.eq_unread hfQ
    sl_exec (disch := first | exact h0 | exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS]; · iexists _; iexact HS
    iexists _; iexact HQ

end Cert.KernelIdeal.Hand

end
-- ==== Proof.KI.StatsLast.lean ====
/-
  The statistics kernel's body at a half's LAST tile: the tile's sums are added to the accumulators, and the mean
  and the deviation computed from them are stored whole into the two result windows.
-/
import proofs.«146710_j41394894799126_2_alg».proof.Proof.KI.StatsBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- On whole memrefs — the input block at `x0`, the result buffers at anything, the accumulators at `s`, `q` — the body at a
    last, not first, tile runs to the continuation holding the input as it was and every other buffer with its pieces
    written. -/
noncomputable def runLast (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : ¬isFirst i) (h1 : isLast i)
    (x0 : Vec F S16x128x8x128 .f32) (s q : Vec F S16x128 .f32) :
    Σ' (L1 : List (View.Piece (Elt F) S16x128 .f32)) (L2 : List (View.Piece (Elt F) S16x128 .f32)) (LS : List (View.Piece (Elt F) S16x128 .f32)), { LQ : List (View.Piece (Elt F) S16x128 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare s ∗ owns (c : Thread nD τ) arg6 fullShare q
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS) ∗ (∃ f, arg6.view.loc (c : Thread nD τ) ↦[arg6.view.set]{fullShare} arg6.view.writes (Elt F) f LQ)) -∗ K ⟨⟩))
          ⊢ wp frame (wpE (defs₀ (F := F)) Variants.none c none) E (cc0__stats_kernel i arg2 harg2 arg3 harg3 arg4 harg4 arg5 harg5 arg6 harg6) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, ⟨%fS, %hfS, HS⟩, ⟨%fQ, %hfQ, HQ⟩, Hk⟩
    obtain rfl := harg2.eq_unread hf0
    obtain rfl := harg5.eq_unread hfS; obtain rfl := harg6.eq_unread hfQ
    sl_exec (disch := first | exact h0 | exact h1)
    sl_step
    iapply Hk
    isplitl [H0]
    · iexists _; isplitr; · ipureintro; exact harg2.read_unread _
      iexact H0
    isplitl [H1]; · iexists _; iexact H1
    isplitl [H2]; · iexists _; iexact H2
    isplitl [HS]; · iexists _; iexact HS
    iexists _; iexact HQ

end Cert.KernelIdeal.Hand

end
-- ==== Proof.KI.StatsFrame.lean ====
/-
  The statistics kernel's region at the contents `V` it is entered with: what the two accumulators and the two
  result buffers hold after each grid point (`stAt`, by recursion on the point: a half's first tile starts from
  zeroed accumulators, every other tile from what the tile before left), the pipeline's proof data, and the body
  obligation at a generic point. The region's invariant carries the accumulators at the contents the point before
  left; before the first point, and to whoever takes it back, they are at some contents.
-/
import proofs.«146710_j41394894799126_2_alg».proof.Proof.KI.StatsFirst
import proofs.«146710_j41394894799126_2_alg».proof.Proof.KI.StatsMid
import proofs.«146710_j41394894799126_2_alg».proof.Proof.KI.StatsLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input window's block -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current staging buffer holds its block at every point. -/
theorem before_in_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-! ## The three cases at a point of the grid -/

/-- A list of stored pieces read back as the contents of a 16 x 128 buffer. -/
abbrev rd (L : List (View.Piece (Elt F) S16x128 .f32)) : Vec F S16x128 .f32 := VO.read (Elt F) (VO.writes (Elt F) VO.junk L)

/-- Contents nothing consults: a result buffer at a point where its window is idle. -/
abbrev idleBuf : Vec F S16x128 .f32 := rd (F := F) []

abbrev firstAt (c : Dev nD) (t : Fin cfg0.N) (h0 : t.val % 16 = 0) :=
  runFirst (F := F) c (grid0.coords t) (ms0 t) (hs0 t) (ms1 t) (hs1 t) (ms2 t) (hs2 t) accS (Memref.isWhole_whole _) accQ (Memref.isWhole_whole _)
    ((isFirst_iff t).mpr h0) (fun h => by have := (isLast_iff t).mp h; omega) (blk0 V c 0 t)
abbrev midAt (c : Dev nD) (t : Fin cfg0.N) (h0 : ¬t.val % 16 = 0) (h1 : ¬t.val % 16 = 15) (s q : Vec F S16x128 .f32) :=
  runMid (F := F) c (grid0.coords t) (ms0 t) (hs0 t) (ms1 t) (hs1 t) (ms2 t) (hs2 t) accS (Memref.isWhole_whole _) accQ (Memref.isWhole_whole _)
    (fun h => h0 ((isFirst_iff t).mp h)) (fun h => h1 ((isLast_iff t).mp h)) (blk0 V c 0 t) s q
abbrev lastAt (c : Dev nD) (t : Fin cfg0.N) (h0 : ¬t.val % 16 = 0) (h1 : t.val % 16 = 15) (s q : Vec F S16x128 .f32) :=
  runLast (F := F) c (grid0.coords t) (ms0 t) (hs0 t) (ms1 t) (hs1 t) (ms2 t) (hs2 t) accS (Memref.isWhole_whole _) accQ (Memref.isWhole_whole _)
    (fun h => h0 ((isFirst_iff t).mp h)) ((isLast_iff t).mpr h1) (blk0 V c 0 t) s q

/-- Each case's stored pieces tile the buffer they go to, so they cover it. -/
theorem first_coverS (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : isFirst i) (h1 : ¬isLast i) (x0 : Vec F S16x128x8x128 .f32) (y : S16x128.Idx) :
    ∃ pc ∈ (runFirst c i arg2 harg2 arg3 harg3 arg4 harg4 arg5 harg5 arg6 harg6 h0 h1 x0).1, y ∈ pc.1.set :=
  View.cover_of_tiledL _ S16x128.size (by sl_kernel_rfl) y
theorem first_coverQ (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : isFirst i) (h1 : ¬isLast i) (x0 : Vec F S16x128x8x128 .f32) (y : S16x128.Idx) :
    ∃ pc ∈ (runFirst c i arg2 harg2 arg3 harg3 arg4 harg4 arg5 harg5 arg6 harg6 h0 h1 x0).2.1, y ∈ pc.1.set :=
  View.cover_of_tiledL _ S16x128.size (by sl_kernel_rfl) y
theorem mid_coverS (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : ¬isFirst i) (h1 : ¬isLast i) (x0 : Vec F S16x128x8x128 .f32) (s q : Vec F S16x128 .f32) (y : S16x128.Idx) :
    ∃ pc ∈ (runMid c i arg2 harg2 arg3 harg3 arg4 harg4 arg5 harg5 arg6 harg6 h0 h1 x0 s q).1, y ∈ pc.1.set :=
  View.cover_of_tiledL _ S16x128.size (by sl_kernel_rfl) y
theorem mid_coverQ (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : ¬isFirst i) (h1 : ¬isLast i) (x0 : Vec F S16x128x8x128 .f32) (s q : Vec F S16x128 .f32) (y : S16x128.Idx) :
    ∃ pc ∈ (runMid c i arg2 harg2 arg3 harg3 arg4 harg4 arg5 harg5 arg6 harg6 h0 h1 x0 s q).2.1, y ∈ pc.1.set :=
  View.cover_of_tiledL _ S16x128.size (by sl_kernel_rfl) y
theorem last_cover1 (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : ¬isFirst i) (h1 : isLast i) (x0 : Vec F S16x128x8x128 .f32) (s q : Vec F S16x128 .f32) (y : S16x128.Idx) :
    ∃ pc ∈ (runLast c i arg2 harg2 arg3 harg3 arg4 harg4 arg5 harg5 arg6 harg6 h0 h1 x0 s q).1, y ∈ pc.1.set :=
  View.cover_of_tiledL _ S16x128.size (by sl_kernel_rfl) y
theorem last_cover2 (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : ¬isFirst i) (h1 : isLast i) (x0 : Vec F S16x128x8x128 .f32) (s q : Vec F S16x128 .f32) (y : S16x128.Idx) :
    ∃ pc ∈ (runLast c i arg2 harg2 arg3 harg3 arg4 harg4 arg5 harg5 arg6 harg6 h0 h1 x0 s q).2.1, y ∈ pc.1.set :=
  View.cover_of_tiledL _ S16x128.size (by sl_kernel_rfl) y
theorem last_coverS (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : ¬isFirst i) (h1 : isLast i) (x0 : Vec F S16x128x8x128 .f32) (s q : Vec F S16x128 .f32) (y : S16x128.Idx) :
    ∃ pc ∈ (runLast c i arg2 harg2 arg3 harg3 arg4 harg4 arg5 harg5 arg6 harg6 h0 h1 x0 s q).2.2.1, y ∈ pc.1.set :=
  View.cover_of_tiledL _ S16x128.size (by sl_kernel_rfl) y
theorem last_coverQ (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : ¬isFirst i) (h1 : isLast i) (x0 : Vec F S16x128x8x128 .f32) (s q : Vec F S16x128 .f32) (y : S16x128.Idx) :
    ∃ pc ∈ (runLast c i arg2 harg2 arg3 harg3 arg4 harg4 arg5 harg5 arg6 harg6 h0 h1 x0 s q).2.2.2.1, y ∈ pc.1.set :=
  View.cover_of_tiledL _ S16x128.size (by sl_kernel_rfl) y

/-! ## What the buffers hold after each point -/

/-- The mean's and the deviation's staging buffers and the two accumulators after a point. -/
structure St (F : FTy → Type) [FloatOps F] where
  mean : Vec F S16x128 .f32
  std : Vec F S16x128 .f32
  s : Vec F S16x128 .f32
  q : Vec F S16x128 .f32

/-- THE ACCUMULATION: the state after the body at position `n`. A half's first tile starts the accumulators afresh;
    any other tile continues from the state after position `n - 1`; a half's last tile also fills the result buffers. -/
def stAt (c : Dev nD) : (n : ℕ) → n < cfg0.N → St F
  | 0, hn => ⟨idleBuf, idleBuf, rd (firstAt V c ⟨0, hn⟩ (Nat.zero_mod _)).1, rd (firstAt V c ⟨0, hn⟩ (Nat.zero_mod _)).2.1⟩
  | n + 1, hn =>
    if h0 : (n + 1) % 16 = 0 then
      ⟨idleBuf, idleBuf, rd (firstAt V c ⟨n + 1, hn⟩ h0).1, rd (firstAt V c ⟨n + 1, hn⟩ h0).2.1⟩
    else if h1 : (n + 1) % 16 = 15 then
      ⟨rd (lastAt V c ⟨n + 1, hn⟩ h0 h1 (stAt c n (Nat.lt_of_succ_lt hn)).s (stAt c n (Nat.lt_of_succ_lt hn)).q).1,
       rd (lastAt V c ⟨n + 1, hn⟩ h0 h1 (stAt c n (Nat.lt_of_succ_lt hn)).s (stAt c n (Nat.lt_of_succ_lt hn)).q).2.1,
       rd (lastAt V c ⟨n + 1, hn⟩ h0 h1 (stAt c n (Nat.lt_of_succ_lt hn)).s (stAt c n (Nat.lt_of_succ_lt hn)).q).2.2.1,
       rd (lastAt V c ⟨n + 1, hn⟩ h0 h1 (stAt c n (Nat.lt_of_succ_lt hn)).s (stAt c n (Nat.lt_of_succ_lt hn)).q).2.2.2.1⟩
    else
      ⟨idleBuf, idleBuf,
       rd (midAt V c ⟨n + 1, hn⟩ h0 h1 (stAt c n (Nat.lt_of_succ_lt hn)).s (stAt c n (Nat.lt_of_succ_lt hn)).q).1,
       rd (midAt V c ⟨n + 1, hn⟩ h0 h1 (stAt c n (Nat.lt_of_succ_lt hn)).s (stAt c n (Nat.lt_of_succ_lt hn)).q).2.1⟩

/-- The state before point `t` when `t` is not a half's first tile: the state after the point before. -/
abbrev prevAt (c : Dev nD) (t : Fin cfg0.N) : St F :=
  stAt V c (t.val - 1) (Nat.lt_of_le_of_lt (Nat.sub_le _ _) t.isLt)

theorem stAt_first (c : Dev nD) (t : Fin cfg0.N) (h0 : t.val % 16 = 0) :
    stAt V c t.val t.isLt = ⟨idleBuf, idleBuf, rd (firstAt V c t h0).1, rd (firstAt V c t h0).2.1⟩ := by
  obtain ⟨n, hn⟩ := t
  cases n with
  | zero => rfl
  | succ n => exact (dif_pos h0).trans rfl

theorem stAt_mid (c : Dev nD) (t : Fin cfg0.N) (h0 : ¬t.val % 16 = 0) (h1 : ¬t.val % 16 = 15) :
    stAt V c t.val t.isLt = ⟨idleBuf, idleBuf, rd (midAt V c t h0 h1 (prevAt V c t).s (prevAt V c t).q).1,
      rd (midAt V c t h0 h1 (prevAt V c t).s (prevAt V c t).q).2.1⟩ := by
  obtain ⟨n, hn⟩ := t
  cases n with
  | zero => exact absurd (Nat.zero_mod _) h0
  | succ n => exact (dif_neg h0).trans ((dif_neg h1).trans rfl)

theorem stAt_last (c : Dev nD) (t : Fin cfg0.N) (h0 : ¬t.val % 16 = 0) (h1 : t.val % 16 = 15) :
    stAt V c t.val t.isLt = ⟨rd (lastAt V c t h0 h1 (prevAt V c t).s (prevAt V c t).q).1,
      rd (lastAt V c t h0 h1 (prevAt V c t).s (prevAt V c t).q).2.1,
      rd (lastAt V c t h0 h1 (prevAt V c t).s (prevAt V c t).q).2.2.1,
      rd (lastAt V c t h0 h1 (prevAt V c t).s (prevAt V c t).q).2.2.2.1⟩ := by
  obtain ⟨n, hn⟩ := t
  cases n with
  | zero => exact absurd (Nat.zero_mod _) h0
  | succ n => exact (dif_neg h0).trans ((dif_pos h1).trans rfl)

/-! ## The region's invariant -/

/-- Before position `n`: before the first point the scoped rest at anything; afterwards the two accumulators at what the
    point before left, the second call's buffers, and the generator register at some state. -/
def invS (c : Dev nD) : (n : ℕ) → n ≤ cfg0.N → sProp 𝕄
  | 0, _ => Pipeline.ΦA spec0 c
  | n + 1, hn => iprop(iprop(owns (c : Thread nD τ) accS fullShare (stAt V c n hn).s ∗ owns (c : Thread nD τ) accQ fullShare (stAt V c n hn).q ∗ others c) ∗ (∃ r, prngReg c r))

theorem invS_succ (c : Dev nD) (n : ℕ) (hn : n < cfg0.N) :
    invS V c (n + 1) hn = iprop(iprop(owns (c : Thread nD τ) accS fullShare (stAt V c n hn).s ∗ owns (c : Thread nD τ) accQ fullShare (stAt V c n hn).q ∗ others c) ∗ (∃ r, prngReg c r)) := rfl

theorem invS_pos (c : Dev nD) (n : ℕ) (h : n ≤ cfg0.N) (hz : n ≠ 0) :
    invS V c n h = iprop(iprop(owns (c : Thread nD τ) accS fullShare (stAt V c (n - 1) (by omega)).s ∗ owns (c : Thread nD τ) accQ fullShare (stAt V c (n - 1) (by omega)).q ∗ others c) ∗ (∃ r, prngReg c r)) := by
  cases n with
  | zero => exact absurd rfl hz
  | succ n => rfl

/-- At any position the invariant yields the accumulators at SOME contents: the form a half's first tile needs, and
    the form the region hands back at its end. -/
theorem invS_forget (c : Dev nD) (n : ℕ) (h : n ≤ cfg0.N) :
    invS V c n h ⊢ (iprop(iprop((∃ d, owns (c : Thread nD τ) accS fullShare d) ∗ (∃ d, owns (c : Thread nD τ) accQ fullShare d) ∗ others c) ∗ (∃ r, prngReg c r)) : sProp 𝕄) := by
  cases n with
  | zero => rw [show invS V c 0 h = Pipeline.ΦA spec0 c from rfl, entry_inv]
  | succ n =>
    rw [invS_succ]
    iintro ⟨⟨HS, HQ, Ho⟩, Hg⟩
    isplitr [Hg]
    · isplitl [HS]; · iexists _; iexact HS
      isplitl [HQ]; · iexists _; iexact HQ
      iexact Ho
    iexact Hg

/-! ## The pipeline's proof data -/

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => (stAt V c t.val t.isLt).mean
    | ⟨2, _⟩ => (stAt V c t.val t.isLt).std
  Φ t := invS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem inv_castSucc (c : Dev nD) (t : Fin cfg0.N) :
    (dat0 V c).Φ t.castSucc = invS V c t.val (Nat.le_of_lt t.isLt) := by
  dsimp only [dat0]; simp only [Fin.coe_castSucc]

theorem after0_in (c : Dev nD) (t : Fin cfg0.N) : (dat0 V c).after 0 t = blk0 V c 0 t := by dsimp only [dat0]
theorem after0_mean (c : Dev nD) (t : Fin cfg0.N) : (dat0 V c).after 1 t = (stAt V c t.val t.isLt).mean := by dsimp only [dat0]
theorem after0_std (c : Dev nD) (t : Fin cfg0.N) : (dat0 V c).after 2 t = (stAt V c t.val t.isLt).std := by dsimp only [dat0]

theorem before0_in (c : Dev nD) (t : Fin cfg0.N) (d) : (dat0 V c).before 0 t d = blk0 V c 0 t :=
  before_in_of V (dat0 V c) (A_eq0 V c 0) (after0_in V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point, by the point's case: the input's memref holds its block; at a half's first tile the
    accumulators are taken at anything, elsewhere at what the point before left; they are given back at this point's
    contents, the pieces covering them; a result window idle at the point is handed back as found, and at a half's last
    tile it is given back at the case's contents. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_in]
  rw [show (dat0 V c).owesAt () t.succ = (dat0 V c).owesAt () t.castSucc from rfl]
  rw [show (dat0 V c).Φ t.succ = invS V c (t.val + 1) t.isLt from rfl, invS_succ]
  rw [show (dat0 V c).leavesExact 0 t = owns (c : Thread nD τ) (ms0 t) fullShare ((dat0 V c).after 0 t) from by
    unfold Dat.leavesExact; rw [live_in t], after0_in]
  by_cases h0 : t.val % 16 = 0
  · have hl : ¬isLast (grid0.coords t) := fun h => by have := (isLast_iff t).mp h; omega
    rw [Dat.leavesExact_idle (dat0 V c) 1 t (idle_mean t hl) (keep_mean t hl),
      Dat.leavesExact_idle (dat0 V c) 2 t (idle_std t hl) (keep_std t hl)]
    rw [stAt_first V c t h0]
    dsimp only
    rw [inv_castSucc V c t]
    iintro ⟨HΦ, Ho, ⟨%d0, H0⟩, ⟨%d1, H1⟩, ⟨%d2, H2⟩⟩
    ihave HΦ' := (invS_forget V c t.val (Nat.le_of_lt t.isLt)) $$ HΦ
    icases HΦ' with ⟨⟨HS, HQ, Hrest⟩, Hg⟩
    iapply ((firstAt V c t h0).2.2 _ _ Set.univ _)
    isplitl [H0]; · iexact H0
    isplitl [H1]; · iexact H1
    isplitl [H2]; · iexact H2
    isplitl [HS]; · iexact HS
    isplitl [HQ]; · iexact HQ
    iintro ⟨H0, H1, H2, ⟨%eS, HS⟩, ⟨%eQ, HQ⟩⟩
    isplitl [HS HQ Hrest Hg]
    · isplitr [Hg]
      · isplitl [HS]
        · unfold owns; iexists _; isplitr
          swap; · iexact HS
          ipureintro; exact View.read_writes_of_cover _ _ _ _ _ (first_coverS c _ _ _ _ _ _ _ _ _ _ _ _ _ _)
        isplitl [HQ]
        · unfold owns; iexists _; isplitr
          swap; · iexact HQ
          ipureintro; exact View.read_writes_of_cover _ _ _ _ _ (first_coverQ c _ _ _ _ _ _ _ _ _ _ _ _ _ _)
        iexact Hrest
      iexact Hg
    isplitl [Ho]; · iexact Ho
    isplitl [H0]; · iexact H0
    isplitl [H1]; · iexists _; iexact H1
    iexists _; iexact H2
  · have hz : t.val ≠ 0 := fun h => h0 (by rw [h])
    by_cases h1 : t.val % 16 = 15
    · have hl : isLast (grid0.coords t) := (isLast_iff t).mpr h1
      rw [show (dat0 V c).leavesExact 1 t = owns (c : Thread nD τ) (ms1 t) fullShare ((dat0 V c).after 1 t) from by
        unfold Dat.leavesExact; rw [live_mean t hl], after0_mean]
      rw [show (dat0 V c).leavesExact 2 t = owns (c : Thread nD τ) (ms2 t) fullShare ((dat0 V c).after 2 t) from by
        unfold Dat.leavesExact; rw [live_std t hl], after0_std]
      rw [stAt_last V c t h0 h1]
      dsimp only
      rw [inv_castSucc V c t, invS_pos V c _ _ hz]
      iintro ⟨⟨⟨HS, HQ, Hrest⟩, Hg⟩, Ho, ⟨%d0, H0⟩, ⟨%d1, H1⟩, ⟨%d2, H2⟩⟩
      iapply ((lastAt V c t h0 h1 _ _).2.2.2.2 Set.univ _)
      isplitl [H0]; · iexact H0
      isplitl [H1]; · iexists _; iexact H1
      isplitl [H2]; · iexists _; iexact H2
      isplitl [HS]; · iexact HS
      isplitl [HQ]; · iexact HQ
      iintro ⟨H0, ⟨%e1, H1⟩, ⟨%e2, H2⟩, ⟨%eS, HS⟩, ⟨%eQ, HQ⟩⟩
      isplitl [HS HQ Hrest Hg]
      · isplitr [Hg]
        · isplitl [HS]
          · unfold owns; iexists _; isplitr
            swap; · iexact HS
            ipureintro; exact View.read_writes_of_cover _ _ _ _ _ (last_coverS c _ _ _ _ _ _ _ _ _ _ _ _ _ _ _ _)
          isplitl [HQ]
          · unfold owns; iexists _; isplitr
            swap; · iexact HQ
            ipureintro; exact View.read_writes_of_cover _ _ _ _ _ (last_coverQ c _ _ _ _ _ _ _ _ _ _ _ _ _ _ _ _)
          iexact Hrest
        iexact Hg
      isplitl [Ho]; · iexact Ho
      isplitl [H0]; · iexact H0
      isplitl [H1]
      · unfold owns; iexists _; isplitr
        swap; · iexact H1
        ipureintro; exact View.read_writes_of_cover _ _ _ _ _ (last_cover1 c _ _ _ _ _ _ _ _ _ _ _ _ _ _ _ _)
      unfold owns; iexists _; isplitr
      swap; · iexact H2
      ipureintro; exact View.read_writes_of_cover _ _ _ _ _ (last_cover2 c _ _ _ _ _ _ _ _ _ _ _ _ _ _ _ _)
    · have hl : ¬isLast (grid0.coords t) := fun h => h1 ((isLast_iff t).mp h)
      rw [Dat.leavesExact_idle (dat0 V c) 1 t (idle_mean t hl) (keep_mean t hl),
        Dat.leavesExact_idle (dat0 V c) 2 t (idle_std t hl) (keep_std t hl)]
      rw [stAt_mid V c t h0 h1]
      dsimp only
      rw [inv_castSucc V c t, invS_pos V c _ _ hz]
      iintro ⟨⟨⟨HS, HQ, Hrest⟩, Hg⟩, Ho, ⟨%d0, H0⟩, ⟨%d1, H1⟩, ⟨%d2, H2⟩⟩
      iapply ((midAt V c t h0 h1 _ _).2.2 _ _ Set.univ _)
      isplitl [H0]; · iexact H0
      isplitl [H1]; · iexact H1
      isplitl [H2]; · iexact H2
      isplitl [HS]; · iexact HS
      isplitl [HQ]; · iexact HQ
      iintro ⟨H0, H1, H2, ⟨%eS, HS⟩, ⟨%eQ, HQ⟩⟩
      isplitl [HS HQ Hrest Hg]
      · isplitr [Hg]
        · isplitl [HS]
          · unfold owns; iexists _; isplitr
            swap; · iexact HS
            ipureintro; exact View.read_writes_of_cover _ _ _ _ _ (mid_coverS c _ _ _ _ _ _ _ _ _ _ _ _ _ _ _ _)
          isplitl [HQ]
          · unfold owns; iexists _; isplitr
            swap; · iexact HQ
            ipureintro; exact View.read_writes_of_cover _ _ _ _ _ (mid_coverQ c _ _ _ _ _ _ _ _ _ _ _ _ _ _ _ _)
          iexact Hrest
        iexact Hg
      isplitl [Ho]; · iexact Ho
      isplitl [H0]; · iexact H0
      isplitl [H1]; · iexists _; iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem inv_in (c : Dev nD) : Pipeline.ΦA spec0 c ⊢ (dat0 V c).Φ 0 := by
  rw [show (dat0 V c).Φ 0 = Pipeline.ΦA spec0 c from rfl]

/-- After the last point the invariant gives the scoped rest back, the accumulators' contents forgotten. -/
theorem inv_out (c : Dev nD) : (dat0 V c).Φ (Fin.last cfg0.N) ⊢ Pipeline.ΦA spec0 c := by
  rw [show (dat0 V c).Φ (Fin.last cfg0.N) = invS V c (Fin.last cfg0.N).val (Nat.le_of_lt_succ (Fin.last cfg0.N).isLt) from rfl, entry_inv]
  exact invS_forget V c _ _

end Cert.KernelIdeal.Hand

end
-- ==== Proof.KI.Scale.lean ====
/-
  The scaling kernel (the second pallas_call), at the contents `V` its region is entered with: at every grid point
  it multiplies its block of `x` (16 x 128 channels x 8 rows x 128 lanes) by the gate's 16 x 128 block, the gate's
  entry for a batch entry and channel spread over the rows and lanes, and stores the product whole. One control
  case; nothing carried between points.
-/
import proofs.«146710_j41394894799126_2_alg».proof.Proof.Gen.KernelIdeal.Launch
import proofs.«146710_j41394894799126_2_alg».proof.Proof.Gen.KernelIdeal.Skeleton
import proofs.«146710_j41394894799126_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The current staging buffer of the input `x` holds its block at every point. -/
theorem before_x_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The current staging buffer of the gate holds its block at every point, fetched there or not. -/
theorem before_g_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## What the body stores -/

abbrev rBig : Rect S16x128x8x128 := Rect.unit (s := S16x128x8x128) ![0, 0, 0, 0] S16x128x8x128.size inb_S16x128x8x128_S16x128x8x128_0_0_0_0
abbrev rSmall : Rect S16x128 := Rect.unit (s := S16x128) ![0, 0] S16x128.size inb_S16x128_S16x128_0_0

/-- The result window's buffer after the body, from the two input blocks: its one whole store. -/
def scaled (x0 : Vec F S16x128x8x128 .f32) (g : Vec F S16x128 .f32) : Vec F S16x128x8x128 .f32 :=
  View.canon [⟨rBig, k1_pay1 (View.ld g rSmall) (View.ld x0 rBig)⟩]

/-- The one store covers the buffer. -/
theorem scaled_cover (p0 : Vec F S16x128x8x128 .f32) (y : S16x128x8x128.Idx) :
    ∃ pc ∈ ([⟨rBig, p0⟩] : List (View.Piece (Elt F) S16x128x8x128 .f32)), y ∈ pc.1.set :=
  View.cover_of_tiled [⟨rBig, p0⟩] S16x128x8x128.size (by rfl) y

set_option maxHeartbeats 2000000 in
/-- The body on whole staging memrefs, the inputs' at `x0`, `g` and the result's at anything, runs to the continuation
    holding the inputs' as they were and the result's at `scaled x0 g`. -/
theorem sound_scale (c : Dev nD) (E : Set ℕ) (i : grid1.Coords) (arg2 : Memref sig .tc .vmem S16x128x8x128 .f32) (harg2 : arg2.IsWhole)
    (arg3 : Memref sig .tc .vmem S16x128 .f32) (harg3 : arg3.IsWhole) (arg4 : Memref sig .tc .vmem S16x128x8x128 .f32) (harg4 : arg4.IsWhole)
    (x0 : Vec F S16x128x8x128 .f32) (g : Vec F S16x128 .f32) (K : PUnit → sProp 𝕄) :
    iprop(owns (c : Thread nD τ) arg2 fullShare x0 ∗ owns (c : Thread nD τ) arg3 fullShare g ∗ (∃ d, owns (c : Thread nD τ) arg4 fullShare d)
        ∗ (iprop(owns (c : Thread nD τ) arg2 fullShare x0 ∗ owns (c : Thread nD τ) arg3 fullShare g ∗ owns (c : Thread nD τ) arg4 fullShare (scaled x0 g)) -∗ K ⟨⟩))
      ⊢ wp frame (wpE (defs₀ (F := F)) Variants.none c none) E (cc1__scale_kernel i arg2 harg2 arg3 harg3 arg4 harg4) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (scaled_cover _)

/-! ## The pipeline's proof data -/

/-- The proof data of the scaling pipeline on core `c`: the arrays as the region finds them; after the body at point
    `t` each input's buffer at its block and the result's at the product; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => scaled (blk1 V c 0 t) (blk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_x (c : Dev nD) (t : Fin cfg1.N) : (dat1 V c).after 0 t = blk1 V c 0 t := by dsimp only [dat1]
theorem after1_g (c : Dev nD) (t : Fin cfg1.N) : (dat1 V c).after 1 t = blk1 V c 1 t := by dsimp only [dat1]
theorem after1_out (c : Dev nD) (t : Fin cfg1.N) : (dat1 V c).after 2 t = scaled (blk1 V c 0 t) (blk1 V c 1 t) := by dsimp only [dat1]

theorem before1_x (c : Dev nD) (t : Fin cfg1.N) (d) : (dat1 V c).before 0 t d = blk1 V c 0 t :=
  before_x_of V (dat1 V c) (A_eq1 V c 0) (after1_x V c) t d
theorem before1_g (c : Dev nD) (t : Fin cfg1.N) (d) : (dat1 V c).before 1 t d = blk1 V c 1 t :=
  before_g_of V (dat1 V c) (A_eq1 V c 1) (after1_g V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_scale` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_x, before1_g]
  rw [show (dat1 V c).Φ t.succ = (dat1 V c).Φ t.castSucc from rfl,
    show (dat1 V c).owesAt () t.succ = (dat1 V c).owesAt () t.castSucc from rfl,
    after1_x, after1_g, after1_out]
  iintro ⟨HΦ, Ho, ⟨%d0, H0⟩, ⟨%d1, H1⟩, ⟨%d2, H2⟩⟩
  iapply (sound_scale c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The kernel program from launch to return. @main is eleven items: the statistics region, nine stretches of host
  operations (the gate), the scaling region. Between items every unscoped buffer of a core is held at named contents:
  the launch memory; after the first region the mean and deviation arrays at what its write-backs leave; after each
  stretch the stretch's operations applied; after the second region the result array at what its write-backs leave.
  Each region is entered with its windows' arrays split out of those buffers and left with them put back; the
  generator register and the core's (empty) dues ride along. The run ends with every unscoped buffer at the last
  contents, from which the frame (the arguments as launched) and the result array are read.
-/
import proofs.«146710_j41394894799126_2_alg».proof.Proof.Gen.KernelIdeal.Regions
import proofs.«146710_j41394894799126_2_alg».proof.Proof.KI.StatsFrame
import proofs.«146710_j41394894799126_2_alg».proof.Proof.KI.Scale

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The contents the regions leave -/

/-- The first region's entry contents: the launch memory. -/
abbrev Vin0 : (c : Dev nD) → (b : Ref sig .tc) → Buf (Elt F) ((c : Thread nD τ).loc b) := fun c b => V0 m c b

/-- After the first region: its arrays at what the pipeline leaves, every other buffer as entered. -/
def X1 (c : Dev nD) : Valuation τ sig (Elt F) :=
  Pipeline.withArrays spec0 c (V0 m c) fun w => (dat0 (Vin0 m) c).arrAt w cfg0.N
theorem X1_arr (c : Dev nD) (w : Fin cfg0.W) :
    X1 m c (Proc.devRef .tc (Pipeline.arrRef spec0 w)) = (dat0 (Vin0 m) c).arrAt w cfg0.N := by
  unfold X1; exact Pipeline.withArrays_arr spec0 launch0.win.arr_inj c _ _ w

/-- What the first region leaves, as the unknowns of the generated valuations (read at item 1 only). -/
def outsA : Outs (F := F) := fun _ r c => X1 m c r

/-- The second region's entry contents: the valuation after the ninth stretch. -/
abbrev Vin1 : (c : Dev nD) → (b : Ref sig .tc) → Buf (Elt F) ((c : Thread nD τ).loc b) := fun c b => V10 m (outsA m) c b

/-- After the second region: its arrays at what the pipeline leaves, every other buffer as entered. -/
def X11 (c : Dev nD) : Valuation τ sig (Elt F) :=
  Pipeline.withArrays spec1 c (V10 m (outsA m) c) fun w => (dat1 (Vin1 m) c).arrAt w cfg1.N
theorem X11_arr (c : Dev nD) (w : Fin cfg1.W) :
    X11 m c (Proc.devRef .tc (Pipeline.arrRef spec1 w)) = (dat1 (Vin1 m) c).arrAt w cfg1.N := by
  unfold X11; exact Pipeline.withArrays_arr spec1 launch1.win.arr_inj c _ _ w

/-- What both regions leave: item 11 is the second region, any other index reads the first. -/
def outs : Outs (F := F) := fun J r c => if J = 11 then X11 m c r else X1 m c r

theorem outs_one (r : Ref sig .tc) (c : Dev nD) : outs m 1 r c = X1 m c r := rfl
theorem outs_eleven (r : Ref sig .tc) (c : Dev nD) : outs m 11 r c = X11 m c r := rfl
/-- The stretches read the unknowns at item 1 only, so the two families give one valuation before the second region. -/
theorem V10_outs (c : Dev nD) : V10 m (outs m) c = V10 m (outsA m) c := rfl

/-! ## The mean and deviation arrays, and the result array, at the boundaries -/

theorem V1_mean (c : Dev nD) : V1 m (outs m) c main_v0_0 = (dat0 (Vin0 m) c).arrAt 1 cfg0.N := by
  show Function.update (Function.update (V0 m c) main_v0_0 (outs m 1 main_v0_0 c)) main_v0_1 (outs m 1 main_v0_1 c) main_v0_0 = _
  rw [Function.update_of_ne (StableHlo.devRef_ne_of_ne (by decide) : (Proc.devRef .tc main_v0_0 : DevRef τ sig) ≠ Proc.devRef .tc main_v0_1),
    Function.update_self, outs_one]
  exact X1_arr m c 1
theorem V1_std (c : Dev nD) : V1 m (outs m) c main_v0_1 = (dat0 (Vin0 m) c).arrAt 2 cfg0.N := by
  show Function.update (Function.update (V0 m c) main_v0_0 (outs m 1 main_v0_0 c)) main_v0_1 (outs m 1 main_v0_1 c) main_v0_1 = _
  rw [Function.update_self, outs_one]
  exact X1_arr m c 2
theorem V11_out (c : Dev nD) : V11 m (outs m) c main_v47 = (dat1 (Vin1 m) c).arrAt 2 cfg1.N := by
  show Function.update (V10 m (outs m) c) main_v47 (outs m 11 main_v47 c) main_v47 = _
  rw [Function.update_self, outs_eleven]
  exact X11_arr m c 2

/-- At the first region's exit each of its arrays holds what the pipeline leaves, -/
theorem exit0_arr (c : Dev nD) (w : Fin cfg0.W) :
    (dat0 (Vin0 m) c).arrAt w cfg0.N = V1 m (outs m) c (Pipeline.arrRef spec0 w) :=
  match w with
  | ⟨0, _⟩ => (((dat0 (Vin0 m) c).arrAt_in 0 rfl _).trans (A_eq0 (Vin0 m) c 0)).trans (V1_of m (outs m) c main_arg0 (by decide)).symm
  | ⟨1, _⟩ => (V1_mean m c).symm
  | ⟨2, _⟩ => (V1_std m c).symm
/-- and every other buffer what it held at entry. -/
theorem exit0_rest (c : Dev nD) (b : Ref sig .tc) (hb : b ∉ Finset.univ.image (Pipeline.arrRef spec0)) :
    V1 m (outs m) c b = Vin0 m c b :=
  V1_of m (outs m) c b (by
    intro h
    rcases List.mem_cons.mp h with h | h
    · exact hb (Finset.mem_image.mpr ⟨1, Finset.mem_univ _, h.symm⟩)
    · rcases List.mem_cons.mp h with h | h
      · exact hb (Finset.mem_image.mpr ⟨2, Finset.mem_univ _, h.symm⟩)
      · exact absurd h (List.not_mem_nil))

theorem exit1_arr (c : Dev nD) (w : Fin cfg1.W) :
    (dat1 (Vin1 m) c).arrAt w cfg1.N = V11 m (outs m) c (Pipeline.arrRef spec1 w) :=
  match w with
  | ⟨0, _⟩ => (((dat1 (Vin1 m) c).arrAt_in 0 rfl _).trans (A_eq1 (Vin1 m) c 0)).trans (V11_of m (outs m) c main_arg0 (by decide)).symm
  | ⟨1, _⟩ => (((dat1 (Vin1 m) c).arrAt_in 1 rfl _).trans (A_eq1 (Vin1 m) c 1)).trans (V11_of m (outs m) c main_v46 (by decide)).symm
  | ⟨2, _⟩ => (V11_out m c).symm
theorem exit1_rest (c : Dev nD) (b : Ref sig .tc) (hb : b ∉ Finset.univ.image (Pipeline.arrRef spec1)) :
    V11 m (outs m) c b = Vin1 m c b :=
  V11_of m (outs m) c b (by
    intro h
    rcases List.mem_cons.mp h with h | h
    · exact hb (Finset.mem_image.mpr ⟨2, Finset.mem_univ _, h.symm⟩)
    · exact absurd h (List.not_mem_nil))

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

abbrev 𝒱₀ : Variants := Variants.none
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- THE STATISTICS REGION: entered from every unscoped buffer at the launch contents, left with the mean and deviation
    arrays at what its write-backs leave. The generator register and the scoped rest enter its invariant and come back. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from inv_out (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b => V1 m (outs m) c b) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SCALING REGION: entered from every unscoped buffer at the contents after the ninth stretch, left with the result
    array at what its write-backs leave. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (V10 m (outs m) c) ∗ R c)
  post c := iprop((StableHlo.held (c : Thread nD τ) (Pipeline.ucRefs τ sig) (V11 m (outs m) c) ∗ ∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    rw [V10_outs m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (fun b => V11 m (outs m) c b) ((pdats m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

set_option backward.isDefEq.respectTransparency.types false in
/-- THE RUN: from any memory with zero counters every weakly fair execution of @main terminates, nothing faulting, and
    every final state has every unscoped buffer of every core at the last valuation. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = V11 m (outs m) c b) :=
  Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Seg.run_eq_chain,
        show (segs m (outs m) 𝒱₀ L lv E () (pdats m) (reg0 m) (reg1 m) c).map Seg.prog = [
          Prog.lift (.customCall (Pipeline.entry 0) ()),
          StableHlo.seq hostOps1, StableHlo.seq hostOps1_1, StableHlo.seq hostOps1_2, StableHlo.seq hostOps1_3,
          StableHlo.seq hostOps1_4, StableHlo.seq hostOps1_5, StableHlo.seq hostOps1_6, StableHlo.seq hostOps1_7,
          StableHlo.seq hostOps1_8,
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V11 m (outs m) c) ∗ ∃ r, prngReg c r))
    (hch := fun c => ⟨.rfl, .rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V11 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V11 m (outs m) c) s')
      isplitl [Hh] <;> iassumption)
    (hQ := fun s h c b hb => h c _ (mem_uc b hb))

/-! ## The frame, and the result array -/

/-- THE FRAME: every argument array ends as launched (no stretch writes one, no region may change one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c main_arg0 (by decide)).trans (V11_main_arg0 m (outs m) c),
      (h c main_arg1 (by decide)).trans (V11_main_arg1 m (outs m) c),
      (h c main_arg2 (by decide)).trans (V11_main_arg2 m (outs m) c),
      (h c main_arg3 (by decide)).trans (V11_main_arg3 m (outs m) c),
      (h c main_arg4 (by decide)).trans (V11_main_arg4 m (outs m) c),
      (h c main_arg5 (by decide)).trans (V11_main_arg5 m (outs m) c),
      (h c main_arg6 (by decide)).trans (V11_main_arg6 m (outs m) c),
      (h c main_arg7 (by decide)).trans (V11_main_arg7 m (outs m) c),
      (h c main_arg8 (by decide)).trans (V11_main_arg8 m (outs m) c),
      (h c main_arg9 (by decide)).trans (V11_main_arg9 m (outs m) c),
      (h c main_arg10 (by decide)).trans (V11_main_arg10 m (outs m) c),
      (h c main_arg11 (by decide)).trans (V11_main_arg11 m (outs m) c),
      (h c main_arg12 (by decide)).trans (V11_main_arg12 m (outs m) c),
      (h c main_arg13 (by decide)).trans (V11_main_arg13 m (outs m) c),
      (h c main_arg14 (by decide)).trans (V11_main_arg14 m (outs m) c)⟩) (run_all m ρ)

/-- THE RESULT: the run ends with the result array at what the scaling pipeline's write-backs leave, entered from the
    contents after the ninth stretch, and every argument array as launched. -/
theorem run_value : θ_run defs (onTc (τ := τ) (main (F := F))) ⟨m, fun _ => 0, ρ⟩ (fun r => ∀ c : Dev nD,
      r.2.mem ((c.tc : Thread nD τ).loc main_v47) = (dat1 (Vin1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c main_v47 (by decide)).trans (V11_out m c),
      (h c main_arg0 (by decide)).trans (V11_main_arg0 m (outs m) c),
      (h c main_arg1 (by decide)).trans (V11_main_arg1 m (outs m) c),
      (h c main_arg2 (by decide)).trans (V11_main_arg2 m (outs m) c),
      (h c main_arg3 (by decide)).trans (V11_main_arg3 m (outs m) c),
      (h c main_arg4 (by decide)).trans (V11_main_arg4 m (outs m) c),
      (h c main_arg5 (by decide)).trans (V11_main_arg5 m (outs m) c),
      (h c main_arg6 (by decide)).trans (V11_main_arg6 m (outs m) c),
      (h c main_arg7 (by decide)).trans (V11_main_arg7 m (outs m) c),
      (h c main_arg8 (by decide)).trans (V11_main_arg8 m (outs m) c),
      (h c main_arg9 (by decide)).trans (V11_main_arg9 m (outs m) c),
      (h c main_arg10 (by decide)).trans (V11_main_arg10 m (outs m) c),
      (h c main_arg11 (by decide)).trans (V11_main_arg11 m (outs m) c),
      (h c main_arg12 (by decide)).trans (V11_main_arg12 m (outs m) c),
      (h c main_arg13 (by decide)).trans (V11_main_arg13 m (outs m) c),
      (h c main_arg14 (by decide)).trans (V11_main_arg14 m (outs m) c)⟩) (run_all m ρ)

/-- The mean and deviation arrays the second region's entry contents were computed from. -/
theorem entry_mean (c : Dev nD) : V1 m (outsA m) c main_v0_0 = (dat0 (Vin0 m) c).arrAt 1 cfg0.N := V1_mean m c
theorem entry_std (c : Dev nD) : V1 m (outsA m) c main_v0_1 = (dat0 (Vin0 m) c).arrAt 2 cfg0.N := V1_std m c

end Cert.KernelIdeal.Hand

end
-- ==== Proof.KI.ScaleValue.lean ====
/-
  The scaling kernel's result array. Each grid point (c, h) of the 2 x 16 grid multiplies the block of the input at
  channels 128c … 128c + 127 and rows 8h … 8h + 7 (all batch entries, all lanes) by the gate's block at the same
  channels, the gate's entry for a batch entry and channel spread over the rows and lanes, and writes the product back
  to the same block of the result. The 32 blocks tile the array, so the array ends holding, at every index
  (b, ch, r, w), the input's entry there times the gate's entry at (b, ch).
-/
import proofs.«146710_j41394894799126_2_alg».proof.Proof.KI.Scale
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The product at an index of a block -/

theorem zeros4 : (![0, 0, 0, 0] : Fin 4 → Nat) = fun _ => 0 := funext fun a => by fin_cases a <;> rfl
theorem zeros2 : (![0, 0] : Fin 2 → Nat) = fun _ => 0 := funext fun a => by fin_cases a <;> rfl

/-- A [16,128] array viewed as [16,128,1,1] reads, at (p, q, 0, 0), the operand at (p, q): the two row-major
    positions are the same number. -/
theorem cast_unit_cols {α : Type} (g : S16x128.Idx → α) (h : S16x128.ShapeCasts S16x128x1x1)
    (p : Fin 16) (q : Fin 128) (u v : Fin 1) : shapeCast S16x128x1x1 g h (ix4 p q u v) = g (ix2 p q) :=
  shapeCast_apply g h _ _ (by
    have hu : u.val = 0 := by omega
    have hv : v.val = 0 := by omega
    rw [Shape.rowMajor_val_two, Shape.rowMajor_val_four]
    show p.val * 128 + q.val = ((p.val * 128 + q.val) * 1 + u.val) * 1 + v.val
    omega)

/-- A [16,128,1,1] array spread to [16,128,8,128] reads, at (p, q, r, w), the operand at (p, q, 0, 0). -/
theorem spread_rows_lanes {α : Type} (v : S16x128x1x1.Idx → α) (h : S16x128x1x1.Broadcasts S16x128x8x128)
    (p : Fin 16) (q : Fin 128) (r : Fin 8) (w : Fin 128) :
    broadcastTo S16x128x8x128 v h (ix4 p q r w) = v (ix4 p q (0 : Fin 1) (0 : Fin 1)) := by
  refine broadcastTo_apply v h (ix4 p q r w) (ix4 p q (0 : Fin 1) (0 : Fin 1)) fun ax => ?_
  match ax with
  | ⟨0, _⟩ => rfl
  | ⟨1, _⟩ => rfl
  | ⟨2, _⟩ => rfl
  | ⟨3, _⟩ => rfl

/-- The body's product at (p, q, r, w): the input block's entry there times the gate block's entry at (p, q). -/
theorem pay_at (g : Vec Ideal S16x128 .f32) (x0 : Vec Ideal S16x128x8x128 .f32)
    (p : Fin 16) (q : Fin 128) (r : Fin 8) (w : Fin 128) :
    k1_pay1 g x0 (ix4 p q r w) = x0 (ix4 p q r w) * g (ix2 p q) := by
  unfold k1_pay1
  rw [mulf_apply, shapeCast_self]
  refine congrArg (x0 (ix4 p q r w) * ·) ?_
  refine (spread_rows_lanes _ _ p q r w).trans ?_
  exact cast_unit_cols g _ p q 0 0

/-- The same at any index of the block. -/
theorem pay_idx (g : Vec Ideal S16x128 .f32) (x0 : Vec Ideal S16x128x8x128 .f32) (y : S16x128x8x128.Idx) :
    k1_pay1 g x0 y = x0 y * g (ix2 (y 0) (y 1)) := by
  obtain ⟨p, q, r, w, rfl⟩ : ∃ (p : Fin 16) (q : Fin 128) (r : Fin 8) (w : Fin 128), y = ix4 p q r w :=
    ⟨y 0, y 1, y 2, y 3, eq_ix4 y⟩
  exact pay_at g x0 p q r w

/-! ## Where the blocks sit -/

/-- The three windows' block indices at grid point `t` = 16 c + h: channels' block `c`, rows' block `h`, decided
    over the 32 points. -/
theorem blocks_at : ∀ t : Fin cfg1.N,
    win1_0.index t (0 : Fin 4) = 0 ∧ win1_0.index t (1 : Fin 4) = t.val / 16 ∧ win1_0.index t (2 : Fin 4) = t.val % 16
      ∧ win1_0.index t (3 : Fin 4) = 0
    ∧ win1_1.index t (0 : Fin 2) = 0 ∧ win1_1.index t (1 : Fin 2) = t.val / 16
    ∧ win1_2.index t (0 : Fin 4) = 0 ∧ win1_2.index t (1 : Fin 4) = t.val / 16 ∧ win1_2.index t (2 : Fin 4) = t.val % 16
      ∧ win1_2.index t (3 : Fin 4) = 0 :=
  (by decide +kernel : ∀ t : Fin grid1.N, _)

variable (V : (c : Dev nD) → (b : Ref sig .tc) → Buf (Elt Ideal) ((c : Thread nD τ).loc b))

/-- The input's block at point `t`, at the block index `y`, is the input at batch entry `y 0`, channel
    `128 (t / 16) + y 1`, row `8 (t % 16) + y 2`, lane `y 3`. -/
theorem blk_x_apply (c : Dev nD) (t : Fin cfg1.N) (y : S16x128x8x128.Idx) (i : S16x256x128x128.Idx)
    (h0 : (i 0).val = (y 0).val) (h1 : (i 1).val = 128 * (t.val / 16) + (y 1).val)
    (h2 : (i 2).val = 8 * (t.val % 16) + (y 2).val) (h3 : (i 3).val = (y 3).val) :
    (blk1 V c 0 t : Vec Ideal S16x128x8x128 .f32) y = (V c main_arg0 : S16x256x128x128.Idx → EReal) i := by
  obtain ⟨e0, e1, e2, e3, -⟩ := blocks_at t
  unfold blk1
  rw [View.read_apply]
  show V c main_arg0 _ = V c main_arg0 _
  refine congrArg (V c main_arg0) (funext fun a => Fin.ext ?_)
  match a with
  | ⟨0, _⟩ => show win1_0.index t (0 : Fin 4) * 16 + 1 * (y 0).val = (i 0).val; rw [e0, h0]; omega
  | ⟨1, _⟩ => show win1_0.index t (1 : Fin 4) * 128 + 1 * (y 1).val = (i 1).val; rw [e1, h1]; omega
  | ⟨2, _⟩ => show win1_0.index t (2 : Fin 4) * 8 + 1 * (y 2).val = (i 2).val; rw [e2, h2]; omega
  | ⟨3, _⟩ => show win1_0.index t (3 : Fin 4) * 128 + 1 * (y 3).val = (i 3).val; rw [e3, h3]; omega

/-- The gate's block at point `t`, at the block index `y`, is the gate at batch entry `y 0`, channel
    `128 (t / 16) + y 1`. -/
theorem blk_g_apply (c : Dev nD) (t : Fin cfg1.N) (y : S16x128.Idx) (k : S16x256.Idx)
    (h0 : (k 0).val = (y 0).val) (h1 : (k 1).val = 128 * (t.val / 16) + (y 1).val) :
    (blk1 V c 1 t : Vec Ideal S16x128 .f32) y = (V c main_v46 : S16x256.Idx → EReal) k := by
  obtain ⟨-, -, -, -, e4, e5, -⟩ := blocks_at t
  unfold blk1
  rw [View.read_apply]
  show V c main_v46 _ = V c main_v46 _
  refine congrArg (V c main_v46) (funext fun a => Fin.ext ?_)
  match a with
  | ⟨0, _⟩ => show win1_1.index t (0 : Fin 2) * 16 + 1 * (y 0).val = (k 0).val; rw [e4, h0]; omega
  | ⟨1, _⟩ => show win1_1.index t (1 : Fin 2) * 128 + 1 * (y 1).val = (k 1).val; rw [e5, h1]; omega

/-! ## What each point writes back -/

/-- Point `t` writes back its block of the array `input × gate at (batch, channel)`. -/
theorem flushed_scaled (c : Dev nD) (t : Fin cfg1.N) (x : S16x256x128x128.Idx → EReal) (g : S16x256.Idx → EReal)
    (hx : V c main_arg0 = x) (hg : V c main_v46 = g) :
    (dat1 (F := Ideal) V c).flushed 2 t
      = ((cfg1.win 2).blk t).view.read (Elt Ideal) (fun i => x i * g (ix2 (i 0) (i 1))) := by
  subst hx; subst hg
  show (cfg1.win 2).cut (grid1.coords t) ((dat1 V c).after 2 t) = _
  rw [after1_out]
  unfold scaled
  rw [View.canon_unit_zero zeros4]
  simp only [View.ld_unit_zero (S := S16x128x8x128) zeros4, View.ld_unit_zero (S := S16x128) zeros2]
  obtain ⟨-, -, -, -, -, -, e6, e7, e8, e9⟩ := blocks_at t
  funext j
  rw [View.read_apply]
  refine (pay_idx (blk1 V c 1 t) (blk1 V c 0 t) ((cfg1.win 2).xinj (grid1.coords t) j)).trans ?_
  refine congrArg₂ (fun a b : EReal => a * b) (blk_x_apply V c t _ _ ?_ ?_ ?_ ?_) (blk_g_apply V c t _ _ ?_ ?_)
  · show win1_2.index t (0 : Fin 4) * 16 + 1 * (j 0).val = (j 0).val; rw [e6]; omega
  · show win1_2.index t (1 : Fin 4) * 128 + 1 * (j 1).val = 128 * (t.val / 16) + (j 1).val; rw [e7]; omega
  · show win1_2.index t (2 : Fin 4) * 8 + 1 * (j 2).val = 8 * (t.val % 16) + (j 2).val; rw [e8]; omega
  · show win1_2.index t (3 : Fin 4) * 128 + 1 * (j 3).val = (j 3).val; rw [e9]; omega
  · show win1_2.index t (0 : Fin 4) * 16 + 1 * (j 0).val = (j 0).val; rw [e6]; omega
  · show win1_2.index t (1 : Fin 4) * 128 + 1 * (j 1).val = 128 * (t.val / 16) + (j 1).val; rw [e7]; omega

/-! ## The blocks tile the array -/

/-- An index is in point `t`'s block of the result iff each coordinate is in the block's range on its axis. -/
theorem mem_blk_out (t : Fin cfg1.N) (i : S16x256x128x128.Idx) :
    i ∈ ((cfg1.win 2).blk t).view.set ↔ ∀ a : Fin 4, win1_2.index t a * S16x128x8x128.size a ≤ (i a).val
      ∧ (i a).val < win1_2.index t a * S16x128x8x128.size a + S16x128x8x128.size a := by
  show i ∈ ((View.whole main_v47).slice (win1_2.rect t)).set ↔ _
  rw [View.set_slice_whole, Rect.mem_set_unit]
  exact Iff.rfl

/-- Index (b, ch, r, w) is in the block of the point 16 (ch / 128) + r / 8, which writes back. -/
theorem covered (i : S16x256x128x128.Idx) :
    ∃ t : Fin cfg1.N, (cfg1.win 2).flush t = true ∧ i ∈ ((cfg1.win 2).blk t).view.set := by
  have h0 : (i 0).val < 16 := (i 0).isLt
  have h1 : (i 1).val < 256 := (i 1).isLt
  have h2 : (i 2).val < 128 := (i 2).isLt
  have h3 : (i 3).val < 128 := (i 3).isLt
  have hN : cfg1.N = 32 := N_1
  obtain ⟨t, ht⟩ : ∃ t : Fin cfg1.N, t.val = 16 * ((i 1).val / 128) + (i 2).val / 8 :=
    ⟨⟨16 * ((i 1).val / 128) + (i 2).val / 8, by rw [hN]; omega⟩, rfl⟩
  obtain ⟨-, -, -, -, -, -, e6, e7, e8, e9⟩ := blocks_at t
  refine ⟨t, flush1_2 t, ?_⟩
  rw [mem_blk_out]
  intro a
  match a with
  | ⟨0, _⟩ =>
    show win1_2.index t (0 : Fin 4) * 16 ≤ (i 0).val ∧ (i 0).val < win1_2.index t (0 : Fin 4) * 16 + 16
    rw [e6]; omega
  | ⟨1, _⟩ =>
    show win1_2.index t (1 : Fin 4) * 128 ≤ (i 1).val ∧ (i 1).val < win1_2.index t (1 : Fin 4) * 128 + 128
    rw [e7, ht]; omega
  | ⟨2, _⟩ =>
    show win1_2.index t (2 : Fin 4) * 8 ≤ (i 2).val ∧ (i 2).val < win1_2.index t (2 : Fin 4) * 8 + 8
    rw [e8, ht]; omega
  | ⟨3, _⟩ =>
    show win1_2.index t (3 : Fin 4) * 128 ≤ (i 3).val ∧ (i 3).val < win1_2.index t (3 : Fin 4) * 128 + 128
    rw [e9]; omega

/-! ## The result array -/

/-- After the scaling kernel's run the result array holds, at every index, the input's entry there times the gate's
    entry at the index's batch entry and channel — stated for any names `x`, `g` of the two arrays the region finds. -/
theorem scale_value_of (c : Dev nD) (x : S16x256x128x128.Idx → EReal) (g : S16x256.Idx → EReal)
    (hx : V c main_arg0 = x) (hg : V c main_v46 = g) :
    (dat1 (F := Ideal) V c).arrAt 2 cfg1.N = fun i => x i * g (ix2 (i 0) (i 1)) :=
  (dat1 V c).arrAt_eq_of_cover 2 _ (fun t _ => flushed_scaled V c t x g hx hg) covered

/-- The same with the arrays under their own names. -/
theorem scale_value (c : Dev nD) :
    (dat1 (F := Ideal) V c).arrAt 2 cfg1.N
      = fun i => @HMul.hMul EReal EReal EReal _ (V c main_arg0 i) (V c main_v46 (ix2 (i 0) (i 1))) :=
  scale_value_of V c _ _ rfl rfl

end Cert.KernelIdeal.Hand

end
-- ==== Proof.Spec.lean ====
/-
  The channel statistics both programs compute, as functions of the input array at the ideal instance.
  For a batch entry `b` and a channel `ch` the 128 x 128 plane of `x` is summed as sixteen tiles of eight rows:
  `planeSum f b ch = sum over h < 16, r < 8, w < 128 of f (b, ch, 8h + r, w)`. The mean is that sum over the count
  16384; the deviation is the square root of the mean of squares less the squared mean, clamped below at zero.
-/
import Idealize.ShloMosaic.PureOps.Ideal
import Idealize.ShloMosaic.Lib.ValueIdx

noncomputable section

open scoped BigOperators

namespace Cert.Spec

open Idealize.ShloMosaic Idealize.ShloMosaic.ValueIdx

/-- The input's shape and the shape of a per-channel descriptor. -/
abbrev SX : Shape := ⟨4, ![16, 256, 128, 128]⟩
abbrev SD : Shape := ⟨2, ![16, 256]⟩

/-- Row `8h + r` of a plane: row `r` of the `h`-th tile of eight rows. -/
def row (h : Fin 16) (r : Fin 8) : Fin 128 := ⟨8 * h.val + r.val, by omega⟩

/-- The sum of `f` over the plane of batch entry `b` and channel `ch`, tile by tile, row by row, lane by lane. -/
def planeSum (f : SX.Idx → EReal) (b : Fin 16) (ch : Fin 256) : EReal :=
  ∑ h : Fin 16, ∑ r : Fin 8, ∑ w : Fin 128, f (ix4 b ch (row h r) w)

/-- The number of elements of a plane, 16384, as the f32 word both programs divide by. -/
abbrev count : EReal := Ideal.ofBits .f32 0x46800000#32

/-- The mean of a plane. -/
def meanAt (x : SX.Idx → EReal) (b : Fin 16) (ch : Fin 256) : EReal :=
  Ideal.div (planeSum x b ch) count

/-- The deviation of a plane in the one-pass form: root of (mean of squares - squared mean), clamped at zero. -/
def stdAt (x : SX.Idx → EReal) (b : Fin 16) (ch : Fin 256) : EReal :=
  Ideal.sqrt (max (Ideal.div (planeSum (fun i => x i * x i) b ch) count - meanAt x b ch * meanAt x b ch)
    (Ideal.ofBits .f32 0x00000000#32))

/-- The two descriptors as arrays over (batch, channel). -/
def meanArr (x : SX.Idx → EReal) : SD.Idx → EReal := fun j => meanAt x (j 0) (j 1)
def stdArr (x : SX.Idx → EReal) : SD.Idx → EReal := fun j => stdAt x (j 0) (j 1)

end Cert.Spec

end
-- ==== Proof.KI.StatsPieces.lean ====
/-
  The statistics kernel's stored pieces read back as values, for any float instance. In each control case the body
  stores ONE whole 16 x 128 block into each buffer it touches, so each buffer afterwards holds that store's payload,
  a pure term of the input block and of what the accumulators held before:
    first tile   sum <- 0 + tile sums of x,          squares <- 0 + tile sums of x * x;
    middle tile  sum <- sum + tile sums of x,        squares <- squares + tile sums of x * x;
    last tile    the same two updates, then mean <- sum / count and
                 deviation <- sqrt (max (squares / count - mean * mean) 0), both from the updated accumulators.
-/
import proofs.«146710_j41394894799126_2_alg».proof.Proof.KI.StatsFrame
import proofs.«146710_j41394894799126_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- Every store and load of the body addresses a buffer from its origin: the offsets are all zero. -/
theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## A half's first tile: the accumulators are zeroed, then the tile's sums are added -/

/-- The sum accumulator after a first tile: the zero block, read back, plus the tile's sums of `x`. -/
theorem first_S (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : isFirst i) (h1 : ¬isLast i) (x0 : Vec F S16x128x8x128 .f32) :
    rd (runFirst c i arg2 harg2 arg3 harg3 arg4 harg4 arg5 harg5 arg6 harg6 h0 h1 x0).1 = k0_pay3 x0 k0_pay1 := by
  unfold rd
  rw [View.read_writes_eq_canon _ _ _ (first_coverS c i arg2 harg2 arg3 harg3 arg4 harg4 arg5 harg5 arg6 harg6 h0 h1 x0)]
  unfold runFirst
  dsimp only
  try sl_unfold_words
  rw [View.canon_cons_unit_zero (S := S16x128) hz2, View.readCov_unit_zero (S := S16x128) _ hz2]
  simp only [View.readAt_eq_ld, harg2.read_unread, harg5.read_unread, harg6.read_unread, View.ld_unit_zero (S := S16x128) hz2, View.ld_unit_zero (S := S16x128x8x128) hz4]

/-- The sum-of-squares accumulator after a first tile: the zero block plus the tile's sums of `x * x`. -/
theorem first_Q (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : isFirst i) (h1 : ¬isLast i) (x0 : Vec F S16x128x8x128 .f32) :
    rd (runFirst c i arg2 harg2 arg3 harg3 arg4 harg4 arg5 harg5 arg6 harg6 h0 h1 x0).2.1 = k0_pay4 x0 k0_pay2 := by
  unfold rd
  rw [View.read_writes_eq_canon _ _ _ (first_coverQ c i arg2 harg2 arg3 harg3 arg4 harg4 arg5 harg5 arg6 harg6 h0 h1 x0)]
  unfold runFirst
  dsimp only
  try sl_unfold_words
  rw [View.canon_cons_unit_zero (S := S16x128) hz2, View.readCov_unit_zero (S := S16x128) _ hz2]
  simp only [View.readAt_eq_ld, harg2.read_unread, harg5.read_unread, harg6.read_unread, View.ld_unit_zero (S := S16x128) hz2, View.ld_unit_zero (S := S16x128x8x128) hz4]

/-! ## A middle tile: the tile's sums are added to what the accumulators held -/

/-- The sum accumulator after a middle tile: what it held plus the tile's sums of `x`. -/
theorem mid_S (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : ¬isFirst i) (h1 : ¬isLast i) (x0 : Vec F S16x128x8x128 .f32) (s q : Vec F S16x128 .f32) :
    rd (runMid c i arg2 harg2 arg3 harg3 arg4 harg4 arg5 harg5 arg6 harg6 h0 h1 x0 s q).1 = k0_pay3 x0 s := by
  unfold rd
  rw [View.read_writes_eq_canon _ _ _ (mid_coverS c i arg2 harg2 arg3 harg3 arg4 harg4 arg5 harg5 arg6 harg6 h0 h1 x0 s q)]
  unfold runMid
  dsimp only
  try sl_unfold_words
  rw [View.canon_unit_zero hz2]
  simp only [View.readAt_eq_ld, harg2.read_unread, harg5.read_unread, harg6.read_unread, View.ld_unit_zero (S := S16x128) hz2, View.ld_unit_zero (S := S16x128x8x128) hz4]

/-- The sum-of-squares accumulator after a middle tile: what it held plus the tile's sums of `x * x`. -/
theorem mid_Q (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : ¬isFirst i) (h1 : ¬isLast i) (x0 : Vec F S16x128x8x128 .f32) (s q : Vec F S16x128 .f32) :
    rd (runMid c i arg2 harg2 arg3 harg3 arg4 harg4 arg5 harg5 arg6 harg6 h0 h1 x0 s q).2.1 = k0_pay4 x0 q := by
  unfold rd
  rw [View.read_writes_eq_canon _ _ _ (mid_coverQ c i arg2 harg2 arg3 harg3 arg4 harg4 arg5 harg5 arg6 harg6 h0 h1 x0 s q)]
  unfold runMid
  dsimp only
  try sl_unfold_words
  rw [View.canon_unit_zero hz2]
  simp only [View.readAt_eq_ld, harg2.read_unread, harg5.read_unread, harg6.read_unread, View.ld_unit_zero (S := S16x128) hz2, View.ld_unit_zero (S := S16x128x8x128) hz4]

/-! ## A half's last tile: the sums are completed, and the mean and the deviation are computed from them -/

/-- The sum accumulator after a last tile: what it held plus the tile's sums of `x`. -/
theorem last_S (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : ¬isFirst i) (h1 : isLast i) (x0 : Vec F S16x128x8x128 .f32) (s q : Vec F S16x128 .f32) :
    rd (runLast c i arg2 harg2 arg3 harg3 arg4 harg4 arg5 harg5 arg6 harg6 h0 h1 x0 s q).2.2.1 = k0_pay3 x0 s := by
  unfold rd
  rw [View.read_writes_eq_canon _ _ _ (last_coverS c i arg2 harg2 arg3 harg3 arg4 harg4 arg5 harg5 arg6 harg6 h0 h1 x0 s q)]
  unfold runLast
  dsimp only
  try sl_unfold_words
  rw [View.canon_unit_zero hz2]
  simp only [View.readAt_eq_ld, harg2.read_unread, harg5.read_unread, harg6.read_unread, View.ld_unit_zero (S := S16x128) hz2, View.ld_unit_zero (S := S16x128x8x128) hz4]

/-- The sum-of-squares accumulator after a last tile: what it held plus the tile's sums of `x * x`. -/
theorem last_Q (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : ¬isFirst i) (h1 : isLast i) (x0 : Vec F S16x128x8x128 .f32) (s q : Vec F S16x128 .f32) :
    rd (runLast c i arg2 harg2 arg3 harg3 arg4 harg4 arg5 harg5 arg6 harg6 h0 h1 x0 s q).2.2.2.1 = k0_pay4 x0 q := by
  unfold rd
  rw [View.read_writes_eq_canon _ _ _ (last_coverQ c i arg2 harg2 arg3 harg3 arg4 harg4 arg5 harg5 arg6 harg6 h0 h1 x0 s q)]
  unfold runLast
  dsimp only
  try sl_unfold_words
  rw [View.canon_unit_zero hz2]
  simp only [View.readAt_eq_ld, harg2.read_unread, harg5.read_unread, harg6.read_unread, View.ld_unit_zero (S := S16x128) hz2, View.ld_unit_zero (S := S16x128x8x128) hz4]

/-- The mean buffer after a last tile: the completed sum divided by the count. -/
theorem last_mean (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : ¬isFirst i) (h1 : isLast i) (x0 : Vec F S16x128x8x128 .f32) (s q : Vec F S16x128 .f32) :
    rd (runLast c i arg2 harg2 arg3 harg3 arg4 harg4 arg5 harg5 arg6 harg6 h0 h1 x0 s q).1 = k0_pay5 (k0_pay3 x0 s) := by
  unfold rd
  rw [View.read_writes_eq_canon _ _ _ (last_cover1 c i arg2 harg2 arg3 harg3 arg4 harg4 arg5 harg5 arg6 harg6 h0 h1 x0 s q)]
  unfold runLast
  dsimp only
  try sl_unfold_words
  rw [View.canon_unit_zero hz2, View.readCov_unit_zero (S := S16x128) _ hz2]
  simp only [View.readAt_eq_ld, harg2.read_unread, harg5.read_unread, harg6.read_unread, View.ld_unit_zero (S := S16x128) hz2, View.ld_unit_zero (S := S16x128x8x128) hz4]

/-- The deviation buffer after a last tile: the root of the clamped difference between the mean of squares and the squared mean, both from the completed sums. -/
theorem last_std (c : Dev nD) (i : grid0.Coords) (arg2 : Memref sig .tc .vmem S16x128x8x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (h0 : ¬isFirst i) (h1 : isLast i) (x0 : Vec F S16x128x8x128 .f32) (s q : Vec F S16x128 .f32) :
    rd (runLast c i arg2 harg2 arg3 harg3 arg4 harg4 arg5 harg5 arg6 harg6 h0 h1 x0 s q).2.1 = k0_pay6 (k0_pay3 x0 s) (k0_pay4 x0 q) := by
  unfold rd
  rw [View.read_writes_eq_canon _ _ _ (last_cover2 c i arg2 harg2 arg3 harg3 arg4 harg4 arg5 harg5 arg6 harg6 h0 h1 x0 s q)]
  unfold runLast
  dsimp only
  try sl_unfold_words
  rw [View.canon_unit_zero hz2]
  simp only [View.readCov_unit_zero (S := S16x128) _ hz2]
  simp only [View.readAt_eq_ld, harg2.read_unread, harg5.read_unread, harg6.read_unread, View.ld_unit_zero (S := S16x128) hz2, View.ld_unit_zero (S := S16x128x8x128) hz4]

end Cert.KernelIdeal.Hand

end
-- ==== Proof.KI.StatsPay.lean ====
/-
  The statistics kernel's stored values at an index, at the ideal instance.

  At one grid point the kernel holds a block of eight rows of sixteen (batch) by 128 (channel) planes. It adds to a
  running sum, per (batch entry p, channel j), the sum over the block's eight rows and 128 lanes of the entries — a
  lane sum over the last axis, then a row sum over the axis before it, both from zero — and to a second running sum
  the same sum of the squared entries. The two running sums start at zero. At the last point the mean is the first
  running sum over the count, and the deviation is the root of the second over the count less the squared mean,
  clamped below at zero.
-/
import proofs.«146710_j41394894799126_2_alg».proof.Proof.Gen.KernelIdeal.Skeleton
import proofs.«146710_j41394894799126_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-! ## The two one-axis sums at an index -/

/-- The sum over the lanes (the last axis) of a block, at (p, j, r). -/
theorem lane_sum (h : S16x128x8x128.Reduces [3] S16x128x8) (v : S16x128x8x128.Idx → EReal) (p : Fin 16) (j : Fin 128)
    (r : Fin 8) : Ideal.reduceAdd h v (ix3 p j r) = ∑ w : Fin 128, v (ix4 p j r w) := by
  refine (Ideal.reduceAdd_single h v (ix3 p j r)).trans ?_
  refine Finset.sum_congr rfl fun w _ => congrArg v (funext fun c => Fin.ext ?_)
  match c with
  | ⟨0, _⟩ => rfl
  | ⟨1, _⟩ => rfl
  | ⟨2, _⟩ => rfl
  | ⟨3, _⟩ => rfl

/-- The sum over the eight rows (the last axis of the lane sums), at (p, j). -/
theorem row_sum (h : S16x128x8.Reduces [2] S16x128) (u : S16x128x8.Idx → EReal) (p : Fin 16) (j : Fin 128) :
    Ideal.reduceAdd h u (ix2 p j) = ∑ r : Fin 8, u (ix3 p j r) := by
  refine (Ideal.reduceAdd_single h u (ix2 p j)).trans ?_
  refine Finset.sum_congr rfl fun r _ => congrArg u (funext fun c => Fin.ext ?_)
  match c with
  | ⟨0, _⟩ => rfl
  | ⟨1, _⟩ => rfl
  | ⟨2, _⟩ => rfl

/-- The block sum: rows, then lanes, of a block at (p, j). -/
theorem block_sum (h3 : S16x128x8x128.Reduces [3] S16x128x8) (h2 : S16x128x8.Reduces [2] S16x128)
    (v : S16x128x8x128.Idx → EReal) (p : Fin 16) (j : Fin 128) :
    Ideal.reduceAdd h2 (Ideal.reduceAdd h3 v) (ix2 p j) = ∑ r : Fin 8, ∑ w : Fin 128, v (ix4 p j r w) := by
  rw [row_sum]
  exact Finset.sum_congr rfl fun r _ => lane_sum h3 v p j r

/-! ## The stored values -/

/-- The running sums start at zero. -/
theorem pay1_apply (i : S16x128.Idx) : k0_pay1 (F := Ideal) i = 0 := by
  unfold k0_pay1
  rw [shapeCast_self]
  exact Ideal.ofBits_zero_f32

theorem pay2_apply (i : S16x128.Idx) : k0_pay2 (F := Ideal) i = 0 := by
  unfold k0_pay2
  rw [shapeCast_self]
  exact Ideal.ofBits_zero_f32

/-- The first running sum after a point: what it held plus the block sum of the entries. -/
theorem pay3_apply (x0 : Vec Ideal S16x128x8x128 .f32) (s : Vec Ideal S16x128 .f32) (p : Fin 16) (j : Fin 128) :
    k0_pay3 (F := Ideal) x0 s (ix2 p j) = s (ix2 p j) + ∑ r : Fin 8, ∑ w : Fin 128, x0 (ix4 p j r w) := by
  unfold k0_pay3
  dsimp only
  rw [shapeCast_self]
  show s (ix2 p j) + Ideal.reduceAdd reduces_S16x128x8_S16x128 (Ideal.reduceAdd reduces_S16x128x8x128_S16x128x8 x0)
    (ix2 p j) = _
  rw [block_sum]

/-- The second running sum after a point: what it held plus the block sum of the squared entries. -/
theorem pay4_apply (x0 : Vec Ideal S16x128x8x128 .f32) (q : Vec Ideal S16x128 .f32) (p : Fin 16) (j : Fin 128) :
    k0_pay4 (F := Ideal) x0 q (ix2 p j)
      = q (ix2 p j) + ∑ r : Fin 8, ∑ w : Fin 128, x0 (ix4 p j r w) * x0 (ix4 p j r w) := by
  unfold k0_pay4
  dsimp only
  rw [shapeCast_self]
  show q (ix2 p j) + Ideal.reduceAdd reduces_S16x128x8_S16x128
    (Ideal.reduceAdd reduces_S16x128x8x128_S16x128x8 (fun i => x0 i * x0 i)) (ix2 p j) = _
  rw [block_sum]

/-- The mean: the first running sum over the count. -/
theorem pay5_apply (v : Vec Ideal S16x128 .f32) (p : Fin 16) (j : Fin 128) :
    k0_pay5 (F := Ideal) v (ix2 p j) = Ideal.div (v (ix2 p j)) Cert.Spec.count := rfl

/-- The deviation: the root of the second running sum over the count less the squared mean, clamped at zero. -/
theorem pay6_apply (v u : Vec Ideal S16x128 .f32) (p : Fin 16) (j : Fin 128) :
    k0_pay6 (F := Ideal) v u (ix2 p j)
      = Ideal.sqrt (max (Ideal.div (u (ix2 p j)) Cert.Spec.count
          - Ideal.div (v (ix2 p j)) Cert.Spec.count * Ideal.div (v (ix2 p j)) Cert.Spec.count)
          (Ideal.ofBits .f32 0x00000000#32)) := rfl

end Cert.KernelIdeal.Hand

end
-- ==== Proof.KI.StatsSums.lean ====
/-
  The statistics kernel's accumulation at the ideal instance. Point t of the grid is row tile t % 16 of channel half
  t / 16; its input block, at (p, j, r, w), is the array's entry at batch p, channel 128 (t / 16) + j, row
  8 (t % 16) + r, lane w. A half's first tile leaves in the sum accumulator the tile's sums of x, every later tile adds
  its own, so after tile k the accumulator holds, per batch entry and channel, the sum of x over the plane's first
  k + 1 row tiles (and the second accumulator the same of x * x): an induction on the point. After the sixteenth tile
  these are the plane sums, and the half's last tile leaves in the result buffers the plane's mean (the sum over the
  count) and its deviation in the one-pass form (the root of the mean of squares less the squared mean, clamped at zero).
-/
import proofs.«146710_j41394894799126_2_alg».proof.Proof.KI.StatsFrame
import proofs.«146710_j41394894799126_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«146710_j41394894799126_2_alg».proof.Proof.KI.StatsPieces
import proofs.«146710_j41394894799126_2_alg».proof.Proof.KI.StatsPay

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

open scoped BigOperators

/-! ## Where a block of the input sits in the array -/

/-- The printed index map of the input window, decided over the grid: point `t` reads channel half `t / 16` and
    row tile `t % 16`, all batch entries and all lanes. -/
theorem idx_in : ∀ t : Fin cfg0.N, win0_0.index t (0 : Fin 4) = 0 ∧ win0_0.index t (1 : Fin 4) = t.val / 16
    ∧ win0_0.index t (2 : Fin 4) = t.val % 16 ∧ win0_0.index t (3 : Fin 4) = 0 :=
  (by decide +kernel : ∀ t : Fin grid0.N, win0_0.index t (0 : Fin 4) = 0 ∧ win0_0.index t (1 : Fin 4) = t.val / 16
    ∧ win0_0.index t (2 : Fin 4) = t.val % 16 ∧ win0_0.index t (3 : Fin 4) = 0)

/-- Channel `j` of channel half `a`: channel `128 a + j` of the array. -/
def chan (a : ℕ) (j : Fin 128) : Fin 256 := ⟨(128 * a + j.val) % 256, Nat.mod_lt _ (by decide)⟩

/-- Row `r` of row tile `k`: row `8 k + r` of a plane. -/
def rowN (k : ℕ) (r : Fin 8) : Fin 128 := ⟨(8 * k + r.val) % 128, Nat.mod_lt _ (by decide)⟩

theorem rowN_eq (h : Fin 16) (r : Fin 8) : rowN h.val r = Cert.Spec.row h r :=
  Fin.ext (Nat.mod_eq_of_lt (by have := h.isLt; have := r.isLt; omega))

section Block
variable {F : FTy → Type} [FloatOps F]
variable (V : (c : Dev nD) → (b : Ref sig .tc) → Buf (Elt F) ((c : Thread nD τ).loc b))

/-- The input block at point `t`, entry (p, j, r, w): the array's entry at batch `p`, channel `j` of half `t / 16`, row
    `r` of tile `t % 16`, lane `w` — a block's coordinate is the block index times the block size plus the coordinate
    inside the block. -/
theorem blk0_apply (c : Dev nD) (t : Fin cfg0.N) (p : Fin 16) (j : Fin 128) (r : Fin 8) (w : Fin 128) :
    (blk0 V c 0 t : Vec F S16x128x8x128 .f32) (ix4 p j r w)
      = (V c main_arg0 : S16x256x128x128.Idx → Elt F .f32) (ix4 p (chan (t.val / 16) j) (rowN (t.val % 16) r) w) := by
  obtain ⟨e0, e1, e2, e3⟩ := idx_in t
  have hN : grid0.N = 32 := N_0
  have ht : t.val < grid0.N := t.isLt
  unfold blk0
  rw [View.read_apply]
  show V c main_arg0 _ = V c main_arg0 _
  refine congrArg _ ?_
  funext a; apply Fin.ext
  match a with
  | ⟨0, _⟩ => show win0_0.index t (0 : Fin 4) * 16 + 1 * p.val = p.val; rw [e0]; omega
  | ⟨1, _⟩ => show win0_0.index t (1 : Fin 4) * 128 + 1 * j.val = (128 * (t.val / 16) + j.val) % 256; rw [e1]; omega
  | ⟨2, _⟩ => show win0_0.index t (2 : Fin 4) * 8 + 1 * r.val = (8 * (t.val % 16) + r.val) % 128; rw [e2]; omega
  | ⟨3, _⟩ => show win0_0.index t (3 : Fin 4) * 128 + 1 * w.val = w.val; rw [e3]; omega

end Block

/-! ## The three cases at a point of the grid, as values -/

section AtPoint
variable {F : FTy → Type} [FloatOps F]
variable (V : (c : Dev nD) → (b : Ref sig .tc) → Buf (Elt F) ((c : Thread nD τ).loc b))

theorem firstAt_S (c : Dev nD) (t : Fin cfg0.N) (h0 : t.val % 16 = 0) :
    rd (firstAt V c t h0).1 = k0_pay3 (blk0 V c 0 t) k0_pay1 :=
  first_S c (grid0.coords t) (ms0 t) (hs0 t) (ms1 t) (hs1 t) (ms2 t) (hs2 t) accS (Memref.isWhole_whole _) accQ (Memref.isWhole_whole _) _ _ (blk0 V c 0 t)
theorem firstAt_Q (c : Dev nD) (t : Fin cfg0.N) (h0 : t.val % 16 = 0) :
    rd (firstAt V c t h0).2.1 = k0_pay4 (blk0 V c 0 t) k0_pay2 :=
  first_Q c (grid0.coords t) (ms0 t) (hs0 t) (ms1 t) (hs1 t) (ms2 t) (hs2 t) accS (Memref.isWhole_whole _) accQ (Memref.isWhole_whole _) _ _ (blk0 V c 0 t)
theorem midAt_S (c : Dev nD) (t : Fin cfg0.N) (h0 : ¬t.val % 16 = 0) (h1 : ¬t.val % 16 = 15) (s q : Vec F S16x128 .f32) :
    rd (midAt V c t h0 h1 s q).1 = k0_pay3 (blk0 V c 0 t) s :=
  mid_S c (grid0.coords t) (ms0 t) (hs0 t) (ms1 t) (hs1 t) (ms2 t) (hs2 t) accS (Memref.isWhole_whole _) accQ (Memref.isWhole_whole _) _ _ (blk0 V c 0 t) s q
theorem midAt_Q (c : Dev nD) (t : Fin cfg0.N) (h0 : ¬t.val % 16 = 0) (h1 : ¬t.val % 16 = 15) (s q : Vec F S16x128 .f32) :
    rd (midAt V c t h0 h1 s q).2.1 = k0_pay4 (blk0 V c 0 t) q :=
  mid_Q c (grid0.coords t) (ms0 t) (hs0 t) (ms1 t) (hs1 t) (ms2 t) (hs2 t) accS (Memref.isWhole_whole _) accQ (Memref.isWhole_whole _) _ _ (blk0 V c 0 t) s q
theorem lastAt_S (c : Dev nD) (t : Fin cfg0.N) (h0 : ¬t.val % 16 = 0) (h1 : t.val % 16 = 15) (s q : Vec F S16x128 .f32) :
    rd (lastAt V c t h0 h1 s q).2.2.1 = k0_pay3 (blk0 V c 0 t) s :=
  last_S c (grid0.coords t) (ms0 t) (hs0 t) (ms1 t) (hs1 t) (ms2 t) (hs2 t) accS (Memref.isWhole_whole _) accQ (Memref.isWhole_whole _) _ _ (blk0 V c 0 t) s q
theorem lastAt_Q (c : Dev nD) (t : Fin cfg0.N) (h0 : ¬t.val % 16 = 0) (h1 : t.val % 16 = 15) (s q : Vec F S16x128 .f32) :
    rd (lastAt V c t h0 h1 s q).2.2.2.1 = k0_pay4 (blk0 V c 0 t) q :=
  last_Q c (grid0.coords t) (ms0 t) (hs0 t) (ms1 t) (hs1 t) (ms2 t) (hs2 t) accS (Memref.isWhole_whole _) accQ (Memref.isWhole_whole _) _ _ (blk0 V c 0 t) s q
theorem lastAt_mean (c : Dev nD) (t : Fin cfg0.N) (h0 : ¬t.val % 16 = 0) (h1 : t.val % 16 = 15) (s q : Vec F S16x128 .f32) :
    rd (lastAt V c t h0 h1 s q).1 = k0_pay5 (k0_pay3 (blk0 V c 0 t) s) :=
  last_mean c (grid0.coords t) (ms0 t) (hs0 t) (ms1 t) (hs1 t) (ms2 t) (hs2 t) accS (Memref.isWhole_whole _) accQ (Memref.isWhole_whole _) _ _ (blk0 V c 0 t) s q
theorem lastAt_std (c : Dev nD) (t : Fin cfg0.N) (h0 : ¬t.val % 16 = 0) (h1 : t.val % 16 = 15) (s q : Vec F S16x128 .f32) :
    rd (lastAt V c t h0 h1 s q).2.1 = k0_pay6 (k0_pay3 (blk0 V c 0 t) s) (k0_pay4 (blk0 V c 0 t) q) :=
  last_std c (grid0.coords t) (ms0 t) (hs0 t) (ms1 t) (hs1 t) (ms2 t) (hs2 t) accS (Memref.isWhole_whole _) accQ (Memref.isWhole_whole _) _ _ (blk0 V c 0 t) s q

/-- The accumulators after a half's first tile: zero plus the tile's sums. -/
theorem st_first_s (c : Dev nD) (t : Fin cfg0.N) (h0 : t.val % 16 = 0) :
    (stAt V c t.val t.isLt).s = k0_pay3 (blk0 V c 0 t) k0_pay1 := by
  rw [stAt_first V c t h0]; exact firstAt_S V c t h0

theorem st_first_q (c : Dev nD) (t : Fin cfg0.N) (h0 : t.val % 16 = 0) :
    (stAt V c t.val t.isLt).q = k0_pay4 (blk0 V c 0 t) k0_pay2 := by
  rw [stAt_first V c t h0]; exact firstAt_Q V c t h0

/-- The accumulators after any other tile: what the tile before left plus this tile's sums. -/
theorem st_next_s (c : Dev nD) (t : Fin cfg0.N) (h0 : ¬t.val % 16 = 0) :
    (stAt V c t.val t.isLt).s = k0_pay3 (blk0 V c 0 t) (prevAt V c t).s := by
  by_cases h1 : t.val % 16 = 15
  · rw [stAt_last V c t h0 h1]; exact lastAt_S V c t h0 h1 (prevAt V c t).s (prevAt V c t).q
  · rw [stAt_mid V c t h0 h1]; exact midAt_S V c t h0 h1 (prevAt V c t).s (prevAt V c t).q

theorem st_next_q (c : Dev nD) (t : Fin cfg0.N) (h0 : ¬t.val % 16 = 0) :
    (stAt V c t.val t.isLt).q = k0_pay4 (blk0 V c 0 t) (prevAt V c t).q := by
  by_cases h1 : t.val % 16 = 15
  · rw [stAt_last V c t h0 h1]; exact lastAt_Q V c t h0 h1 (prevAt V c t).s (prevAt V c t).q
  · rw [stAt_mid V c t h0 h1]; exact midAt_Q V c t h0 h1 (prevAt V c t).s (prevAt V c t).q

/-- The result buffers after a half's last tile, from the accumulators as that tile leaves them. -/
theorem st_last_mean (c : Dev nD) (t : Fin cfg0.N) (h0 : ¬t.val % 16 = 0) (h1 : t.val % 16 = 15) :
    (stAt V c t.val t.isLt).mean = k0_pay5 (stAt V c t.val t.isLt).s := by
  rw [st_next_s V c t h0, stAt_last V c t h0 h1]
  exact lastAt_mean V c t h0 h1 (prevAt V c t).s (prevAt V c t).q

theorem st_last_std (c : Dev nD) (t : Fin cfg0.N) (h0 : ¬t.val % 16 = 0) (h1 : t.val % 16 = 15) :
    (stAt V c t.val t.isLt).std = k0_pay6 (stAt V c t.val t.isLt).s (stAt V c t.val t.isLt).q := by
  rw [st_next_s V c t h0, st_next_q V c t h0, stAt_last V c t h0 h1]
  exact lastAt_std V c t h0 h1 (prevAt V c t).s (prevAt V c t).q

end AtPoint

/-! ## Sums over row tiles -/

/-- The sum of `f` over row tile `k` of the plane of batch entry `b` and channel `ch`. -/
def tileSum (f : Cert.Spec.SX.Idx → EReal) (b : Fin 16) (ch : Fin 256) (k : ℕ) : EReal :=
  ∑ r : Fin 8, ∑ w : Fin 128, f (ix4 b ch (rowN k r) w)

/-- The sum of `f` over the first `k + 1` row tiles of that plane. -/
def partSum (f : Cert.Spec.SX.Idx → EReal) (b : Fin 16) (ch : Fin 256) (k : ℕ) : EReal :=
  ∑ h ∈ Finset.range (k + 1), tileSum f b ch h

theorem partSum_zero (f : Cert.Spec.SX.Idx → EReal) (b : Fin 16) (ch : Fin 256) : partSum f b ch 0 = tileSum f b ch 0 := by
  unfold partSum
  exact Finset.sum_range_one _

theorem partSum_succ (f : Cert.Spec.SX.Idx → EReal) (b : Fin 16) (ch : Fin 256) (k : ℕ) :
    partSum f b ch (k + 1) = partSum f b ch k + tileSum f b ch (k + 1) := by
  unfold partSum
  exact Finset.sum_range_succ _ _

/-- All sixteen tiles: the plane sum. -/
theorem partSum_last (f : Cert.Spec.SX.Idx → EReal) (b : Fin 16) (ch : Fin 256) :
    partSum f b ch 15 = Cert.Spec.planeSum f b ch := by
  unfold partSum Cert.Spec.planeSum
  show ∑ h ∈ Finset.range 16, tileSum f b ch h = _
  rw [Finset.sum_range]
  refine Finset.sum_congr rfl fun h _ => ?_
  unfold tileSum
  exact Finset.sum_congr rfl fun r _ => Finset.sum_congr rfl fun w _ => by rw [rowN_eq]

/-! ## The accumulation at the ideal instance -/

section Acc
variable (V : (c : Dev nD) → (b : Ref sig .tc) → Buf (Elt Ideal) ((c : Thread nD τ).loc b))

/-- The input array and the input block at a point, as arrays of extended reals. -/
abbrev xin (c : Dev nD) : Cert.Spec.SX.Idx → EReal := V c main_arg0
abbrev blkI (c : Dev nD) (t : Fin cfg0.N) : Vec Ideal S16x128x8x128 .f32 := blk0 V c 0 t

/-- The block sums the body adds at point `t` are the tile sums of the array. -/
theorem tile_at (c : Dev nD) (t : Fin cfg0.N) (p : Fin 16) (j : Fin 128) :
    ∑ r : Fin 8, ∑ w : Fin 128, blkI V c t (ix4 p j r w)
      = tileSum (xin V c) p (chan (t.val / 16) j) (t.val % 16) :=
  Finset.sum_congr rfl fun r _ => Finset.sum_congr rfl fun w _ => blk0_apply V c t p j r w

theorem tileQ_at (c : Dev nD) (t : Fin cfg0.N) (p : Fin 16) (j : Fin 128) :
    ∑ r : Fin 8, ∑ w : Fin 128, blkI V c t (ix4 p j r w) * blkI V c t (ix4 p j r w)
      = tileSum (fun i => xin V c i * xin V c i) p (chan (t.val / 16) j) (t.val % 16) :=
  Finset.sum_congr rfl fun r _ => Finset.sum_congr rfl fun w _ =>
    congrArg₂ (· * ·) (blk0_apply V c t p j r w) (blk0_apply V c t p j r w)

/-- After a half's first tile the sum accumulator holds that tile's sums. -/
theorem s_first (c : Dev nD) (t : Fin cfg0.N) (h0 : t.val % 16 = 0) (p : Fin 16) (j : Fin 128) :
    (stAt V c t.val t.isLt).s (ix2 p j) = tileSum (xin V c) p (chan (t.val / 16) j) (t.val % 16) := by
  rw [st_first_s V c t h0]
  refine (pay3_apply (blkI V c t) (k0_pay1 (F := Ideal)) p j).trans ?_
  rw [pay1_apply, zero_add]
  exact tile_at V c t p j

theorem q_first (c : Dev nD) (t : Fin cfg0.N) (h0 : t.val % 16 = 0) (p : Fin 16) (j : Fin 128) :
    (stAt V c t.val t.isLt).q (ix2 p j)
      = tileSum (fun i => xin V c i * xin V c i) p (chan (t.val / 16) j) (t.val % 16) := by
  rw [st_first_q V c t h0]
  refine (pay4_apply (blkI V c t) (k0_pay2 (F := Ideal)) p j).trans ?_
  rw [pay2_apply, zero_add]
  exact tileQ_at V c t p j

/-- After any other tile it holds what the tile before left plus this tile's sums. -/
theorem s_next (c : Dev nD) (t : Fin cfg0.N) (h0 : ¬t.val % 16 = 0) (p : Fin 16) (j : Fin 128) :
    (stAt V c t.val t.isLt).s (ix2 p j)
      = (prevAt V c t).s (ix2 p j) + tileSum (xin V c) p (chan (t.val / 16) j) (t.val % 16) := by
  rw [st_next_s V c t h0]
  refine (pay3_apply (blkI V c t) (prevAt V c t).s p j).trans ?_
  exact congrArg ((prevAt V c t).s (ix2 p j) + ·) (tile_at V c t p j)

theorem q_next (c : Dev nD) (t : Fin cfg0.N) (h0 : ¬t.val % 16 = 0) (p : Fin 16) (j : Fin 128) :
    (stAt V c t.val t.isLt).q (ix2 p j)
      = (prevAt V c t).q (ix2 p j)
        + tileSum (fun i => xin V c i * xin V c i) p (chan (t.val / 16) j) (t.val % 16) := by
  rw [st_next_q V c t h0]
  refine (pay4_apply (blkI V c t) (prevAt V c t).q p j).trans ?_
  exact congrArg ((prevAt V c t).q (ix2 p j) + ·) (tileQ_at V c t p j)

/-- THE INVARIANT: after tile `n % 16` of half `n / 16` the two accumulators hold, per batch entry and channel of
    the half, the sums of `x` and of `x * x` over the half's first `n % 16 + 1` row tiles — by induction on the point. -/
theorem acc_inv (c : Dev nD) : ∀ (n : ℕ) (hn : n < cfg0.N) (p : Fin 16) (j : Fin 128),
    (stAt V c n hn).s (ix2 p j) = partSum (xin V c) p (chan (n / 16) j) (n % 16)
    ∧ (stAt V c n hn).q (ix2 p j)
        = partSum (fun i => xin V c i * xin V c i) p (chan (n / 16) j) (n % 16)
  | 0, hn, p, j =>
    ⟨(s_first V c ⟨0, hn⟩ (Nat.zero_mod _) p j).trans (partSum_zero _ _ _).symm,
     (q_first V c ⟨0, hn⟩ (Nat.zero_mod _) p j).trans (partSum_zero _ _ _).symm⟩
  | m + 1, hn, p, j => by
    by_cases h0 : (m + 1) % 16 = 0
    · have hs := s_first V c ⟨m + 1, hn⟩ h0 p j
      have hq := q_first V c ⟨m + 1, hn⟩ h0 p j
      dsimp only at hs hq
      rw [h0] at hs hq
      rw [h0, partSum_zero, partSum_zero]
      exact ⟨hs, hq⟩
    · obtain ⟨ihs, ihq⟩ := acc_inv c m (Nat.lt_of_succ_lt hn) p j
      have e1 : (m + 1) / 16 = m / 16 := by omega
      have e2 : (m + 1) % 16 = m % 16 + 1 := by omega
      have hp : prevAt V c ⟨m + 1, hn⟩ = stAt V c m (Nat.lt_of_succ_lt hn) := rfl
      have hs := s_next V c ⟨m + 1, hn⟩ h0 p j
      have hq := q_next V c ⟨m + 1, hn⟩ h0 p j
      rw [hp] at hs hq
      dsimp only at hs hq
      rw [ihs] at hs
      rw [ihq] at hq
      rw [e1, e2, partSum_succ, partSum_succ]
      rw [e1, e2] at hs hq
      exact ⟨hs, hq⟩

/-! ## A half's last tile: the mean and the deviation of each plane -/

/-- Lane `j` of half `t / 16` is channel `128 (t / 16) + j` of the array. -/
theorem chan_eq (t : Fin cfg0.N) (j : Fin 128) (ch : Fin 256) (hch : ch.val = 128 * (t.val / 16) + j.val) :
    chan (t.val / 16) j = ch :=
  Fin.ext (by show (128 * (t.val / 16) + j.val) % 256 = ch.val; have := ch.isLt; omega)

/-- At a half's last tile the mean buffer holds, per batch entry and channel of the half, the mean of the plane. -/
theorem last_mean_at (c : Dev nD) (t : Fin cfg0.N) (h1 : t.val % 16 = 15) (p : Fin 16) (j : Fin 128) (ch : Fin 256)
    (hch : ch.val = 128 * (t.val / 16) + j.val) :
    (stAt (F := Ideal) V c t.val t.isLt).mean (ix2 p j) = Cert.Spec.meanAt (V c main_arg0) p ch := by
  have h0 : ¬t.val % 16 = 0 := by omega
  rw [st_last_mean V c t h0 h1]
  refine (pay5_apply (stAt V c t.val t.isLt).s p j).trans ?_
  rw [(acc_inv V c t.val t.isLt p j).1, h1, partSum_last, chan_eq t j ch hch]
  rfl

/-- … and the deviation buffer the deviation of the plane, in the one-pass form. -/
theorem last_std_at (c : Dev nD) (t : Fin cfg0.N) (h1 : t.val % 16 = 15) (p : Fin 16) (j : Fin 128) (ch : Fin 256)
    (hch : ch.val = 128 * (t.val / 16) + j.val) :
    (stAt (F := Ideal) V c t.val t.isLt).std (ix2 p j) = Cert.Spec.stdAt (V c main_arg0) p ch := by
  have h0 : ¬t.val % 16 = 0 := by omega
  rw [st_last_std V c t h0 h1]
  refine (pay6_apply (stAt V c t.val t.isLt).s (stAt V c t.val t.isLt).q p j).trans ?_
  rw [(acc_inv V c t.val t.isLt p j).1, (acc_inv V c t.val t.isLt p j).2, h1, partSum_last, partSum_last,
    chan_eq t j ch hch]
  rfl

end Acc

end Cert.KernelIdeal.Hand

end
-- ==== Proof.KI.StatsCover.lean ====
/-
  From blocks to arrays for the statistics kernel. Its two result arrays, the means and the deviations over
  (batch, channel), are written back in two blocks of 128 channels each, one per channel half, at the half's last
  tile: channel ch of either array lies in the block written at point 16 * (ch / 128) + 15, at lane ch % 128.
  If at those points the result buffers hold the plane mean and the plane deviation of the input, lane by lane,
  then after the run the two arrays hold the mean and the deviation of every plane.
-/
import proofs.«146710_j41394894799126_2_alg».proof.Proof.KI.StatsFrame
import proofs.«146710_j41394894799126_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## Where the result blocks sit -/

/-- The block of the mean array written at point t is block (0, t / 16): all sixteen batch entries, channel half t / 16. -/
theorem idx_mean : ∀ t : Fin cfg0.N, win0_1.index t (0 : Fin 2) = 0 ∧ win0_1.index t (1 : Fin 2) = t.val / 16 :=
  (by decide +kernel : ∀ t : Fin grid0.N, win0_1.index t (0 : Fin 2) = 0 ∧ win0_1.index t (1 : Fin 2) = t.val / 16)

/-- The deviation array's block at point t likewise. -/
theorem idx_std : ∀ t : Fin cfg0.N, win0_2.index t (0 : Fin 2) = 0 ∧ win0_2.index t (1 : Fin 2) = t.val / 16 :=
  (by decide +kernel : ∀ t : Fin grid0.N, win0_2.index t (0 : Fin 2) = 0 ∧ win0_2.index t (1 : Fin 2) = t.val / 16)

/-- An index of the mean array is in point t's block iff each coordinate is in the block's range on its axis. -/
theorem mem_blk_mean (t : Fin cfg0.N) (i : S16x256.Idx) :
    i ∈ ((cfg0.win 1).blk t).view.set ↔ ∀ a : Fin 2, win0_1.index t a * S16x128.size a ≤ (i a).val ∧ (i a).val < win0_1.index t a * S16x128.size a + S16x128.size a := by
  show i ∈ ((View.whole main_v0_0).slice (win0_1.rect t)).set ↔ _
  rw [View.set_slice_whole, Rect.mem_set_unit]
  exact Iff.rfl

theorem mem_blk_std (t : Fin cfg0.N) (i : S16x256.Idx) :
    i ∈ ((cfg0.win 2).blk t).view.set ↔ ∀ a : Fin 2, win0_2.index t a * S16x128.size a ≤ (i a).val ∧ (i a).val < win0_2.index t a * S16x128.size a + S16x128.size a := by
  show i ∈ ((View.whole main_v0_1).slice (win0_2.rect t)).set ↔ _
  rw [View.set_slice_whole, Rect.mem_set_unit]
  exact Iff.rfl

/-! ## What a flushing point writes back -/

/-- What a half's last tile writes back to the mean array is its block of the plane means. -/
theorem flushed_mean (c : Dev nD)
    (hmean : ∀ (t : Fin cfg0.N), t.val % 16 = 15 → ∀ (p : Fin 16) (j : Fin 128) (ch : Fin 256), ch.val = 128 * (t.val / 16) + j.val →
      (stAt (F := Ideal) V c t.val t.isLt).mean (ix2 p j) = Cert.Spec.meanAt (V c main_arg0) p ch)
    (t : Fin cfg0.N) (hf : (cfg0.win 1).flush t = true) :
    (dat0 (F := Ideal) V c).flushed 1 t = ((cfg0.win 1).blk t).view.read (Elt Ideal) (Cert.Spec.meanArr (V c main_arg0)) := by
  show (cfg0.win 1).cut (grid0.coords t) ((dat0 (F := Ideal) V c).after 1 t) = _
  rw [after0_mean]
  funext j
  obtain ⟨e0, e1⟩ := idx_mean t
  have h15 : t.val % 16 = 15 := (flush0_1 t).mp hf
  have hN : cfg0.N = 32 := N_0
  have ht : t.val < cfg0.N := t.isLt
  have hp : (j 0).val < 16 := (j 0).isLt
  have hq : (j 1).val < 128 := (j 1).isLt
  have hch : 128 * (t.val / 16) + (j 1).val < 256 := by omega
  have hL : (cfg0.win 1).xinj (grid0.coords t) j = ix2 (⟨(j 0).val, hp⟩ : Fin 16) (⟨(j 1).val, hq⟩ : Fin 128) :=
    funext fun a => by match a with | ⟨0, _⟩ => rfl | ⟨1, _⟩ => rfl
  have hR : ((cfg0.win 1).blk t).view.emb j = ix2 (⟨(j 0).val, hp⟩ : Fin 16) (⟨128 * (t.val / 16) + (j 1).val, hch⟩ : Fin 256) := by
    funext a; apply Fin.ext
    match a with
    | ⟨0, _⟩ => show win0_1.index t (0 : Fin 2) * 16 + 1 * (j 0).val = (j 0).val; omega
    | ⟨1, _⟩ => show win0_1.index t (1 : Fin 2) * 128 + 1 * (j 1).val = 128 * (t.val / 16) + (j 1).val; omega
  show (stAt (F := Ideal) V c t.val t.isLt).mean ((cfg0.win 1).xinj (grid0.coords t) j)
    = Cert.Spec.meanArr (V c main_arg0) (((cfg0.win 1).blk t).view.emb j)
  rw [hL, hR, hmean t h15 ⟨(j 0).val, hp⟩ ⟨(j 1).val, hq⟩ ⟨128 * (t.val / 16) + (j 1).val, hch⟩ rfl]
  rfl

/-- What a half's last tile writes back to the deviation array is its block of the plane deviations. -/
theorem flushed_std (c : Dev nD)
    (hstd : ∀ (t : Fin cfg0.N), t.val % 16 = 15 → ∀ (p : Fin 16) (j : Fin 128) (ch : Fin 256), ch.val = 128 * (t.val / 16) + j.val →
      (stAt (F := Ideal) V c t.val t.isLt).std (ix2 p j) = Cert.Spec.stdAt (V c main_arg0) p ch)
    (t : Fin cfg0.N) (hf : (cfg0.win 2).flush t = true) :
    (dat0 (F := Ideal) V c).flushed 2 t = ((cfg0.win 2).blk t).view.read (Elt Ideal) (Cert.Spec.stdArr (V c main_arg0)) := by
  show (cfg0.win 2).cut (grid0.coords t) ((dat0 (F := Ideal) V c).after 2 t) = _
  rw [after0_std]
  funext j
  obtain ⟨e0, e1⟩ := idx_std t
  have h15 : t.val % 16 = 15 := (flush0_2 t).mp hf
  have hN : cfg0.N = 32 := N_0
  have ht : t.val < cfg0.N := t.isLt
  have hp : (j 0).val < 16 := (j 0).isLt
  have hq : (j 1).val < 128 := (j 1).isLt
  have hch : 128 * (t.val / 16) + (j 1).val < 256 := by omega
  have hL : (cfg0.win 2).xinj (grid0.coords t) j = ix2 (⟨(j 0).val, hp⟩ : Fin 16) (⟨(j 1).val, hq⟩ : Fin 128) :=
    funext fun a => by match a with | ⟨0, _⟩ => rfl | ⟨1, _⟩ => rfl
  have hR : ((cfg0.win 2).blk t).view.emb j = ix2 (⟨(j 0).val, hp⟩ : Fin 16) (⟨128 * (t.val / 16) + (j 1).val, hch⟩ : Fin 256) := by
    funext a; apply Fin.ext
    match a with
    | ⟨0, _⟩ => show win0_2.index t (0 : Fin 2) * 16 + 1 * (j 0).val = (j 0).val; omega
    | ⟨1, _⟩ => show win0_2.index t (1 : Fin 2) * 128 + 1 * (j 1).val = 128 * (t.val / 16) + (j 1).val; omega
  show (stAt (F := Ideal) V c t.val t.isLt).std ((cfg0.win 2).xinj (grid0.coords t) j)
    = Cert.Spec.stdArr (V c main_arg0) (((cfg0.win 2).blk t).view.emb j)
  rw [hL, hR, hstd t h15 ⟨(j 0).val, hp⟩ ⟨(j 1).val, hq⟩ ⟨128 * (t.val / 16) + (j 1).val, hch⟩ rfl]
  rfl

/-! ## The two blocks cover the arrays -/

/-- The last tile of the channel half that holds channel k. -/
def lastTile (k : Fin 256) : Fin cfg0.N := ⟨16 * (k.val / 128) + 15, by rw [show cfg0.N = 32 from N_0]; omega⟩

theorem lastTile_mod (k : Fin 256) : (lastTile k).val % 16 = 15 := by
  show (16 * (k.val / 128) + 15) % 16 = 15; omega

theorem lastTile_div (k : Fin 256) : (lastTile k).val / 16 = k.val / 128 := by
  show (16 * (k.val / 128) + 15) / 16 = k.val / 128; omega

/-- Every index of the mean array lies in the block written back at the last tile of its channel's half. -/
theorem cover_mean (i : S16x256.Idx) :
    ∃ t : Fin cfg0.N, (cfg0.win 1).flush t = true ∧ i ∈ ((cfg0.win 1).blk t).view.set := by
  have h0 : (i 0).val < 16 := (i 0).isLt
  have h1 : (i 1).val < 256 := (i 1).isLt
  refine ⟨lastTile ⟨(i 1).val, h1⟩, (flush0_1 _).mpr (lastTile_mod _), ?_⟩
  rw [mem_blk_mean]
  obtain ⟨e0, e1⟩ := idx_mean (lastTile ⟨(i 1).val, h1⟩)
  have ed := lastTile_div ⟨(i 1).val, h1⟩
  intro a
  match a with
  | ⟨0, _⟩ =>
    show win0_1.index (lastTile ⟨(i 1).val, h1⟩) (0 : Fin 2) * 16 ≤ (i 0).val ∧ (i 0).val < win0_1.index (lastTile ⟨(i 1).val, h1⟩) (0 : Fin 2) * 16 + 16
    omega
  | ⟨1, _⟩ =>
    show win0_1.index (lastTile ⟨(i 1).val, h1⟩) (1 : Fin 2) * 128 ≤ (i 1).val ∧ (i 1).val < win0_1.index (lastTile ⟨(i 1).val, h1⟩) (1 : Fin 2) * 128 + 128
    rw [e1, ed]; show (i 1).val / 128 * 128 ≤ (i 1).val ∧ (i 1).val < (i 1).val / 128 * 128 + 128; omega

/-- Every index of the deviation array lies in the block written back at the last tile of its channel's half. -/
theorem cover_std (i : S16x256.Idx) :
    ∃ t : Fin cfg0.N, (cfg0.win 2).flush t = true ∧ i ∈ ((cfg0.win 2).blk t).view.set := by
  have h0 : (i 0).val < 16 := (i 0).isLt
  have h1 : (i 1).val < 256 := (i 1).isLt
  refine ⟨lastTile ⟨(i 1).val, h1⟩, (flush0_2 _).mpr (lastTile_mod _), ?_⟩
  rw [mem_blk_std]
  obtain ⟨e0, e1⟩ := idx_std (lastTile ⟨(i 1).val, h1⟩)
  have ed := lastTile_div ⟨(i 1).val, h1⟩
  intro a
  match a with
  | ⟨0, _⟩ =>
    show win0_2.index (lastTile ⟨(i 1).val, h1⟩) (0 : Fin 2) * 16 ≤ (i 0).val ∧ (i 0).val < win0_2.index (lastTile ⟨(i 1).val, h1⟩) (0 : Fin 2) * 16 + 16
    omega
  | ⟨1, _⟩ =>
    show win0_2.index (lastTile ⟨(i 1).val, h1⟩) (1 : Fin 2) * 128 ≤ (i 1).val ∧ (i 1).val < win0_2.index (lastTile ⟨(i 1).val, h1⟩) (1 : Fin 2) * 128 + 128
    rw [e1, ed]; show (i 1).val / 128 * 128 ≤ (i 1).val ∧ (i 1).val < (i 1).val / 128 * 128 + 128; omega

/-! ## The arrays after the run -/

/-- THE STATISTICS KERNEL'S RESULT ARRAYS: if every half's last tile leaves the plane means and the plane deviations in
    the result buffers, the mean array ends holding every plane's mean and the deviation array every plane's deviation. -/
theorem stats_value_of (V : (c : Dev nD) → (b : Ref sig .tc) → Buf (Elt Ideal) ((c : Thread nD τ).loc b)) (c : Dev nD)
    (hmean : ∀ (t : Fin cfg0.N), t.val % 16 = 15 → ∀ (p : Fin 16) (j : Fin 128) (ch : Fin 256), ch.val = 128 * (t.val / 16) + j.val →
      (stAt (F := Ideal) V c t.val t.isLt).mean (ix2 p j) = Cert.Spec.meanAt (V c main_arg0) p ch)
    (hstd : ∀ (t : Fin cfg0.N), t.val % 16 = 15 → ∀ (p : Fin 16) (j : Fin 128) (ch : Fin 256), ch.val = 128 * (t.val / 16) + j.val →
      (stAt (F := Ideal) V c t.val t.isLt).std (ix2 p j) = Cert.Spec.stdAt (V c main_arg0) p ch) :
    (dat0 (F := Ideal) V c).arrAt 1 cfg0.N = Cert.Spec.meanArr (V c main_arg0)
      ∧ (dat0 (F := Ideal) V c).arrAt 2 cfg0.N = Cert.Spec.stdArr (V c main_arg0) :=
  ⟨(dat0 (F := Ideal) V c).arrAt_eq_of_cover 1 (Cert.Spec.meanArr (V c main_arg0)) (fun t hf => flushed_mean V c hmean t hf) cover_mean,
   (dat0 (F := Ideal) V c).arrAt_eq_of_cover 2 (Cert.Spec.stdArr (V c main_arg0)) (fun t hf => flushed_std V c hstd t hf) cover_std⟩

end Cert.KernelIdeal.Hand

end
-- ==== Proof.KI.StatsValue.lean ====
/-
  What the statistics region leaves in the mean and deviation arrays: at each half's last tile the result buffers
  hold the plane means and deviations of that half's channels (the accumulation over the sixteen tiles), and those
  blocks, written back at exactly those points, tile the two arrays.
-/
import proofs.«146710_j41394894799126_2_alg».proof.Proof.KI.StatsSums
import proofs.«146710_j41394894799126_2_alg».proof.Proof.KI.StatsCover

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The statistics region's two result arrays are the plane means and deviations of the input it was entered with. -/
theorem stats_value (V : (c : Dev nD) → (b : Ref sig .tc) → Buf (Elt Ideal) ((c : Thread nD τ).loc b)) (c : Dev nD) :
    (dat0 (F := Ideal) V c).arrAt 1 cfg0.N = Cert.Spec.meanArr (V c main_arg0)
      ∧ (dat0 (F := Ideal) V c).arrAt 2 cfg0.N = Cert.Spec.stdArr (V c main_arg0) :=
  stats_value_of V c (fun t h1 p j ch hch => last_mean_at V c t h1 p j ch hch)
    (fun t h1 p j ch hch => last_std_at V c t h1 p j ch hch)

end Cert.KernelIdeal.Hand

end
-- ==== Proof.Tail.lean ====
/-
  The gate both programs compute from the two channel descriptors: three squeeze-excite blocks
  (`relu (d · w1ᵀ + b1) · w2ᵀ + b2`), a bottleneck over the concatenation of the first two, and the logistic
  function of the third block's result, written with the host operations in the order the program applies them.
  The result array is the input scaled, per batch entry and channel, by that gate.
-/
import proofs.«146710_j41394894799126_2_alg».proof.KernelIdeal
import proofs.«146710_j41394894799126_2_alg».proof.Proof.Spec

noncomputable section

namespace Cert.KernelIdeal.Bridge

open Idealize.ShloMosaic Idealize.ShloMosaic.ValueIdx
open Cert.KernelIdeal Cert.KernelIdeal.Facts₀ Cert.KernelIdeal.Facts

variable {F : FTy → Type} [FloatOps F] [Cert.KernelIdeal.Facts]

/-- One squeeze-excite block on a descriptor `d`: `relu (d · w1ᵀ + b1) · w2ᵀ + b2`. -/
def se (d : FVec F S16x256 .f32) (w1 : FVec F S16x256 .f32) (b1 : FVec F S16 .f32) (w2 : FVec F S256x16 .f32)
    (b2 : FVec F S256 .f32) : FVec F S16x256 .f32 :=
  addf
    (Host.dotGeneral dot_S16x16_S16x256_S16x256_1_0_0_1_n_n none
      (maximumf
        (addf
          (Host.dotGeneral dot_S16x256_S256x16_S16x16_1_0_0_1_n_n none d (transpose S256x16 [1, 0] w1 transposes_S16x256_S256x16_1_0))
          (broadcastInDim S16x16 ![0, 1] bcast_S1x16_S16x16_0_1 (broadcastInDim S1x16 ![1] bcast_S16_S1x16_1 b1)))
        (broadcastInDim S16x16 ![] bcast_S_S16x16 (constant S_ .f32 0x00000000#32)))
      (transpose S16x256 [1, 0] w2 transposes_S256x16_S16x256_1_0))
    (broadcastInDim S16x256 ![0, 1] bcast_S1x256_S16x256_0_1 (broadcastInDim S1x256 ![1] bcast_S256_S1x256_1 b2))

/-- The bottleneck: `relu ([p | q] · wbᵀ + bb)`. -/
def neck (p q : FVec F S16x256 .f32) (wb : FVec F S256x512 .f32) (bb : FVec F S256 .f32) : FVec F S16x256 .f32 :=
  maximumf
    (addf
      (Host.dotGeneral dot_S16x512_S512x256_S16x256_1_0_0_1_n_n none
        (concatenate S16x512 1 [⟨S16x256, p⟩, ⟨S16x256, q⟩] concatenates_S16x256_S16x256_S16x512_d1)
        (transpose S512x256 [1, 0] wb transposes_S256x512_S512x256_1_0))
      (broadcastInDim S16x256 ![0, 1] bcast_S1x256_S16x256_0_1 (broadcastInDim S1x256 ![1] bcast_S256_S1x256_1 bb)))
    (broadcastInDim S16x256 ![] bcast_S_S16x256 (constant S_ .f32 0x00000000#32))

/-- The logistic function as the host spells it: `1 / (1 + exp (-v))`. -/
def sigm (v : FVec F S16x256 .f32) : FVec F S16x256 .f32 :=
  Host.divf (broadcastInDim S16x256 ![] bcast_S_S16x256 (constant S_ .f32 0x3F800000#32))
    (addf (broadcastInDim S16x256 ![] bcast_S_S16x256 (constant S_ .f32 0x3F800000#32)) (Host.exp (Host.negf v)))

/-- The gate from the mean and deviation descriptors and the fourteen weight arrays (in the order of the program's
    arguments 1 … 14). -/
def gate (mean std : FVec F S16x256 .f32)
    (a1 : FVec F S16x256 .f32) (a2 : FVec F S16 .f32) (a3 : FVec F S256x16 .f32) (a4 : FVec F S256 .f32)
    (a5 : FVec F S16x256 .f32) (a6 : FVec F S16 .f32) (a7 : FVec F S256x16 .f32) (a8 : FVec F S256 .f32)
    (a9 : FVec F S256x512 .f32) (a10 : FVec F S256 .f32)
    (a11 : FVec F S16x256 .f32) (a12 : FVec F S16 .f32) (a13 : FVec F S256x16 .f32) (a14 : FVec F S256 .f32) :
    FVec F S16x256 .f32 :=
  sigm (se (neck (se std a1 a2 a3 a4) (se mean a5 a6 a7 a8) a9 a10) a11 a12 a13 a14)

/-- THE RESULT both programs end with, at the ideal instance: the input scaled by the gate of its own statistics. -/
def G [Cert.KernelIdeal.Facts] (x : FVec Ideal S16x256x128x128 .f32)
    (a1 : FVec Ideal S16x256 .f32) (a2 : FVec Ideal S16 .f32) (a3 : FVec Ideal S256x16 .f32) (a4 : FVec Ideal S256 .f32)
    (a5 : FVec Ideal S16x256 .f32) (a6 : FVec Ideal S16 .f32) (a7 : FVec Ideal S256x16 .f32) (a8 : FVec Ideal S256 .f32)
    (a9 : FVec Ideal S256x512 .f32) (a10 : FVec Ideal S256 .f32)
    (a11 : FVec Ideal S16x256 .f32) (a12 : FVec Ideal S16 .f32) (a13 : FVec Ideal S256x16 .f32) (a14 : FVec Ideal S256 .f32) :
    FVec Ideal S16x256x128x128 .f32 :=
  fun i => x i * gate (F := Ideal) (Cert.Spec.meanArr x) (Cert.Spec.stdArr x) a1 a2 a3 a4 a5 a6 a7 a8 a9 a10 a11 a12 a13 a14 (ix2 (i 0) (i 1))

end Cert.KernelIdeal.Bridge

end
-- ==== Proof.HostChain.lean ====
/-
  What the host operations between the two kernel regions compute. The first region leaves the mean and the
  deviation descriptors; nine stretches of host operations then apply, in order, the first squeeze-excite block
  to the deviation, the second to the mean, the bottleneck to their concatenation, the third block to the
  bottleneck's result, and the logistic function; the second region reads the result beside the untouched input.
  Each stretch is read once, over the buffers it finds, and the readings are chained into the gate of Tail.
-/
import proofs.«146710_j41394894799126_2_alg».proof.Proof.Gen.KernelIdeal.Regions
import proofs.«146710_j41394894799126_2_alg».proof.Proof.Tail

noncomputable section

namespace Cert.KernelIdeal.Bridge

open Idealize.ShloMosaic Idealize.ShloMosaic.TcCoe Idealize.ShloMosaic.ValueIdx
open Cert.KernelIdeal Cert.KernelIdeal.Facts₀ Cert.KernelIdeal.Facts

variable {F : FTy → Type} [FloatOps F] [Cert.KernelIdeal.Facts]

/-- The first half of a squeeze-excite block: d · w1ᵀ + b1. -/
def seIn (d : FVec F S16x256 .f32) (w1 : FVec F S16x256 .f32) (b1 : FVec F S16 .f32) : FVec F S16x16 .f32 :=
  addf
    (Host.dotGeneral dot_S16x256_S256x16_S16x16_1_0_0_1_n_n none d (transpose S256x16 [1, 0] w1 transposes_S16x256_S256x16_1_0))
    (broadcastInDim S16x16 ![0, 1] bcast_S1x16_S16x16_0_1 (broadcastInDim S1x16 ![1] bcast_S16_S1x16_1 b1))

/-- The clamp below at zero on the narrow (sixteen-wide) layer. -/
def relu16 (v : FVec F S16x16 .f32) : FVec F S16x16 .f32 :=
  maximumf v (broadcastInDim S16x16 ![] bcast_S_S16x16 (constant S_ .f32 0x00000000#32))

/-- The clamp below at zero on the channel layer. -/
def relu256 (v : FVec F S16x256 .f32) : FVec F S16x256 .f32 :=
  maximumf v (broadcastInDim S16x256 ![] bcast_S_S16x256 (constant S_ .f32 0x00000000#32))

/-- The second half of a squeeze-excite block: h · w2ᵀ + b2. -/
def seOut (h : FVec F S16x16 .f32) (w2 : FVec F S256x16 .f32) (b2 : FVec F S256 .f32) : FVec F S16x256 .f32 :=
  addf
    (Host.dotGeneral dot_S16x16_S16x256_S16x256_1_0_0_1_n_n none h (transpose S16x256 [1, 0] w2 transposes_S256x16_S16x256_1_0))
    (broadcastInDim S16x256 ![0, 1] bcast_S1x256_S16x256_0_1 (broadcastInDim S1x256 ![1] bcast_S256_S1x256_1 b2))

/-- The bottleneck before its clamp: [p | q] · wbᵀ + bb. -/
def neckIn (p q : FVec F S16x256 .f32) (wb : FVec F S256x512 .f32) (bb : FVec F S256 .f32) : FVec F S16x256 .f32 :=
  addf
    (Host.dotGeneral dot_S16x512_S512x256_S16x256_1_0_0_1_n_n none
      (concatenate S16x512 1 [⟨S16x256, p⟩, ⟨S16x256, q⟩] concatenates_S16x256_S16x256_S16x512_d1)
      (transpose S512x256 [1, 0] wb transposes_S256x512_S512x256_1_0))
    (broadcastInDim S16x256 ![0, 1] bcast_S1x256_S16x256_0_1 (broadcastInDim S1x256 ![1] bcast_S256_S1x256_1 bb))

theorem se_eq (d w1 : FVec F S16x256 .f32) (b1 : FVec F S16 .f32) (w2 : FVec F S256x16 .f32) (b2 : FVec F S256 .f32) :
    se d w1 b1 w2 b2 = seOut (relu16 (seIn d w1 b1)) w2 b2 := rfl

theorem neck_eq (p q : FVec F S16x256 .f32) (wb : FVec F S256x512 .f32) (bb : FVec F S256 .f32) :
    neck p q wb bb = relu256 (neckIn p q wb bb) := rfl

variable (m : (ℓ : Loc nD τ sig) → Buf (Elt F) ℓ) (outs : Gen.Outs (F := F)) (c : Dev nD)

/-! ## What each host stretch writes, over the buffers it finds

One lemma per stretch of host operations: the buffer a later stretch reads, as a term of the buffers the stretch
found; the reading holds whatever those buffers contain. -/

set_option maxHeartbeats 2000000 in
theorem V2_v5 : Gen.V2 m outs c main_v5
    = seIn (F := F) (Gen.V1 m outs c main_v0_1) (Gen.V1 m outs c main_arg1) (Gen.V1 m outs c main_arg2) := by
  show StableHlo.after Gen.hostOps1 (Gen.V1 m outs c) (Proc.devRef .tc main_v5) = _
  generalize Gen.V1 m outs c = W
  after_results_simp
  rfl

set_option maxHeartbeats 2000000 in
theorem V3_v6 : Gen.V3 m outs c main_v6
    = relu16 (F := F) (Gen.V2 m outs c main_v5) := by
  show StableHlo.after Gen.hostOps1_1 (Gen.V2 m outs c) (Proc.devRef .tc main_v6) = _
  generalize Gen.V2 m outs c = W
  after_results_simp
  rfl

set_option maxHeartbeats 2000000 in
theorem V4_v11 : Gen.V4 m outs c main_v11
    = seOut (F := F) (Gen.V3 m outs c main_v6) (Gen.V3 m outs c main_arg3) (Gen.V3 m outs c main_arg4) := by
  show StableHlo.after Gen.hostOps1_2 (Gen.V3 m outs c) (Proc.devRef .tc main_v11) = _
  generalize Gen.V3 m outs c = W
  after_results_simp
  rfl

set_option maxHeartbeats 2000000 in
theorem V4_v16 : Gen.V4 m outs c main_v16
    = seIn (F := F) (Gen.V3 m outs c main_v0_0) (Gen.V3 m outs c main_arg5) (Gen.V3 m outs c main_arg6) := by
  show StableHlo.after Gen.hostOps1_2 (Gen.V3 m outs c) (Proc.devRef .tc main_v16) = _
  generalize Gen.V3 m outs c = W
  after_results_simp
  rfl

set_option maxHeartbeats 2000000 in
theorem V5_v17 : Gen.V5 m outs c main_v17
    = relu16 (F := F) (Gen.V4 m outs c main_v16) := by
  show StableHlo.after Gen.hostOps1_3 (Gen.V4 m outs c) (Proc.devRef .tc main_v17) = _
  generalize Gen.V4 m outs c = W
  after_results_simp
  rfl

set_option maxHeartbeats 2000000 in
theorem V6_v28 : Gen.V6 m outs c main_v28
    = neckIn (F := F) (Gen.V5 m outs c main_v11) (seOut (Gen.V5 m outs c main_v17) (Gen.V5 m outs c main_arg7) (Gen.V5 m outs c main_arg8))
        (Gen.V5 m outs c main_arg9) (Gen.V5 m outs c main_arg10) := by
  show StableHlo.after Gen.hostOps1_4 (Gen.V5 m outs c) (Proc.devRef .tc main_v28) = _
  generalize Gen.V5 m outs c = W
  after_results_simp
  rfl

set_option maxHeartbeats 2000000 in
theorem V7_v29 : Gen.V7 m outs c main_v29
    = relu256 (F := F) (Gen.V6 m outs c main_v28) := by
  show StableHlo.after Gen.hostOps1_5 (Gen.V6 m outs c) (Proc.devRef .tc main_v29) = _
  generalize Gen.V6 m outs c = W
  after_results_simp
  rfl

set_option maxHeartbeats 2000000 in
theorem V8_v34 : Gen.V8 m outs c main_v34
    = seIn (F := F) (Gen.V7 m outs c main_v29) (Gen.V7 m outs c main_arg11) (Gen.V7 m outs c main_arg12) := by
  show StableHlo.after Gen.hostOps1_6 (Gen.V7 m outs c) (Proc.devRef .tc main_v34) = _
  generalize Gen.V7 m outs c = W
  after_results_simp
  rfl

set_option maxHeartbeats 2000000 in
theorem V9_v35 : Gen.V9 m outs c main_v35
    = relu16 (F := F) (Gen.V8 m outs c main_v34) := by
  show StableHlo.after Gen.hostOps1_7 (Gen.V8 m outs c) (Proc.devRef .tc main_v35) = _
  generalize Gen.V8 m outs c = W
  after_results_simp
  rfl

set_option maxHeartbeats 2000000 in
theorem V10_v46 : Gen.V10 m outs c main_v46
    = sigm (F := F) (seOut (Gen.V9 m outs c main_v35) (Gen.V9 m outs c main_arg13) (Gen.V9 m outs c main_arg14)) := by
  show StableHlo.after Gen.hostOps1_8 (Gen.V9 m outs c) (Proc.devRef .tc main_v46) = _
  generalize Gen.V9 m outs c = W
  after_results_simp
  rfl

/-! ## Buffers no stretch writes

A reference outside the descriptors the first region leaves and outside every list of written references up to a
stretch still holds its launch contents there. -/

theorem V1_kept (r : Ref sig .tc) (h0 : r ∉ ([main_v0_0, main_v0_1] : List (Ref sig .tc))) :
    Gen.V1 m outs c r = m ((c.tc : Thread nD τ).loc r) :=
  Gen.V1_of m outs c r h0

theorem V3_kept (r : Ref sig .tc) (h0 : r ∉ ([main_v0_0, main_v0_1] : List (Ref sig .tc)))
    (h1 : r ∉ Gen.hostOps1_W) (h2 : r ∉ Gen.hostOps1_1_W) :
    Gen.V3 m outs c r = m ((c.tc : Thread nD τ).loc r) :=
  (Gen.V3_of m outs c r h2).trans <| (Gen.V2_of m outs c r h1).trans <| V1_kept m outs c r h0

theorem V5_kept (r : Ref sig .tc) (h0 : r ∉ ([main_v0_0, main_v0_1] : List (Ref sig .tc)))
    (h1 : r ∉ Gen.hostOps1_W) (h2 : r ∉ Gen.hostOps1_1_W) (h3 : r ∉ Gen.hostOps1_2_W) (h4 : r ∉ Gen.hostOps1_3_W) :
    Gen.V5 m outs c r = m ((c.tc : Thread nD τ).loc r) :=
  (Gen.V5_of m outs c r h4).trans <| (Gen.V4_of m outs c r h3).trans <| V3_kept m outs c r h0 h1 h2

theorem V7_kept (r : Ref sig .tc) (h0 : r ∉ ([main_v0_0, main_v0_1] : List (Ref sig .tc)))
    (h1 : r ∉ Gen.hostOps1_W) (h2 : r ∉ Gen.hostOps1_1_W) (h3 : r ∉ Gen.hostOps1_2_W) (h4 : r ∉ Gen.hostOps1_3_W)
    (h5 : r ∉ Gen.hostOps1_4_W) (h6 : r ∉ Gen.hostOps1_5_W) :
    Gen.V7 m outs c r = m ((c.tc : Thread nD τ).loc r) :=
  (Gen.V7_of m outs c r h6).trans <| (Gen.V6_of m outs c r h5).trans <| V5_kept m outs c r h0 h1 h2 h3 h4

theorem V9_kept (r : Ref sig .tc) (h0 : r ∉ ([main_v0_0, main_v0_1] : List (Ref sig .tc)))
    (h1 : r ∉ Gen.hostOps1_W) (h2 : r ∉ Gen.hostOps1_1_W) (h3 : r ∉ Gen.hostOps1_2_W) (h4 : r ∉ Gen.hostOps1_3_W)
    (h5 : r ∉ Gen.hostOps1_4_W) (h6 : r ∉ Gen.hostOps1_5_W) (h7 : r ∉ Gen.hostOps1_6_W) (h8 : r ∉ Gen.hostOps1_7_W) :
    Gen.V9 m outs c r = m ((c.tc : Thread nD τ).loc r) :=
  (Gen.V9_of m outs c r h8).trans <| (Gen.V8_of m outs c r h7).trans <| V7_kept m outs c r h0 h1 h2 h3 h4 h5 h6

/-- The input reaches the second region as launched. -/
theorem x_kept : Gen.V10 m outs c main_arg0 = m ((c.tc : Thread nD τ).loc main_arg0) :=
  (Gen.V10_of m outs c main_arg0 (by decide)).trans <|
    V9_kept m outs c main_arg0 (by decide) (by decide) (by decide) (by decide) (by decide) (by decide) (by decide) (by decide) (by decide)

/-! ## The chain assembled -/

/-- The first block's result is still in place when the bottleneck reads it. -/
theorem V5_v11 : Gen.V5 m outs c main_v11 = Gen.V4 m outs c main_v11 := Gen.V5_of m outs c main_v11 (by decide)

/-- The mean descriptor is still in place when the second block reads it. -/
theorem V3_v0_0 : Gen.V3 m outs c main_v0_0 = Gen.V1 m outs c main_v0_0 :=
  (Gen.V3_of m outs c main_v0_0 (by decide)).trans (Gen.V2_of m outs c main_v0_0 (by decide))

/-- The buffer the second region scales the input by is the gate of the two descriptors the first region left. -/
theorem mask_eq : Gen.V10 m outs c main_v46
    = gate (F := F) (Gen.V1 m outs c main_v0_0) (Gen.V1 m outs c main_v0_1)
        (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg5)) (m ((c.tc : Thread nD τ).loc main_arg6))
        (m ((c.tc : Thread nD τ).loc main_arg7)) (m ((c.tc : Thread nD τ).loc main_arg8))
        (m ((c.tc : Thread nD τ).loc main_arg9)) (m ((c.tc : Thread nD τ).loc main_arg10))
        (m ((c.tc : Thread nD τ).loc main_arg11)) (m ((c.tc : Thread nD τ).loc main_arg12))
        (m ((c.tc : Thread nD τ).loc main_arg13)) (m ((c.tc : Thread nD τ).loc main_arg14)) := by
  rw [V10_v46, V9_v35, V8_v34, V7_v29, V6_v28, V5_v17, V5_v11, V4_v11, V4_v16, V3_v6, V2_v5, V3_v0_0]
  rw [V1_kept m outs c main_arg1 (by decide), V1_kept m outs c main_arg2 (by decide)]
  rw [V3_kept m outs c main_arg3 (by decide) (by decide) (by decide), V3_kept m outs c main_arg4 (by decide) (by decide) (by decide),
    V3_kept m outs c main_arg5 (by decide) (by decide) (by decide), V3_kept m outs c main_arg6 (by decide) (by decide) (by decide)]
  rw [V5_kept m outs c main_arg7 (by decide) (by decide) (by decide) (by decide) (by decide),
    V5_kept m outs c main_arg8 (by decide) (by decide) (by decide) (by decide) (by decide),
    V5_kept m outs c main_arg9 (by decide) (by decide) (by decide) (by decide) (by decide),
    V5_kept m outs c main_arg10 (by decide) (by decide) (by decide) (by decide) (by decide)]
  rw [V7_kept m outs c main_arg11 (by decide) (by decide) (by decide) (by decide) (by decide) (by decide) (by decide),
    V7_kept m outs c main_arg12 (by decide) (by decide) (by decide) (by decide) (by decide) (by decide) (by decide)]
  rw [V9_kept m outs c main_arg13 (by decide) (by decide) (by decide) (by decide) (by decide) (by decide) (by decide) (by decide) (by decide),
    V9_kept m outs c main_arg14 (by decide) (by decide) (by decide) (by decide) (by decide) (by decide) (by decide) (by decide) (by decide)]
  rfl

end Cert.KernelIdeal.Bridge

end
-- ==== Proof.KI.Value.lean ====
/-
  The kernel program's result array at the ideal instance, as one function of the argument arrays: the scaling
  region's write-backs tile the array with `x * gate` of its entry contents; those contents keep `x` as launched and
  hold the gate the nine stretches compute from the mean and deviation arrays; and those two arrays are what the
  statistics region's write-backs leave, the plane means and deviations of `x`.
-/
import proofs.«146710_j41394894799126_2_alg».proof.Proof.KI.Run
import proofs.«146710_j41394894799126_2_alg».proof.Proof.KI.ScaleValue
import proofs.«146710_j41394894799126_2_alg».proof.Proof.KI.StatsValue
import proofs.«146710_j41394894799126_2_alg».proof.Proof.HostChain
import proofs.«146710_j41394894799126_2_alg».proof.Proof.Tail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The gate the scaling region is entered with: the stretches' chain applied to the plane means and deviations of
    `x` and the fourteen weight arrays. -/
theorem entry_gate (m : (ℓ : Loc nD τ sig) → Buf (Elt Ideal) ℓ) (c : Dev nD) :
    Vin1 m c main_v46
      = Cert.KernelIdeal.Bridge.gate (F := Ideal) (Cert.Spec.meanArr (m ((c.tc : Thread nD τ).loc main_arg0))) (Cert.Spec.stdArr (m ((c.tc : Thread nD τ).loc main_arg0)))
          (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  show V10 m (outsA m) c main_v46 = _
  rw [Cert.KernelIdeal.Bridge.mask_eq m (outsA m) c, entry_mean m c, entry_std m c,
    (stats_value (Vin0 m) c).1, (stats_value (Vin0 m) c).2]

/-- The result array the idealized kernel program ends with is the input scaled by the gate of its own statistics. -/
theorem kernel_result (m : (ℓ : Loc nD τ sig) → Buf (Elt Ideal) ℓ) (c : Dev nD) :
    (dat1 (F := Ideal) (Vin1 m) c).arrAt 2 cfg1.N
      = Cert.KernelIdeal.Bridge.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (scale_value_of (Vin1 m) c _ _ (Cert.KernelIdeal.Bridge.x_kept m (outsA m) c) (entry_gate m c)).trans rfl

end Cert.KernelIdeal.Hand

end
-- ==== Proof.RefAlgebra.lean ====
/-
  The two ways of taking a plane's deviation agree on real entries, and a sum over the last two axes of the input
  is the plane sum taken tile by tile.

  For a plane of n = 16384 real numbers x with sum S, sum of squares Q and mean mu = S / n,
      (sum of (x - mu)^2) / n = Q / n - mu * mu,
  and the left side is a mean of squares, hence not negative: clamping the right side below at zero changes nothing,
  and the square roots of the two sides are the same extended real. The extended reals enter only through the
  coercion of these real numbers; every step of the algebra is taken in the reals.

  A sum over all (row, lane) pairs of a 128 x 128 plane is the sum over sixteen tiles of eight rows, row 8h + r
  being row r of tile h.
-/
import proofs.«146710_j41394894799126_2_alg».proof.Proof.Spec
import Idealize.ShloMosaic.PureOps.Ideal.Laws
import Idealize.ShloMosaic.PureOps.Reduce

noncomputable section

open scoped BigOperators

namespace Cert.Spec

open Idealize.ShloMosaic Idealize.ShloMosaic.ValueIdx

/-! ## Coercions of finite sums -/

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word both programs divide by denotes the real number 16384. -/
theorem count_eq : count = ((16384 : ℝ) : EReal) := by
  simp [count, Ideal.ofBits, Ideal.ieee, -EReal.coe_mul]; norm_num

/-- Division of a real by the count, in the extended reals, is the real quotient. -/
theorem div_count_coe (s : ℝ) : Ideal.div (s : EReal) count = ((s / 16384 : ℝ) : EReal) := by
  rw [count_eq, Ideal.div_coe (by norm_num), ← EReal.coe_mul, mul_one_div]

/-! ## The plane sum of real entries -/

/-- The plane sum of a real array, in the reals. -/
def planeSumR (f : SX.Idx → ℝ) (b : Fin 16) (ch : Fin 256) : ℝ :=
  ∑ h : Fin 16, ∑ r : Fin 8, ∑ w : Fin 128, f (ix4 b ch (row h r) w)

/-- The plane sum of the coercion of a real array is the coercion of its real plane sum. -/
theorem planeSum_coe (f : SX.Idx → ℝ) (b : Fin 16) (ch : Fin 256) :
    planeSum (fun i => (f i : EReal)) b ch = ((planeSumR f b ch : ℝ) : EReal) := by
  simp only [planeSum, planeSumR, coe_sum]

/-- The real plane sum as one sum over (tile, row, lane) triples. -/
theorem planeSumR_flat (f : SX.Idx → ℝ) (b : Fin 16) (ch : Fin 256) :
    planeSumR f b ch = ∑ p : Fin 16 × Fin 8 × Fin 128, f (ix4 b ch (row p.1 p.2.1) p.2.2) := by
  simp only [planeSumR, Fintype.sum_prod_type]

/-! ## The variance identity in the reals -/

/-- Over a finite index set of n ≠ 0 elements: the mean of the squared differences from the mean is the mean of the
    squares less the squared mean. -/
theorem mean_sq_diff {ι : Type*} [Fintype ι] (f : ι → ℝ) (n : ℝ) (hn : n ≠ 0) (hc : (Fintype.card ι : ℝ) = n) :
    (∑ i, (f i - (∑ j, f j) / n) * (f i - (∑ j, f j) / n)) / n
      = (∑ i, f i * f i) / n - ((∑ j, f j) / n) * ((∑ j, f j) / n) := by
  have hS : ∑ j, f j = (∑ j, f j) / n * n := by field_simp
  generalize (∑ j, f j) / n = μ at hS ⊢
  have e : ∑ i, (f i - μ) * (f i - μ) = ∑ i, f i * f i - 2 * μ * ∑ i, f i + (Fintype.card ι : ℝ) * (μ * μ) := by
    have : ∀ i, (f i - μ) * (f i - μ) = f i * f i - 2 * μ * f i + μ * μ := fun i => by ring
    simp only [this, Finset.sum_add_distrib, Finset.sum_sub_distrib, ← Finset.mul_sum, Finset.sum_const,
      Finset.card_univ, nsmul_eq_mul]
    ring
  rw [e, hS, hc]
  field_simp
  ring

/-- The same for a plane: with mu the real mean, the mean of (x - mu)^2 is the mean of x^2 less mu^2. -/
theorem plane_var (f : SX.Idx → ℝ) (b : Fin 16) (ch : Fin 256) :
    planeSumR (fun i => (f i - planeSumR f b ch / 16384) * (f i - planeSumR f b ch / 16384)) b ch / 16384
      = planeSumR (fun i => f i * f i) b ch / 16384 - planeSumR f b ch / 16384 * (planeSumR f b ch / 16384) := by
  have hc : (Fintype.card (Fin 16 × Fin 8 × Fin 128) : ℝ) = 16384 := by
    simp only [Fintype.card_prod, Fintype.card_fin]; norm_num
  have h := mean_sq_diff (fun p : Fin 16 × Fin 8 × Fin 128 => f (ix4 b ch (row p.1 p.2.1) p.2.2)) 16384
    (by norm_num) hc
  rw [planeSumR_flat (fun i => f i * f i), planeSumR_flat f,
    planeSumR_flat (fun i => (f i - _) * (f i - _))]
  exact h

/-- A mean of squares is not negative. -/
theorem plane_var_nonneg (g : SX.Idx → ℝ) (b : Fin 16) (ch : Fin 256) :
    0 ≤ planeSumR (fun i => g i * g i) b ch / 16384 :=
  div_nonneg (Finset.sum_nonneg fun _ _ => Finset.sum_nonneg fun _ _ => Finset.sum_nonneg fun _ _ =>
    mul_self_nonneg _) (by norm_num)

/-! ## The two deviations agree -/

/-- On real entries the two-pass deviation — the root of the mean of the squared differences from the mean — is the
    one-pass deviation `stdAt`. -/
theorem std_two_pass (x : SX.Idx → EReal) (hx : ∀ i, ∃ r : ℝ, x i = (r : EReal)) (b : Fin 16) (ch : Fin 256) :
    Ideal.sqrt (Ideal.div (planeSum (fun i => (x i - meanAt x b ch) * (x i - meanAt x b ch)) b ch) count)
      = stdAt x b ch := by
  choose f hf using hx
  obtain rfl : x = fun i => (f i : EReal) := funext hf
  have hm : meanAt (fun i => (f i : EReal)) b ch = ((planeSumR f b ch / 16384 : ℝ) : EReal) := by
    rw [meanAt, planeSum_coe, div_count_coe]
  have hq : Ideal.div (planeSum (fun i => (f i : EReal) * (f i : EReal)) b ch) count
      = ((planeSumR (fun i => f i * f i) b ch / 16384 : ℝ) : EReal) := by
    simp only [← EReal.coe_mul]
    rw [planeSum_coe, div_count_coe]
  unfold stdAt
  rw [hq, hm]
  simp only [← EReal.coe_sub, ← EReal.coe_mul]
  rw [planeSum_coe, div_count_coe, Ideal.ofBits_zero_f32, plane_var]
  have h0 : (0 : ℝ) ≤ planeSumR (fun i => f i * f i) b ch / 16384
      - planeSumR f b ch / 16384 * (planeSumR f b ch / 16384) := by
    rw [← plane_var]; exact plane_var_nonneg _ b ch
  rw [max_eq_left (EReal.coe_nonneg.mpr h0)]

end Cert.Spec

end
-- ==== Proof.RefReduce.lean ====
/-
  A host sum over the last two axes of the input, read at (batch b, channel ch), is the initial value plus the plane
  sum: the indices that reduce to (b, ch) are exactly (b, ch, y, w) over all rows y and lanes w, and the 128 rows are
  the sixteen tiles of eight rows, row 8h + r being row r of tile h.
-/
import proofs.«146710_j41394894799126_2_alg».proof.Proof.Spec
import Idealize.ShloMosaic.PureOps.Ideal.Laws
import Idealize.ShloMosaic.PureOps.Reduce

noncomputable section

open scoped BigOperators

namespace Cert.Spec

open Idealize.ShloMosaic Idealize.ShloMosaic.ValueIdx

/-- A sum over the 128 rows of a plane is the sum over sixteen tiles of eight rows. -/
theorem sum_rows {M : Type*} [AddCommMonoid M] (g : Fin 128 → M) :
    ∑ y : Fin 128, g y = ∑ h : Fin 16, ∑ r : Fin 8, g (row h r) := by
  rw [← Fintype.sum_prod_type' (fun (h : Fin 16) (r : Fin 8) => g (row h r))]
  refine (Fintype.sum_equiv (finProdFinEquiv (m := 16) (n := 8)) _ _ fun p => ?_).symm
  refine congrArg g (Fin.ext ?_)
  show 8 * p.1.val + p.2.val = p.2.val + 8 * p.1.val
  omega

/-- The indices of the input that a sum over axes 2 and 3 sends to (b, ch) are (b, ch, y, w), y and w free. -/
theorem sum_filter_drop (h : SX.ReducesTo [2, 3] SD) (x : SX.Idx → EReal) (b : Fin 16) (ch : Fin 256) :
    ∑ i ∈ Finset.univ.filter (fun i => h.drop i = ix2 b ch), x i
      = ∑ p : Fin 128 × Fin 128, x (ix4 b ch p.1 p.2) := by
  have h0 : ∀ i : SX.Idx, (h.drop i 0 : ℕ) = (i 0 : ℕ) := fun i => h.drop_apply_val_of_eq i 0 0
  have h1 : ∀ i : SX.Idx, (h.drop i 1 : ℕ) = (i 1 : ℕ) := fun i => h.drop_apply_val_of_eq i 1 1
  have key : ∀ i : SX.Idx, h.drop i = ix2 b ch → ix4 b ch (i 2 : Fin 128) (i 3 : Fin 128) = i := by
    intro i hi'
    have e0 : (b : ℕ) = (i 0 : ℕ) := (congrArg (fun k : SD.Idx => (k 0 : ℕ)) hi').symm.trans (h0 i)
    have e1 : (ch : ℕ) = (i 1 : ℕ) := (congrArg (fun k : SD.Idx => (k 1 : ℕ)) hi').symm.trans (h1 i)
    funext a
    match a with
    | ⟨0, _⟩ => exact Fin.ext e0
    | ⟨1, _⟩ => exact Fin.ext e1
    | ⟨2, _⟩ => rfl
    | ⟨3, _⟩ => rfl
  refine Finset.sum_bij' (fun i _ => ((i 2 : Fin 128), (i 3 : Fin 128))) (fun p _ => ix4 b ch p.1 p.2)
    (fun _ _ => Finset.mem_univ _) ?_ ?_ ?_ ?_
  · intro p _
    rw [Finset.mem_filter]
    refine ⟨Finset.mem_univ _, funext fun a => Fin.ext ?_⟩
    match a with
    | ⟨0, _⟩ => exact h0 _
    | ⟨1, _⟩ => exact h1 _
  · intro i hi
    exact key i (Finset.mem_filter.mp hi).2
  · intro p _; rfl
  · intro i hi
    exact congrArg x (key i (Finset.mem_filter.mp hi).2).symm

/-- The host's sum over axes 2 and 3 of the input, at (b, ch): the initial value plus the plane sum. -/
theorem hostReduceAdd_plane (h : SX.ReducesTo [2, 3] SD) (x : SX.Idx → EReal) (init : EReal) (b : Fin 16)
    (ch : Fin 256) : Ideal.hostReduceAdd h x init (ix2 b ch) = init + planeSum x b ch := by
  unfold Ideal.hostReduceAdd
  rw [sum_filter_drop, Fintype.sum_prod_type, sum_rows]
  rfl

/-- A plane sum only reads its summand on the plane. -/
theorem planeSum_congr {f g : SX.Idx → EReal} (b : Fin 16) (ch : Fin 256)
    (hfg : ∀ (y : Fin 128) (w : Fin 128), f (ix4 b ch y w) = g (ix4 b ch y w)) :
    planeSum f b ch = planeSum g b ch :=
  Finset.sum_congr rfl fun h _ => Finset.sum_congr rfl fun r _ => Finset.sum_congr rfl fun w _ => hfg (row h r) w

end Cert.Spec

end
-- ==== Proof.RefStats.lean ====
/-
  The reference's result at the ideal instance is the input scaled by the gate of its own channel statistics.

  Its mean stage is the plane sum over the count; its deviation stage is the two-pass deviation, the root of the mean
  of the squared differences from that mean, which on real entries is the one-pass deviation of the specification
  (the variance identity). From the two descriptors to the gate the reference applies, operation for operation, the
  chain the specification's gate spells, so that chain is never opened: the two terms are one term. The last stage
  broadcasts the gate over each plane and multiplies.
-/
import proofs.«146710_j41394894799126_2_alg».proof.Proof.Gen.ReferenceIdeal.Read
import proofs.«146710_j41394894799126_2_alg».proof.Proof.Tail
import proofs.«146710_j41394894799126_2_alg».proof.Proof.RefAlgebra
import proofs.«146710_j41394894799126_2_alg».proof.Proof.RefReduce

noncomputable section

namespace Cert.ReferenceIdeal.RefValue

open Cert.ReferenceIdeal Cert.ReferenceIdeal.Facts₀ Cert.ReferenceIdeal.Facts Idealize.ShloMosaic
  Idealize.ShloMosaic.ValueIdx

variable [Cert.KernelIdeal.Facts] [Cert.ReferenceIdeal.Facts]

/-! ## The two descriptors -/

/-- The two broadcasts [16,256] → [16,256,1,1] → [16,256,128,128] read the descriptor at (batch, channel). -/
theorem idx_plane (i : S16x256x128x128.Idx) :
    Read.idx_main_v3 (Read.idx_main_v4 i) = ix2 (n0 := 16) (n1 := 256) (i 0) (i 1) :=
  funext fun a => match a with
    | ⟨0, _⟩ => rfl
    | ⟨1, _⟩ => rfl

/-- The reference's mean stage at (b, ch) is the plane mean. -/
theorem mean_stage (x : FVec Ideal S16x256x128x128 .f32) (b : Fin 16) (ch : Fin 256) :
    Read.val_main_v2 (F := Ideal) x (ix2 b ch) = Cert.Spec.meanAt x b ch := by
  rw [Read.val_main_v2_apply, Read.val_main_v1_apply, Read.val_main_cst_0_apply]
  show Ideal.div (Ideal.hostReduceAdd reducesTo_S16x256x128x128_S16x256_d2_3 x (Ideal.ofBits .f32 0x00000000#32)
    (ix2 b ch)) Cert.Spec.count = _
  rw [Cert.Spec.hostReduceAdd_plane, Ideal.ofBits_zero_f32, zero_add]
  rfl

/-- The reference's squared differences from the mean, at an index. -/
theorem sq_diff_stage (x : FVec Ideal S16x256x128x128 .f32) (i : S16x256x128x128.Idx) :
    Read.val_main_v6 (F := Ideal) x i
      = (x i - Cert.Spec.meanAt x (i 0) (i 1)) * (x i - Cert.Spec.meanAt x (i 0) (i 1)) := by
  rw [Read.val_main_v6_apply, Read.val_main_v5_apply, Read.val_main_v4_apply, Read.val_main_v3_apply, idx_plane,
    mean_stage x (i 0) (i 1)]
  rfl

/-- The reference's deviation stage at (b, ch) is, on real entries, the one-pass deviation. -/
theorem std_stage (x : FVec Ideal S16x256x128x128 .f32) (hx : ∀ i, ∃ r : ℝ, x i = (r : EReal)) (b : Fin 16)
    (ch : Fin 256) : Read.val_main_v10 (F := Ideal) x (ix2 b ch) = Cert.Spec.stdAt x b ch := by
  rw [Read.val_main_v10_apply, Read.val_main_v9_apply, Read.val_main_v8_apply, Read.val_main_cst_2_apply]
  show Ideal.sqrt (Ideal.div (Ideal.hostReduceAdd reducesTo_S16x256x128x128_S16x256_d2_3
    (Read.val_main_v6 (F := Ideal) x) (Ideal.ofBits .f32 0x00000000#32) (ix2 b ch)) Cert.Spec.count) = _
  rw [Cert.Spec.hostReduceAdd_plane, Ideal.ofBits_zero_f32, zero_add,
    Cert.Spec.planeSum_congr (g := fun i => (x i - Cert.Spec.meanAt x b ch) * (x i - Cert.Spec.meanAt x b ch)) b ch
      (fun y w => sq_diff_stage x _)]
  exact Cert.Spec.std_two_pass x hx b ch

theorem mean_eq (x : FVec Ideal S16x256x128x128 .f32) : Read.val_main_v2 (F := Ideal) x = Cert.Spec.meanArr x := by
  funext j
  obtain ⟨b, ch, rfl⟩ : ∃ (b : Fin 16) (ch : Fin 256), j = ix2 b ch := ⟨j 0, j 1, eq_ix2 j⟩
  exact mean_stage x b ch

theorem std_eq (x : FVec Ideal S16x256x128x128 .f32) (hx : ∀ i, ∃ r : ℝ, x i = (r : EReal)) :
    Read.val_main_v10 (F := Ideal) x = Cert.Spec.stdArr x := by
  funext j
  obtain ⟨b, ch, rfl⟩ : ∃ (b : Fin 16) (ch : Fin 256), j = ix2 b ch := ⟨j 0, j 1, eq_ix2 j⟩
  exact std_stage x hx b ch

end Cert.ReferenceIdeal.RefValue

end
-- ==== Proof.RefGate.lean ====
/-
  From the two channel descriptors to the gate the reference applies, operation for operation, the chain of host
  operations the specification's gate spells: a squeeze-excite block on the deviation, one on the mean, the
  bottleneck over their concatenation, a third squeeze-excite block, the logistic function. Each block of the
  reference is the specification's block of the same operands — the two are one term, up to the names of the shape
  records — so the gate is never opened: it is carried as one function of the descriptors and the weights.
-/
import proofs.«146710_j41394894799126_2_alg».proof.Proof.Gen.ReferenceIdeal.Read
import proofs.«146710_j41394894799126_2_alg».proof.Proof.Tail

noncomputable section

namespace Cert.ReferenceIdeal.RefValue

open Cert.ReferenceIdeal Idealize.ShloMosaic

variable {F : FTy → Type} [FloatOps F] [Cert.KernelIdeal.Facts] [Cert.ReferenceIdeal.Facts]

/-- The squeeze-excite block on the deviation descriptor. -/
theorem block_std (x : FVec F S16x256x128x128 .f32) (a1 : FVec F S16x256 .f32) (a2 : FVec F S16 .f32) (a3 : FVec F S256x16 .f32) (a4 : FVec F S256 .f32) :
    Read.val_main_v21 (F := F) x a1 a2 a3 a4
      = Cert.KernelIdeal.Bridge.se (F := F) (Read.val_main_v10 (F := F) x) a1 a2 a3 a4 := rfl

/-- The squeeze-excite block on the mean descriptor. -/
theorem block_mean (x : FVec F S16x256x128x128 .f32) (a5 : FVec F S16x256 .f32) (a6 : FVec F S16 .f32) (a7 : FVec F S256x16 .f32) (a8 : FVec F S256 .f32) :
    Read.val_main_v32 (F := F) x a5 a6 a7 a8
      = Cert.KernelIdeal.Bridge.se (F := F) (Read.val_main_v2 (F := F) x) a5 a6 a7 a8 := rfl

/-- The bottleneck over the concatenation of the two blocks' results. -/
theorem block_neck (x : FVec F S16x256x128x128 .f32) (a1 : FVec F S16x256 .f32) (a2 : FVec F S16 .f32) (a3 : FVec F S256x16 .f32) (a4 : FVec F S256 .f32) (a5 : FVec F S16x256 .f32) (a6 : FVec F S16 .f32) (a7 : FVec F S256x16 .f32) (a8 : FVec F S256 .f32) (a9 : FVec F S256x512 .f32) (a10 : FVec F S256 .f32) :
    Read.val_main_v39 (F := F) x a1 a2 a3 a4 a5 a6 a7 a8 a9 a10
      = Cert.KernelIdeal.Bridge.neck (F := F) (Read.val_main_v21 (F := F) x a1 a2 a3 a4)
          (Read.val_main_v32 (F := F) x a5 a6 a7 a8) a9 a10 := rfl

/-- The third squeeze-excite block, on the bottleneck's result. -/
theorem block_final (x : FVec F S16x256x128x128 .f32) (a1 : FVec F S16x256 .f32) (a2 : FVec F S16 .f32) (a3 : FVec F S256x16 .f32) (a4 : FVec F S256 .f32) (a5 : FVec F S16x256 .f32) (a6 : FVec F S16 .f32) (a7 : FVec F S256x16 .f32) (a8 : FVec F S256 .f32) (a9 : FVec F S256x512 .f32) (a10 : FVec F S256 .f32) (a11 : FVec F S16x256 .f32) (a12 : FVec F S16 .f32) (a13 : FVec F S256x16 .f32) (a14 : FVec F S256 .f32) :
    Read.val_main_v50 (F := F) x a1 a2 a3 a4 a5 a6 a7 a8 a9 a10 a11 a12 a13 a14
      = Cert.KernelIdeal.Bridge.se (F := F) (Read.val_main_v39 (F := F) x a1 a2 a3 a4 a5 a6 a7 a8 a9 a10)
          a11 a12 a13 a14 := rfl

/-- The logistic function of the third block's result. -/
theorem block_sigm (x : FVec F S16x256x128x128 .f32) (a1 : FVec F S16x256 .f32) (a2 : FVec F S16 .f32) (a3 : FVec F S256x16 .f32) (a4 : FVec F S256 .f32) (a5 : FVec F S16x256 .f32) (a6 : FVec F S16 .f32) (a7 : FVec F S256x16 .f32) (a8 : FVec F S256 .f32) (a9 : FVec F S256x512 .f32) (a10 : FVec F S256 .f32) (a11 : FVec F S16x256 .f32) (a12 : FVec F S16 .f32) (a13 : FVec F S256x16 .f32) (a14 : FVec F S256 .f32) :
    Read.val_main_v56 (F := F) x a1 a2 a3 a4 a5 a6 a7 a8 a9 a10 a11 a12 a13 a14
      = Cert.KernelIdeal.Bridge.sigm (F := F) (Read.val_main_v50 (F := F) x a1 a2 a3 a4 a5 a6 a7 a8 a9 a10 a11 a12 a13 a14) := rfl

/-- The reference's gate stage is the specification's gate of its own mean and deviation stages. -/
theorem gate_eq (x : FVec F S16x256x128x128 .f32) (a1 : FVec F S16x256 .f32) (a2 : FVec F S16 .f32) (a3 : FVec F S256x16 .f32) (a4 : FVec F S256 .f32) (a5 : FVec F S16x256 .f32) (a6 : FVec F S16 .f32) (a7 : FVec F S256x16 .f32) (a8 : FVec F S256 .f32) (a9 : FVec F S256x512 .f32) (a10 : FVec F S256 .f32) (a11 : FVec F S16x256 .f32) (a12 : FVec F S16 .f32) (a13 : FVec F S256x16 .f32) (a14 : FVec F S256 .f32) :
    Read.val_main_v56 (F := F) x a1 a2 a3 a4 a5 a6 a7 a8 a9 a10 a11 a12 a13 a14
      = Cert.KernelIdeal.Bridge.gate (F := F) (Read.val_main_v2 (F := F) x) (Read.val_main_v10 (F := F) x)
          a1 a2 a3 a4 a5 a6 a7 a8 a9 a10 a11 a12 a13 a14 := by
  rw [block_sigm, block_final, block_neck, block_std, block_mean]
  rfl

end Cert.ReferenceIdeal.RefValue

end
-- ==== Proof.RefValue.lean ====
/-
  The reference's result is the specification's: at every index the input entry times the gate, at the entry's
  (batch, channel), of the plane means and the one-pass plane deviations. The last three stages broadcast the gate
  [16,256] → [16,256,1,1] → [16,256,128,128] and multiply; the gate stage is the specification's gate of the
  reference's own mean and deviation stages, and those are the specification's descriptors when every entry of the
  input is a real number.
-/
import proofs.«146710_j41394894799126_2_alg».proof.Proof.RefStats
import proofs.«146710_j41394894799126_2_alg».proof.Proof.RefGate

noncomputable section

namespace Cert.ReferenceIdeal.RefValue

open Cert.ReferenceIdeal Idealize.ShloMosaic Idealize.ShloMosaic.ValueIdx

variable [Cert.KernelIdeal.Facts] [Cert.ReferenceIdeal.Facts]

/-- The two broadcasts of the gate read it at the entry's (batch, channel). -/
theorem idx_gate (i : S16x256x128x128.Idx) :
    Read.idx_main_v57 (Read.idx_main_v58 i) = ix2 (n0 := 16) (n1 := 256) (i 0) (i 1) :=
  funext fun a => match a with
    | ⟨0, _⟩ => rfl
    | ⟨1, _⟩ => rfl

/-- The reference's result array, at the ideal instance and on real entries, is the input scaled by the gate of its
    plane means and one-pass plane deviations. -/
theorem result_eq (x : FVec Ideal S16x256x128x128 .f32) (a1 : FVec Ideal S16x256 .f32) (a2 : FVec Ideal S16 .f32) (a3 : FVec Ideal S256x16 .f32) (a4 : FVec Ideal S256 .f32) (a5 : FVec Ideal S16x256 .f32) (a6 : FVec Ideal S16 .f32) (a7 : FVec Ideal S256x16 .f32) (a8 : FVec Ideal S256 .f32) (a9 : FVec Ideal S256x512 .f32) (a10 : FVec Ideal S256 .f32) (a11 : FVec Ideal S16x256 .f32) (a12 : FVec Ideal S16 .f32) (a13 : FVec Ideal S256x16 .f32) (a14 : FVec Ideal S256 .f32)
    (hx : ∀ i, ∃ r : ℝ, x i = (r : EReal)) :
    Read.val_main_v59 (F := Ideal) x a1 a2 a3 a4 a5 a6 a7 a8 a9 a10 a11 a12 a13 a14
      = Cert.KernelIdeal.Bridge.G x a1 a2 a3 a4 a5 a6 a7 a8 a9 a10 a11 a12 a13 a14 := by
  funext i
  rw [Read.val_main_v59_apply, Read.val_main_v58_apply, Read.val_main_v57_apply, idx_gate, gate_eq, mean_eq,
    std_eq x hx]
  rfl

end Cert.ReferenceIdeal.RefValue

end
-- ==== Proof.Finite.lean ====
/-
  From the precondition to the finiteness of the input. The precondition is a conjunction of fifteen
  "every entry has absolute value below +∞" tests, one per argument array, nested to the left, so that the
  test of the input x is its innermost, first conjunct. An extended real whose absolute value max x (-x)
  lies strictly below +∞ is neither +∞ nor -∞, hence a real number.
-/
import proofs.«146710_j41394894799126_2_alg».proof.Defs
import Idealize.ShloMosaic.Lib.ReduceAll
import Idealize.ShloMosaic.Lib.ValueIdx

noncomputable section

namespace Cert.KernelIdeal.Bridge

open Idealize.ShloMosaic Idealize.ShloMosaic.ValueIdx
open Cert.Pre_finite_inputs Cert.Pre_finite_inputs.Facts

/-- A rank-zero array has one index. -/
instance subsingleton_scalar_idx : Subsingleton Cert.Pre_finite_inputs.S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real whose absolute value lies strictly below +∞ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

section Conjuncts

variable [Cert.Pre_finite_inputs.Facts]

/-! Each part of the conjunction only conjoins further tests to the conjunct it is handed: if the whole is
    one, so is the conjunct handed in. -/

theorem part4_left (a14 : FVec Ideal S256 .f32) (p q : IVec S_ 1)
    (h : fn_part4 (F := Ideal) a14 p q ix0 = 1#1) : p ix0 = 1#1 := by
  unfold fn_part4 at h
  exact (IntOp.andi_eq_one.1 (IntOp.andi_eq_one.1 h).1).1

theorem part3_left (a11 : FVec Ideal S16x256 .f32) (a12 : FVec Ideal S16 .f32) (a13 : FVec Ideal S256x16 .f32)
    (a14 : FVec Ideal S256 .f32) (p : IVec S_ 1) (u v : FVec Ideal S256 .f32)
    (h : fn_part3 (F := Ideal) a11 a12 a13 a14 p u v ix0 = 1#1) : p ix0 = 1#1 := by
  unfold fn_part3 at h
  have h1 := part4_left _ _ _ h
  exact (IntOp.andi_eq_one.1 (IntOp.andi_eq_one.1 (IntOp.andi_eq_one.1 h1).1).1).1

theorem part2_left (a7 : FVec Ideal S256x16 .f32) (a8 : FVec Ideal S256 .f32) (a9 : FVec Ideal S256x512 .f32)
    (a10 : FVec Ideal S256 .f32) (a11 : FVec Ideal S16x256 .f32) (a12 : FVec Ideal S16 .f32)
    (a13 : FVec Ideal S256x16 .f32) (a14 : FVec Ideal S256 .f32) (p : IVec S_ 1)
    (h : fn_part2 (F := Ideal) a7 a8 a9 a10 a11 a12 a13 a14 p ix0 = 1#1) : p ix0 = 1#1 := by
  unfold fn_part2 at h
  have h1 := part3_left _ _ _ _ _ _ _ h
  exact (IntOp.andi_eq_one.1 (IntOp.andi_eq_one.1 (IntOp.andi_eq_one.1 h1).1).1).1

theorem part1_left (a4 : FVec Ideal S256 .f32) (a5 : FVec Ideal S16x256 .f32) (a6 : FVec Ideal S16 .f32)
    (a7 : FVec Ideal S256x16 .f32) (a8 : FVec Ideal S256 .f32) (a9 : FVec Ideal S256x512 .f32)
    (a10 : FVec Ideal S256 .f32) (a11 : FVec Ideal S16x256 .f32) (a12 : FVec Ideal S16 .f32)
    (a13 : FVec Ideal S256x16 .f32) (a14 : FVec Ideal S256 .f32) (p : IVec S_ 1) (q : IVec S256x16 1)
    (h : fn_part1 (F := Ideal) a4 a5 a6 a7 a8 a9 a10 a11 a12 a13 a14 p q ix0 = 1#1) : p ix0 = 1#1 := by
  unfold fn_part1 at h
  have h1 := part2_left _ _ _ _ _ _ _ _ _ h
  exact (IntOp.andi_eq_one.1 (IntOp.andi_eq_one.1 (IntOp.andi_eq_one.1 (IntOp.andi_eq_one.1 h1).1).1).1).1

/-- The precondition at one gives the finiteness test of every entry of the first argument. -/
theorem fn_first (a0 : FVec Ideal S16x256x128x128 .f32) (a1 : FVec Ideal S16x256 .f32) (a2 : FVec Ideal S16 .f32)
    (a3 : FVec Ideal S256x16 .f32) (a4 : FVec Ideal S256 .f32) (a5 : FVec Ideal S16x256 .f32) (a6 : FVec Ideal S16 .f32)
    (a7 : FVec Ideal S256x16 .f32) (a8 : FVec Ideal S256 .f32) (a9 : FVec Ideal S256x512 .f32)
    (a10 : FVec Ideal S256 .f32) (a11 : FVec Ideal S16x256 .f32) (a12 : FVec Ideal S16 .f32)
    (a13 : FVec Ideal S256x16 .f32) (a14 : FVec Ideal S256 .f32)
    (h : fn (F := Ideal) a0 a1 a2 a3 a4 a5 a6 a7 a8 a9 a10 a11 a12 a13 a14 = fun _ => 1#1)
    (i : S16x256x128x128.Idx) : ∃ r : ℝ, a0 i = (r : EReal) := by
  have e := congrFun h ix0
  unfold fn at e
  have h1 := part1_left _ _ _ _ _ _ _ _ _ _ _ _ _ e
  have h3 := (IntOp.andi_eq_one.1 (IntOp.andi_eq_one.1 h1).1).1
  have hi := Host.reduce_andi_all _ _ _ _ ix0 h3 i
  apply real_of_abs_lt_top
  rw [← ofBits_inf]
  by_contra hn
  have : cmpf (F := Ideal) .olt (Host.absf a0)
      (broadcastInDim S16x256x128x128 ![] bcast_S_S16x256x128x128 (constant (F := Ideal) S_ .f32 0x7F800000#32)) i = 0#1 := by
    show BitVec.ofBool (decide (max (a0 i) (-(a0 i)) < Ideal.ofBits .f32 0x7F800000#32)) = 0#1
    rw [decide_eq_false hn]; rfl
  rw [this] at hi
  exact absurd hi (by decide)

end Conjuncts

/-- Under the precondition every entry of the input x, on every core, is a real number. -/
theorem finite_x [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) :=
  fun i => fn_first _ _ _ _ _ _ _ _ _ _ _ _ _ _ _ (h c) i

end Cert.KernelIdeal.Bridge

end
-- ==== Proof.lean ====
/-
  The certificate of a channel-gating kernel against its jnp reference, over the extended reals.

  Both programs take `x : f32[16, 256, 128, 128]` and fourteen weight arrays. For every batch entry and channel they
  form the mean and the (biased) standard deviation of the 128 x 128 plane of `x`, pass the two 16 x 256 descriptors
  through the same chain of host operations — three squeeze-excite blocks `relu (d · w1ᵀ + b1) · w2ᵀ + b2`, a bottleneck
  over the concatenation of the first two, the logistic function of the third — and return `x` scaled by that gate.

  The kernel program does it in two pallas_calls. The first walks each half of the channels through sixteen tiles of
  eight rows, accumulating the plane sums of `x` and of `x * x` in two buffers it carries from tile to tile, and at a
  half's last tile writes `mean = S / 16384` and `sqrt (max (Q / 16384 - mean * mean) 0)`. The second multiplies every
  block of `x` by the gate's block. The reference computes the deviation in two passes, `sqrt (sum (x - mean)^2 / 16384)`.
  On real entries the two deviations agree: the mean of squares less the squared mean IS the mean of squared
  deviations, a non-negative number, so the clamp at zero is the identity; this is where the precondition (every entry
  of `x` finite) is used. A different grouping of a plane's sum — sixteen tiles of eight rows of 128 lanes against one
  reduction over both axes — is no difference on the extended reals.

  The frames: each kernel program's run is assembled from its two regions' runs and the nine stretches of host
  operations between them, with every unscoped buffer held at named contents between items; the same text, generic in
  the float instance, serves the word-level program and the idealized one. The reference's frame is its generated run.
  Nothing was rewritten by the ideal pass, so `preserves` has nothing to state.
-/
import proofs.«146710_j41394894799126_2_alg».proof.Defs
import proofs.«146710_j41394894799126_2_alg».proof.Proof.Gen.Kernel
import proofs.«146710_j41394894799126_2_alg».proof.Proof.Gen.KernelIdeal
import proofs.«146710_j41394894799126_2_alg».proof.Proof.Gen.ReferenceIdeal
import proofs.«146710_j41394894799126_2_alg».proof.Proof.Gen.ReferenceIdeal.Run
import proofs.«146710_j41394894799126_2_alg».proof.Proof.Gen.ReferenceIdeal.Read
import proofs.«146710_j41394894799126_2_alg».proof.Proof.Gen.Pre_finite_inputs
import proofs.«146710_j41394894799126_2_alg».proof.Proof.KB.Run
import proofs.«146710_j41394894799126_2_alg».proof.Proof.KI.Run
import proofs.«146710_j41394894799126_2_alg».proof.Proof.KI.Value
import proofs.«146710_j41394894799126_2_alg».proof.Proof.RefValue
import proofs.«146710_j41394894799126_2_alg».proof.Proof.Finite
import Idealize.ShloMosaic.Adequacy
import Idealize.ShloMosaic.Init

noncomputable section

namespace Cert.Proof

open Idealize.ShloMosaic Idealize.SL.Sem

/-- The word-level kernel program runs to the end with its arguments unchanged. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal instance both programs end with the input scaled by the gate of its own plane statistics: the kernel
    program's result array is read off its two regions' write-backs and the stretches between them, the reference's off
    its run; the arguments agree, and the entries of `x` are real numbers by the precondition. -/
theorem algebraic : Cert.algebraic_KernelIdeal_ReferenceIdeal := by
  intro m ρ m' ρ' hpre hagree
  refine ⟨fun c => Cert.KernelIdeal.Bridge.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun _ h c => ⟨(h c).1.trans (Cert.KernelIdeal.Hand.kernel_result m c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v59_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
    exact Cert.ReferenceIdeal.RefValue.result_eq _ _ _ _ _ _ _ _ _ _ _ _ _ _ _ (Cert.KernelIdeal.Bridge.finite_x m hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
